-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x1024 .f32) (main_arg1 : FVec F S1024x1024 .f32) (main_arg2 : FVec F S1024x1024 .f32) (main_arg3 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x1024 : Shape := ⟨3, ![4, 4096, 1024]⟩
abbrev S1024x1024 : Shape := ⟨2, ![1024, 1024]⟩
abbrev S16384x1024 : Shape := ⟨2, ![16384, 1024]⟩
abbrev S1x1024x1024 : Shape := ⟨3, ![1, 1024, 1024]⟩
abbrev S1x512x1024 : Shape := ⟨3, ![1, 512, 1024]⟩
abbrev S1024x1 : Shape := ⟨2, ![1024, 1]⟩
abbrev S512x1024 : Shape := ⟨2, ![512, 1024]⟩
abbrev S1024x512 : Shape := ⟨2, ![1024, 512]⟩
abbrev S1024 : Shape := ⟨1, ![1024]⟩

abbrev nBuf : Space → Nat
  | .hbm => 16
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S16384x1024, .f32⟩
  | .hbm, ⟨5, _⟩ => ⟨S16384x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S16384x1024, .bf16⟩
  | .hbm, ⟨10, _⟩ => ⟨S16384x1024, .bf16⟩
  | .hbm, ⟨11, _⟩ => ⟨S16384x1024, .bf16⟩
  | .hbm, ⟨12, _⟩ => ⟨S4x4096x1024, .bf16⟩
  | .hbm, ⟨13, _⟩ => ⟨S4x4096x1024, .bf16⟩
  | .hbm, ⟨14, _⟩ => ⟨S4x4096x1024, .bf16⟩
  | .hbm, ⟨15, _⟩ => ⟨S4x4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x1024x1024, .f32⟩
  | .local _ .vmem, ⟨18, _⟩ => ⟨S1x1024x1024, .f32⟩
  | .local _ .vmem, ⟨19, _⟩ => ⟨S1024x1, .f32⟩
  | .local _ .vmem, ⟨20, _⟩ => ⟨S1024x1, .f32⟩
  | .local _ .vmem, ⟨21, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![4, 4, 8], ![false, false, false]⟩

def k1_cond3 (i : grid1.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c2_i32 : BitVec 32 := 2#32
  let v1 : BitVec 32 := Scalar.muli v0 c2_i32
  let c1_i32_0 : BitVec 32 := 1#32
  let v2 : BitVec 32 := Scalar.subi v1 c1_i32_0
  let v3 : BitVec 32 := Scalar.minsi arg2 v2
  let c0_i32 : BitVec 32 := 0#32
  let c0_i32_1 : BitVec 32 := 0#32
  ![arg0.toNat, v3.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c2_i32 : BitVec 32 := 2#32
  let v1 : BitVec 32 := Scalar.muli v0 c2_i32
  let c1_i32_0 : BitVec 32 := 1#32
  let v2 : BitVec 32 := Scalar.subi v1 c1_i32_0
  let v3 : BitVec 32 := Scalar.minsi arg2 v2
  let c0_i32 : BitVec 32 := 0#32
  let c0_i32_1 : BitVec 32 := 0#32
  ![arg0.toNat, v3.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x4096x1024_S16384x1024 : S4x4096x1024.ShapeCasts S16384x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S16384x1024_S4x4096x1024 : S16384x1024.ShapeCasts S4x4096x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .bf16 = 32 ∨ (Rect.block (s := S16384x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .bf16 = 32 ∨ (Rect.block (s := S16384x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x1024.size a
  hwx0_5 : ∀ i : grid0.Coords, EltTy.bits .bf16 = 32 ∨ (Rect.block (s := S16384x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S16384x1024.size a
  hwx0_6 : ∀ i : grid0.Coords, EltTy.bits .bf16 = 32 ∨ (Rect.block (s := S16384x1024) S1024x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .bf16 = 32 ∨ (Rect.block (s := S4x4096x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x4096x1024.size a
  hwx1_1 : ∀ i : grid1.Coords, EltTy.bits .bf16 = 32 ∨ (Rect.block (s := S4x4096x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x4096x1024.size a
  hwx1_2 : ∀ i : grid1.Coords, EltTy.bits .bf16 = 32 ∨ (Rect.block (s := S4x4096x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x4096x1024.size a
  hwx1_3 : ∀ i : grid1.Coords, EltTy.bits .f32 = 32 ∨ (Rect.block (s := S4x4096x1024) S1x1024x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S_ : Shape := ⟨0, ![]⟩
abbrev S4x4096x4096 : Shape := ⟨3, ![4, 4096, 4096]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .i1⟩
  | .hbm, ⟨15, _⟩ => ⟨S4096x4096, .i1⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .i1⟩
  | .hbm, ⟨23, _⟩ => ⟨S4096x4096, .i1⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S4x4096x4096, .i1⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .f32⟩
  | .hbm, ⟨35, _⟩ => ⟨S4x4096x1, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S4x4096x4096, .f32⟩
  | .hbm, ⟨43, _⟩ => ⟨S4x4096x4096, .f32⟩
  | .hbm, ⟨44, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_v5 : Ref sig .tc := ⟨.hbm, 23, rfl⟩
abbrev main_v9 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x1024_S4x4096x1024_2_0_01_1_n_n_wf : DotDims.WF S4x4096x1024 S1024x1024 S4x4096x1024 [2] [0] [0, 1] [1] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.KFlash.lean ====
/-
  The explicit per-point contents of the two kernels' buffers, for any float instance.

  Region 0 (the fused projection, 16 row blocks): at a point its three output blocks are the products of the
  row block of the activations with the three weight matrices.

  Region 1 (causal attention, grid 4 x 4 x 8, the last axis the key blocks): three scratch buffers are carried
  along the key axis — the running row maximum, the running denominator and the running numerator.  At the first
  key block they are reset and then updated with that block; at a later key block they are updated when the block
  meets the causal triangle (key block index at most 2 * query block index + 1) and kept otherwise; the output
  block is the numerator over the denominator.
-/
import proofs.«168439_j45234595561646_2_alg».proof.Proof.Gen.Kernel.Launch
import proofs.«168439_j45234595561646_2_alg».proof.Proof.Gen.Kernel.Skeleton
import proofs.«168439_j45234595561646_2_alg».proof.Proof.Gen.Kernel.Points
import Idealize.ShloMosaic.Lib.Pipeline.FrameBody

noncomputable section

namespace Cert.Kernel.Hand

open Idealize.ShloMosaic Idealize.ShloMosaic.TcCoe
open Idealize.SL Idealize.SL.Sem
open Cert.Kernel.Gen

variable {F : FTy → Type} [FloatOps F]

/-- The contents of a core's TensorCore buffers when a region is entered: the parameter both regions are stated at. -/
abbrev Entry (F : FTy → Type) : Type := (c : Dev nD) → (b : Ref sig .tc) → Buf (Elt F) ((c : Thread nD τ).loc b)

variable (V : Entry F)

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangle of a 1024 x 1024 staging buffer. -/
abbrev r0 : Rect S1024x1024 := Rect.unit (s := S1024x1024) ![0, 0] S1024x1024.size inb_S1024x1024_S1024x1024_0_0

/-- What the projection body leaves in its three output buffers, from the activations' block `x` and a weight matrix. -/
def out0_4 (x w : Vec F S1024x1024 .bf16) : Vec F S1024x1024 .bf16 :=
  View.canon [⟨r0, k0_pay2 (View.ld x r0) (View.ld w r0)⟩]
def out0_5 (x w : Vec F S1024x1024 .bf16) : Vec F S1024x1024 .bf16 :=
  View.canon [⟨r0, k0_pay3 (View.ld x r0) (View.ld w r0)⟩]
def out0_6 (x w : Vec F S1024x1024 .bf16) : Vec F S1024x1024 .bf16 :=
  View.canon [⟨r0, k0_pay4 (View.ld x r0) (View.ld w r0)⟩]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three carried scratch buffers: running maximum, running denominator, running numerator. -/
abbrev Scr (F : FTy → Type) : Type := Vec F S1024x1 .f32 × Vec F S1024x1 .f32 × Vec F S1024x1024 .f32

/-- The reset at a row block's first key block: maximum at minus infinity, denominator and numerator at zero. -/
def initS : Scr F := (k1_pay1, k1_pay2, k1_pay3)

/-- One online-softmax update with the query block `q`, key block `k` and value block `v`; `a1`, `a2` are the query
    and key block numbers as the body reads them. -/
def stepS (a1 a2 : BitVec 32) (q : Vec F S1x1024x1024 .bf16) (k v : Vec F S1x512x1024 .bf16) (p : Scr F) : Scr F :=
  (k1_pay5 (k1_pay8 a1 a2 q k p.1),
   k1_pay11 a1 a2 q k p.1 p.1 p.2.1,
   k1_pay4 (k1_pay9 a1 a2 q k p.1 p.1) (k1_pay10 a1 a2 q k p.1) p.2.2 v)

/-- The query block number and the key block number at a point, as 32-bit words. -/
def qa (t : Fin cfg1.N) : BitVec 32 := BitVec.ofNat 32 ((grid1.coords t) 1).val
def ka (t : Fin cfg1.N) : BitVec 32 := BitVec.ofNat 32 ((grid1.coords t) 2).val

/-- The key block at position `n` meets the causal triangle of its query block. -/
abbrev Hits (n : ℕ) : Prop := n % 8 ≤ 2 * (n / 8 % 4) + 1

/-- The update at point `t` from the point's blocks. -/
def stepAt (c : Dev nD) (t : Fin cfg1.N) (p : Scr F) : Scr F :=
  stepS (qa t) (ka t) (iblk1 V c 0 t) (iblk1 V c 1 t) (iblk1 V c 2 t) p

/-- The scratch contents after the body at position `n`. -/
def stateAt (c : Dev nD) : (n : ℕ) → n < cfg1.N → Scr F
  | 0, hn => stepAt V c ⟨0, hn⟩ initS
  | n + 1, hn =>
    if (n + 1) % 8 = 0 then stepAt V c ⟨n + 1, hn⟩ initS
    else if Hits (n + 1) then stepAt V c ⟨n + 1, hn⟩ (stateAt c n (Nat.lt_of_succ_lt hn))
    else stateAt c n (Nat.lt_of_succ_lt hn)

/-- The output block the body stores at a row block's last key block: numerator over denominator. -/
def outAt (c : Dev nD) (n : ℕ) (hn : n < cfg1.N) : Vec F S1x1024x1024 .f32 :=
  k1_pay6 (stateAt V c n hn).2.2 (stateAt V c n hn).2.1

theorem stateAt_first (c : Dev nD) (t : Fin cfg1.N) (h : t.val % 8 = 0) :
    stateAt V c t.val t.isLt = stepAt V c t initS := by
  obtain ⟨n, hn⟩ := t
  cases n with
  | zero => rfl
  | succ n => exact if_pos h

theorem stateAt_hit (c : Dev nD) (t : Fin cfg1.N) (h : ¬ t.val % 8 = 0) (h2 : Hits t.val) :
    stateAt V c t.val t.isLt = stepAt V c t (stateAt V c (t.val - 1) (Nat.lt_of_le_of_lt (Nat.sub_le _ _) t.isLt)) := by
  obtain ⟨n, hn⟩ := t
  cases n with
  | zero => exact absurd (Nat.zero_mod _) h
  | succ n => exact (if_neg h).trans (if_pos h2)

theorem stateAt_miss (c : Dev nD) (t : Fin cfg1.N) (h : ¬ t.val % 8 = 0) (h2 : ¬ Hits t.val) :
    stateAt V c t.val t.isLt = stateAt V c (t.val - 1) (Nat.lt_of_le_of_lt (Nat.sub_le _ _) t.isLt) := by
  obtain ⟨n, hn⟩ := t
  cases n with
  | zero => exact absurd (Nat.zero_mod _) h
  | succ n => exact (if_neg h).trans (if_neg h2)

end Cert.Kernel.Hand

end
-- ==== Proof.KFrame0.lean ====
/-
  Region 0, the fused projection: its proof data at the contents `V` the region is entered with, and the body
  obligation.  At every point the four input buffers hold their blocks (the activations' row block, fetched at
  every point; the three weight matrices, fetched once and kept); the body loads them, loads each output buffer
  once, and stores the three products over the three output buffers whole.  The invariant is the constant one:
  nothing is carried between points.
-/
import proofs.«168439_j45234595561646_2_alg».proof.Proof.KFlash
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 1024 x 1024: the elaborator recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : Entry F)

/-! ## The input windows' buffers at a point -/

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The output buffers are covered by their one store -/

/-- A store over the whole-buffer rectangle covers the buffer. -/
theorem cover0 (p0 : Vec F S1024x1024 .bf16) (y : S1024x1024.Idx) :
    ∃ pc ∈ ([⟨r0, p0⟩] : List (View.Piece (Elt F) S1024x1024 .bf16)), y ∈ pc.1.set :=
  View.cover_of_tiled [⟨r0, p0⟩] S1024x1024.size (by rfl) y

/-! ## The body's triple -/

set_option maxHeartbeats 1000000 in
/-- The projection body on whole staging buffers, the inputs' at contents `x0 … x3` and the outputs' at anything, runs to
    the continuation holding the inputs' as they were and the outputs' at the three products. -/
theorem sound_kernel0 (c : Dev nD) (E : Set ℕ) (i : grid0.Coords)
    (arg1 : Memref sig .tc .vmem S1024x1024 .bf16) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S1024x1024 .bf16) (harg7 : arg7.IsWhole)
    (x0 x1 x2 x3 : Vec F S1024x1024 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The proof data -/

/-- The proof data of the projection pipeline on core `c`: the arrays as the region finds them; after the body at
    point `t` each input's buffer at its block and each output's at the product of the row block with its weight
    matrix; the constant invariant (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- info: 'Cert.Kernel.Hand.body_obligation0' depends on axioms: [propext, Classical.choice, Quot.sound] -/
#guard_msgs in #print axioms body_obligation0

end Cert.Kernel.Hand

end
-- ==== Proof.KRun.lean ====
/-
  The run of the whole program from the two regions' proof data: the buffer contents at every boundary between
  a host stretch and a kernel region, folded from the launch memory; each region as a segment entered from the
  contents before it and left at the contents after it; and the launch, ending with every unscoped buffer at the
  last boundary's contents.  Region 0's proof data are the projection's; region 1's are a parameter: any proof
  data whose arrays are the entry contents, at full shares, owing nothing and bounding nothing at entry, with the body
  obligation, and whose invariant is entered from and gives back the scoped rest and the generator register.
-/
import proofs.«168439_j45234595561646_2_alg».proof.Proof.KFrame0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- Region 1's proof data at any entry contents, with what the run needs of them. -/
structure Reg1 (F : FTy → Type) [FloatOps F] where
  dat : (V : Entry F) → (c : Dev nD) → Dat τ (Elt F) Unit ℕ (UR sig nD τ) ℕ cfg1 c
  hA : ∀ V c w, (dat V c).A w = V c (Pipeline.arrRef spec1 w)
  hq : ∀ V c w, (dat V c).q w = fullShare
  howed : ∀ V c t, (dat V c).owed t = 0
  hrec : ∀ V c, (dat V c).recorded 0 = Set.univ
  hbody : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

variable (R1 : Reg1 F)
variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev V1 : Entry F := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : Entry F := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : Entry F := fun c b => W3 m ρ c b
/-- At region 1's exit: its arrays at what the pipeline leaves, every other buffer as entered. -/
def W4 (c : Dev nD) : Valuation τ sig (Elt F) :=
  Pipeline.withArrays spec1 c (W3 m ρ c) fun w => (R1.dat (V3 m ρ) c).arrAt w cfg1.N
theorem W4_arr (c : Dev nD) (w : Fin cfg1.W) :
    W4 R1 m ρ c (Proc.devRef .tc (Pipeline.arrRef spec1 w)) = (R1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 R1 m ρ c (Proc.devRef .tc b) = W3 m ρ c (Proc.devRef .tc b) := by
  unfold W4; exact Pipeline.withArrays_of_ne spec1 c _ _ b hb
abbrev V4 : Entry F := fun c b => W4 R1 m ρ c b
theorem hF1 (c : Dev nD) (w : Fin cfg1.W) : (R1.dat (V3 m ρ) c).arrAt w cfg1.N = V4 R1 m ρ c (Pipeline.arrRef spec1 w) :=
  (W4_arr R1 m ρ c w).symm
theorem hrest1 (c : Dev nD) : ∀ b, b ∉ Finset.univ.image (Pipeline.arrRef spec1) → V4 R1 m ρ c b = V3 m ρ c b :=
  fun b hb => W4_of_ne R1 m ρ c b fun w e => hb (Finset.mem_image.mpr ⟨w, Finset.mem_univ _, e⟩)

/-! ### The arguments end as launched: no host operation writes one and none is an array of either pipeline -/

theorem W4_main_arg0 (c : Dev nD) : W4 R1 m ρ c (Proc.devRef .tc main_arg0) = m ((c : Thread nD τ).loc main_arg0) :=
  calc W4 R1 m ρ c (Proc.devRef .tc main_arg0)
    _ = W3 m ρ c (Proc.devRef .tc main_arg0) := W4_of_ne R1 m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 R1 m ρ c (Proc.devRef .tc main_arg1) = m ((c : Thread nD τ).loc main_arg1) :=
  calc W4 R1 m ρ c (Proc.devRef .tc main_arg1)
    _ = W3 m ρ c (Proc.devRef .tc main_arg1) := W4_of_ne R1 m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 R1 m ρ c (Proc.devRef .tc main_arg2) = m ((c : Thread nD τ).loc main_arg2) :=
  calc W4 R1 m ρ c (Proc.devRef .tc main_arg2)
    _ = W3 m ρ c (Proc.devRef .tc main_arg2) := W4_of_ne R1 m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 R1 m ρ c (Proc.devRef .tc main_arg3) = m ((c : Thread nD τ).loc main_arg3) :=
  calc W4 R1 m ρ c (Proc.devRef .tc main_arg3)
    _ = W3 m ρ c (Proc.devRef .tc main_arg3) := W4_of_ne R1 m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The result array ends at what region 1's pipeline leaves in its output window's array. -/
theorem W4_main_v9 (c : Dev nD) : W4 R1 m ρ c (Proc.devRef .tc main_v9) = (R1.dat (V3 m ρ) c).arrAt 3 cfg1.N :=
  W4_arr R1 m ρ c 3

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => R1.dat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 R1 m ρ c) ∗ ∃ r, prngReg c r)

/-! ## The constant invariant, in and out -/

/-- The scoped rest and the generator register, beside anything, make the constant invariant, -/
theorem ΦA_in {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp
/-- and it gives them back. -/
theorem ΦA_out {gr W : Nat} (win : Fin W → Pipeline.WinSpec sig gr) (c : Dev nD) :
    (Pipeline.ΦA win c : sProp 𝕄)
      ⊢ iprop((∃ r, prngReg c r) ∗ (BI.emp : sProp 𝕄) ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

/-! ## The regions as segments -/

set_option backward.isDefEq.respectTransparency.types false in
/-- Region 0 over the thread state: entered from every unscoped buffer at `W1`, left at `W2`. -/
def reg0 : Pipeline.RegionSeg (pcfgs (F := F)) adm (pdats R1 m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats R1 m ρ) launch0.win launch0.arr_whole c
      ((pdats R1 m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats R1 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats R1 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R1 m ρ) ((pdats R1 m ρ 0 c).share_full fun _ => rfl)
      (V1 m ρ c) (V2 m ρ c) ((pdats R1 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`.  Its invariant is
    entered from, and gives back, the scoped rest and the generator register through the proof data's two entailments. -/
def reg1 : Pipeline.RegionSeg (pcfgs (F := F)) adm (pdats R1 m ρ) () defs₀ 𝒱₀ L lv 1 where
  win := launch1.win.to₀
  block_pos := launch1.block_pos
  stage_whole := launch1.stage_whole
  K := PEmpty
  osem k := k.elim
  ho := Pipeline.OwnSemFacts.none _
  hbody c := (R1.hbody (V3 m ρ) c).loose
  hwaits := Pipeline.hwaits_of_owed_zero _ _ _ _ L lv 1 fun c t => R1.howed (V3 m ρ) c t
  pre c := iprop(StableHlo.held (c : Thread nD τ) (Pipeline.ucRefs τ sig) (W3 m ρ c) ∗ R c)
  post c := iprop(Tₙ R1 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats R1 m ρ) launch1.win launch1.arr_whole c
      ((pdats R1 m ρ 1 c).share_full fun w => R1.hq (V3 m ρ) c w) (V3 m ρ c) fun w => R1.hA (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats R1 m ρ 1 c).owed 0 = 0 from R1.howed (V3 m ρ) c 0]
      icases HO with ⟨%W, HO⟩; iexists W
      isplitr
      · ipureintro; intro x _; left
        show x ∈ (R1.dat (V3 m ρ) c).recorded 0
        rw [R1.hrec]; trivial
      iexact HO
    isplitl [Hp]; · iexact Hp
    iexact Hrest
  hin c := (ΦA_in spec1 c _).trans (R1.hin (V3 m ρ) c)
  hout c := by
    rw [Pipeline.ownSems0_none]
    exact (R1.hout (V3 m ρ) c).trans (ΦA_out spec1 c)
  hexit c := by
    have hjoin := Pipeline.unscopedBufs_of_arrays (p := 1) (pcfgs (F := F)) adm (Ix := Unit) (Name := ℕ) (U := UR sig nD τ) (Lvl := ℕ)
      launch1.win launch1.arr_whole c (pdats R1 m ρ) ((pdats R1 m ρ 1 c).share_full fun w => R1.hq (V3 m ρ) c w)
      (V3 m ρ c) (V4 R1 m ρ c) ((pdats R1 m ρ 1 c).arrAt · cfg1.N) (hF1 R1 m ρ c) (hrest1 R1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats R1 m ρ 1 c).owed (Fin.last _) = 0 from R1.howed (V3 m ρ) c _]
    icases HO with ⟨%W, -, HO⟩; iexists W; iexact HO

/-! ## The program as segments, and the launch -/

/-- The program's 4 segments in order: a host segment per stretch from its boundary's contents, a region per kernel call. -/
abbrev segs : List (Pipeline.Seg (pcfgs (F := F)) adm (pdats R1 m ρ) () defs₀ 𝒱₀ L lv) :=
  [ .host (hseg hostOps0 hostOps0_sub hostOps0_fresh (W0 m ρ)),
    .region (reg0 R1 m ρ),
    .host (hseg hostOps1 hostOps1_sub hostOps1_fresh (W2 m ρ)),
    .region (reg1 R1 m ρ) ]
/-- The program is the run of the segments. -/
theorem main_run (c : Dev nD) : main (F := F) c = Pipeline.Seg.run (segs R1 m ρ) := (main_chain c).trans (by chain_rfl)

set_option backward.isDefEq.respectTransparency.types false in
/-- THE RUN: from any memory with zero counters, every weakly fair execution of the program on the TensorCores
    terminates, nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 R1 m ρ c b) :=
  Pipeline.θ_run_regions_kit (pcfgs (F := F)) adm (pdats R1 m ρ) () cellOf_inj emb₁ defs₀ 𝒱₀ L lv m ρ main (segs R1 m ρ)
    (fun c Q => by rw [main_run R1 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ R1 m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 R1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 R1 m ρ c) s')
      isplitl [Hh] <;> iassumption)
    (hQ := fun s h c => h c)

include R1 in
/-- THE FRAME: the program terminates, nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 R1 m ρ c),
     (h c _ (mem_uc main_arg1 (by decide))).trans (W4_main_arg1 R1 m ρ c),
     (h c _ (mem_uc main_arg2 (by decide))).trans (W4_main_arg2 R1 m ρ c),
     (h c _ (mem_uc main_arg3 (by decide))).trans (W4_main_arg3 R1 m ρ c)⟩) (run_all R1 m ρ)

/-- info: 'Cert.Kernel.Hand.run_all' depends on axioms: [propext, Classical.choice, Quot.sound] -/
#guard_msgs in #print axioms run_all
/-- info: 'Cert.Kernel.Hand.frame' depends on axioms: [propext, Classical.choice, Quot.sound] -/
#guard_msgs in #print axioms frame

end Cert.Kernel.Hand

end
-- ==== Proof.KFrame1Runs.lean ====
/-
  Region 1 (causal attention), what its case runs share: the three branch conditions of the body in closed form
  over the point number, decided over the grid; where the output window is idle; the staging and scratch memrefs
  as the pipeline passes them; the region's entry invariant with the three scratch buffers split off; and the
  input windows' contents at every point.
-/
import proofs.«168439_j45234595561646_2_alg».proof.Proof.KFlash
import Idealize.ShloMosaic.Lib.Ring
import Idealize.ShloMosaic.Lib.Tactic

-- goals about indices of 1024-long axes nest deeply when elaborated
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : Entry F)

/-! ## The body's branch conditions -/

/-- The first conditional's condition (the key block is the row block's first), from the grid coordinates. -/
abbrev cond1_0 (i : grid1.Coords) : Prop :=
  (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (the key block meets the causal triangle), from the grid coordinates. -/
abbrev cond1_1 (i : grid1.Coords) : Prop :=
  (Scalar.cmpi .ne (Scalar.extui (Scalar.cmpi .sle (BitVec.ofNat 32 (i 2).val)
    (Scalar.subi (Scalar.muli (Scalar.addi (BitVec.ofNat 32 (i 1).val) 1#32) 2#32) 1#32))) 0#32) = 1#1
/-- It holds where the key block number is at most twice the query block number plus one. -/
theorem hcond1_1 : ∀ t : Fin cfg1.N, cond1_1 (grid1.coords t) ↔ Hits t.val :=
  (by decide +kernel : ∀ t : Fin grid1.N, cond1_1 (grid1.coords t) ↔ t.val % 8 ≤ 2 * (t.val / 8 % 4) + 1)

/-- The third conditional's condition (the key block is the row block's last). -/
abbrev cond1_2 (i : grid1.Coords) : Prop := k1_cond3 i = 1#1
/-- It holds at the points ≡ 7 (mod 8). -/
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a row block's last key block the output window is idle: nothing is stored into it, -/
theorem idleAt1_3 : ∀ t : Fin cfg1.N, ¬cond1_2 (grid1.coords t) → cfg1.idle 3 (grid1.coords t) = true := by decide +kernel
/-- and it is not written back; -/
theorem noFlush1_3 : ∀ t : Fin cfg1.N, ¬cond1_2 (grid1.coords t) → (cfg1.win 3).flush t = false := by decide +kernel
/-- at the last key block it is live. -/
theorem liveAt1_3 : ∀ t : Fin cfg1.N, cond1_2 (grid1.coords t) → cfg1.idle 3 (grid1.coords t) = false := by decide +kernel

/-! ## The memrefs the body is called with -/

/-- One staging buffer of the output window, through which its contents are stated (the choice does not matter). -/
abbrev VO1_3 : View sig .tc .vmem S1x1024x1024 .f32 := (Memref.whole cc1_stg3_0 : Memref sig .tc .vmem S1x1024x1024 .f32).view
/-- Each window's current staging memref at point `t`, as the pipeline passes it, and its wholeness. -/
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The scratch operands: whole scoped buffers of the kernel's own — the running maximum, denominator and numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
/-- and their views, through which what they hold is stated. -/
abbrev VS1_0 : View sig .tc .vmem S1024x1 .f32 := (scM1_0 : Memref sig .tc .vmem S1024x1 .f32).view
abbrev VS1_1 : View sig .tc .vmem S1024x1 .f32 := (scM1_1 : Memref sig .tc .vmem S1024x1 .f32).view
abbrev VS1_2 : View sig .tc .vmem S1024x1024 .f32 := (scM1_2 : Memref sig .tc .vmem S1024x1024 .f32).view

/-! ## The region's invariant with the scratch split off -/

/-- Re-association of the separating conjunction, as an equation. -/
theorem sepA (P Q R : sProp 𝕄) : (iprop((P ∗ Q) ∗ R) : sProp 𝕄) = iprop(P ∗ Q ∗ R) := by
  have h₁ : iprop((P ∗ Q) ∗ R) ⊢ (iprop(P ∗ Q ∗ R) : sProp 𝕄) := by
    iintro ⟨⟨HP, HQ⟩, HR⟩
    isplitl [HP]; · iexact HP
    isplitl [HQ]; · iexact HQ
    iexact HR
  have h₂ : iprop(P ∗ Q ∗ R) ⊢ (iprop((P ∗ Q) ∗ R) : sProp 𝕄) := by
    iintro ⟨HP, HQ, HR⟩
    isplitr [HR]; swap; · iexact HR
    isplitl [HP]; · iexact HP
    iexact HQ
  exact BI.equiv_iff.mp ⟨h₁, h₂⟩

/-- The core's scoped buffers that this region never touches (the other region's staging buffers), each at some contents. -/
def stg1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The region's entry invariant: the untouched buffers, the three scratch buffers at some contents each, and the
    generator register at some state. -/
theorem PhiA1_eq (c : Dev nD) :
    (Pipeline.ΦA spec1 c : sProp 𝕄)
      = iprop((stg1 (F := F) c ∗ (∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [scM1_0, scM1_1, scM1_2, owns_whole, stg1, sepA] <;> rfl

/-! ## The input windows' blocks -/

/-- An input window's current staging buffer holds its block at every point, fetched there or not, for any proof data
    whose array is the entry contents and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Cert.Kernel.Hand

end
-- ==== Proof.KFrame1RunA.lean ====
/-
  Region 1, the body's run at a row block's first key block (the reset taken, the update taken, the output not
  stored): the pieces the three scratch buffers end with are the witness the run finds.
-/
import proofs.«168439_j45234595561646_2_alg».proof.Proof.KFrame1Runs

-- goals about indices of 1024-long axes nest deeply when elaborated
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the elaborated run is a long term: more heartbeats than the default are needed to finish the declaration
set_option maxHeartbeats 1000000 in
/-- At a first key block: on whole memrefs — the inputs' at their contents, the output's (idle here) at contents handed
    back untouched, the three scratch buffers at anything — the body runs to the continuation holding the inputs' and
    the output's as they were and each scratch buffer with its pieces written (the reset store, then the update's). -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) :
    Σ' (LS0 : List (View.Piece (Elt F) S1024x1 .f32)), Σ' (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__causal_kernel i arg3 harg3 arg4 harg4 arg5 harg5 arg6 harg6 arg7 harg7 arg8 harg8 arg9 harg9) K } := by
  refine ⟨?_, ?_, ?_, fun xi3 E K => ?run⟩
  case run =>
    simp only [cc1__causal_kernel_eq_skeleton]; unfold cc1__causal_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.KFrame1RunB.lean ====
/-
  Region 1, the body's run at a later key block that meets the causal triangle and is not the row block's last
  (no reset, the update taken, the output not stored): the pieces the three scratch buffers end with are the witness.
-/
import proofs.«168439_j45234595561646_2_alg».proof.Proof.KFrame1RunA

-- goals about indices of 1024-long axes nest deeply when elaborated
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the elaborated run is a long term: more heartbeats than the default are needed to finish the declaration
set_option maxHeartbeats 1000000 in
/-- At such a key block: on whole memrefs — the inputs' at their contents, the output's (idle here) at contents handed back
    untouched, the three scratch buffers at what the point before left — the body runs to the continuation holding the
    inputs' and the output's as they were and each scratch buffer with the update's piece written. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (LS0 : List (View.Piece (Elt F) S1024x1 .f32)), Σ' (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__causal_kernel i arg3 harg3 arg4 harg4 arg5 harg5 arg6 harg6 arg7 harg7 arg8 harg8 arg9 harg9) K } := by
  refine ⟨?_, ?_, ?_, fun xi3 E K => ?run⟩
  case run =>
    simp only [cc1__causal_kernel_eq_skeleton]; unfold cc1__causal_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.KFrame1RunC.lean ====
/-
  Region 1, the body's run at a row block's last key block when it meets the causal triangle (no reset, the update
  taken, the output stored): the pieces the output and the three scratch buffers end with are the witness.
-/
import proofs.«168439_j45234595561646_2_alg».proof.Proof.KFrame1RunB

-- goals about indices of 1024-long axes nest deeply when elaborated
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the elaborated run is a long term: more heartbeats than the default are needed to finish the declaration
set_option maxHeartbeats 1000000 in
/-- At such a key block: on whole memrefs — the inputs' at their contents, the output's at anything, the three scratch
    buffers at what the point before left — the body runs to the continuation holding the inputs' as they were, the
    output's with its piece written and each scratch buffer with the update's piece written. -/
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)), Σ' (LS0 : List (View.Piece (Elt F) S1024x1 .f32)), Σ' (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__causal_kernel i arg3 harg3 arg4 harg4 arg5 harg5 arg6 harg6 arg7 harg7 arg8 harg8 arg9 harg9) K } := by
  refine ⟨?_, ?_, ?_, ?_, fun E K => ?run⟩
  case run =>
    simp only [cc1__causal_kernel_eq_skeleton]; unfold cc1__causal_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.KFrame1RunD.lean ====
/-
  Region 1, the body's run at a key block past the causal triangle that is not the row block's last (no conditional
  taken): nothing is loaded or stored.
-/
import proofs.«168439_j45234595561646_2_alg».proof.Proof.KFrame1RunC

-- goals about indices of 1024-long axes nest deeply when elaborated
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the elaborated run is a long term: more heartbeats than the default are needed to finish the declaration
set_option maxHeartbeats 1000000 in
/-- At such a key block: on whole memrefs — the inputs' at their contents, the output's (idle here) at contents handed back
    untouched, the three scratch buffers at what the point before left — the body runs to the continuation holding
    every one of them as it was. -/
theorem kernelRun1_D (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : ¬cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32)
    (xi3 : Vec F S1x1024x1024 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__causal_kernel i arg3 harg3 arg4 harg4 arg5 harg5 arg6 harg6 arg7 harg7 arg8 harg8 arg9 harg9) K := by
  simp only [cc1__causal_kernel_eq_skeleton]; unfold cc1__causal_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1; obtain rfl := harg9.eq_unread hfs2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; · ipureintro; exact harg7.read_unread _
    iexact HS0
  isplitl [HS1]
  · iexists _; isplitr; · ipureintro; exact harg8.read_unread _
    iexact HS1
  iexists _; isplitr; · ipureintro; exact harg9.read_unread _
  iexact HS2

end Cert.Kernel.Hand

end
-- ==== Proof.KFrame1RunE.lean ====
/-
  Region 1, the body's run at a row block's last key block when it lies past the causal triangle (only the output
  conditional taken): the output's piece is the witness; the scratch buffers are only read.
-/
import proofs.«168439_j45234595561646_2_alg».proof.Proof.KFrame1RunD

-- goals about indices of 1024-long axes nest deeply when elaborated
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the elaborated run is a long term: more heartbeats than the default are needed to finish the declaration
set_option maxHeartbeats 1000000 in
/-- At such a key block: on whole memrefs — the inputs' at their contents, the output's at anything, the three scratch
    buffers at what the point before left — the body runs to the continuation holding the inputs' and the scratch
    buffers as they were and the output's with its piece written. -/
noncomputable def kernelRun1_E (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    { L3 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__causal_kernel i arg3 harg3 arg4 harg4 arg5 harg5 arg6 harg6 arg7 harg7 arg8 harg8 arg9 harg9) K } := by
  refine ⟨?_, fun E K => ?run⟩
  case run =>
    simp only [cc1__causal_kernel_eq_skeleton]; unfold cc1__causal_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.KFrame1Vals.lean ====
/-
  Region 1: what each case's run leaves in the buffers it stores into. Every store is of a whole buffer through the
  whole-shape rectangle at zero offsets, so each buffer's pieces cover it, and the last piece's payload is what it holds:
  the explicit update term over the point's blocks and the state found (the reset state at a first key block, where the
  update's loads read what the reset has just stored), and for the output the numerator over the denominator.
-/
import proofs.«168439_j45234595561646_2_alg».proof.Proof.KFrame1RunE
import Idealize.ShloMosaic.Lib.Pipeline.Value

-- goals about indices of 1024-long axes nest deeply when elaborated
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The zero offsets of a rank-2 and of a rank-3 rectangle, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## A first key block -/

/-- The running maximum's pieces (the reset, then the update) cover it. -/
theorem scoverA_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL (kernelRun1_A c i arg3 harg3 arg4 harg4 arg5 harg5 arg6 harg6 arg7 harg7 arg8 harg8 arg9 harg9 hc0 hc1 hc2 x0 x1 x2).1 S1024x1.size (by sl_kernel_rfl) y
/-- The running denominator's pieces cover it. -/
theorem scoverA_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S1024x1.size (by sl_kernel_rfl) y
/-- The running numerator's pieces cover it. -/
theorem scoverA_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) (y : S1024x1024.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S1024x1024.size (by sl_kernel_rfl) y
/-- The running maximum ends at the update of the reset state. -/
theorem valA_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) :
    View.canon (kernelRun1_A c i arg3 harg3 arg4 harg4 arg5 harg5 arg6 harg6 arg7 harg7 arg8 harg8 arg9 harg9 hc0 hc1 hc2 x0 x1 x2).1 = (stepS (BitVec.ofNat 32 (i 1).val) (BitVec.ofNat 32 (i 2).val) x0 x1 x2 initS).1 := by
  unfold kernelRun1_A; dsimp only; sl_unfold_words
  rw [View.canon_cons_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS initS
  rfl
/-- The running denominator ends at the update of the reset state. -/
theorem valA_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) :
    View.canon (kernelRun1_A c i arg3 harg3 arg4 harg4 arg5 harg5 arg6 harg6 arg7 harg7 arg8 harg8 arg9 harg9 hc0 hc1 hc2 x0 x1 x2).2.1 = (stepS (BitVec.ofNat 32 (i 1).val) (BitVec.ofNat 32 (i 2).val) x0 x1 x2 initS).2.1 := by
  unfold kernelRun1_A; dsimp only; sl_unfold_words
  rw [View.canon_cons_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS initS
  rfl
/-- The running numerator ends at the update of the reset state. -/
theorem valA_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) :
    View.canon (kernelRun1_A c i arg3 harg3 arg4 harg4 arg5 harg5 arg6 harg6 arg7 harg7 arg8 harg8 arg9 harg9 hc0 hc1 hc2 x0 x1 x2).2.2.1 = (stepS (BitVec.ofNat 32 (i 1).val) (BitVec.ofNat 32 (i 2).val) x0 x1 x2 initS).2.2 := by
  unfold kernelRun1_A; dsimp only; sl_unfold_words
  rw [View.canon_cons_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS initS
  rfl

/-! ## A later key block meeting the triangle, not the last -/

/-- The running maximum's piece covers it. -/
theorem scoverB_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (p : Scr F) (y : S1024x1.Idx) :
    ∃ pc ∈ (kernelRun1_B c i arg3 harg3 arg4 harg4 arg5 harg5 arg6 harg6 arg7 harg7 arg8 harg8 arg9 harg9 hc0 hc1 hc2 x0 x1 x2 p.1 p.2.1 p.2.2).1, y ∈ pc.1.set :=
  View.cover_of_tiledL (kernelRun1_B c i arg3 harg3 arg4 harg4 arg5 harg5 arg6 harg6 arg7 harg7 arg8 harg8 arg9 harg9 hc0 hc1 hc2 x0 x1 x2 p.1 p.2.1 p.2.2).1 S1024x1.size (by sl_kernel_rfl) y
/-- The running denominator's piece covers it. -/
theorem scoverB_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (p : Scr F) (y : S1024x1.Idx) :
    ∃ pc ∈ (kernelRun1_B c i arg3 harg3 arg4 harg4 arg5 harg5 arg6 harg6 arg7 harg7 arg8 harg8 arg9 harg9 hc0 hc1 hc2 x0 x1 x2 p.1 p.2.1 p.2.2).2.1, y ∈ pc.1.set :=
  View.cover_of_tiledL (kernelRun1_B c i arg3 harg3 arg4 harg4 arg5 harg5 arg6 harg6 arg7 harg7 arg8 harg8 arg9 harg9 hc0 hc1 hc2 x0 x1 x2 p.1 p.2.1 p.2.2).2.1 S1024x1.size (by sl_kernel_rfl) y
/-- The running numerator's piece covers it. -/
theorem scoverB_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (p : Scr F) (y : S1024x1024.Idx) :
    ∃ pc ∈ (kernelRun1_B c i arg3 harg3 arg4 harg4 arg5 harg5 arg6 harg6 arg7 harg7 arg8 harg8 arg9 harg9 hc0 hc1 hc2 x0 x1 x2 p.1 p.2.1 p.2.2).2.2.1, y ∈ pc.1.set :=
  View.cover_of_tiledL (kernelRun1_B c i arg3 harg3 arg4 harg4 arg5 harg5 arg6 harg6 arg7 harg7 arg8 harg8 arg9 harg9 hc0 hc1 hc2 x0 x1 x2 p.1 p.2.1 p.2.2).2.2.1 S1024x1024.size (by sl_kernel_rfl) y
/-- The running maximum ends at the update of the state found. -/
theorem valB_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (p : Scr F) :
    View.canon (kernelRun1_B c i arg3 harg3 arg4 harg4 arg5 harg5 arg6 harg6 arg7 harg7 arg8 harg8 arg9 harg9 hc0 hc1 hc2 x0 x1 x2 p.1 p.2.1 p.2.2).1 = (stepS (BitVec.ofNat 32 (i 1).val) (BitVec.ofNat 32 (i 2).val) x0 x1 x2 p).1 := by
  unfold kernelRun1_B; dsimp only; sl_unfold_words
  rw [View.canon_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS
  rfl
/-- The running denominator ends at the update of the state found. -/
theorem valB_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (p : Scr F) :
    View.canon (kernelRun1_B c i arg3 harg3 arg4 harg4 arg5 harg5 arg6 harg6 arg7 harg7 arg8 harg8 arg9 harg9 hc0 hc1 hc2 x0 x1 x2 p.1 p.2.1 p.2.2).2.1 = (stepS (BitVec.ofNat 32 (i 1).val) (BitVec.ofNat 32 (i 2).val) x0 x1 x2 p).2.1 := by
  unfold kernelRun1_B; dsimp only; sl_unfold_words
  rw [View.canon_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS
  rfl
/-- The running numerator ends at the update of the state found. -/
theorem valB_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (p : Scr F) :
    View.canon (kernelRun1_B c i arg3 harg3 arg4 harg4 arg5 harg5 arg6 harg6 arg7 harg7 arg8 harg8 arg9 harg9 hc0 hc1 hc2 x0 x1 x2 p.1 p.2.1 p.2.2).2.2.1 = (stepS (BitVec.ofNat 32 (i 1).val) (BitVec.ofNat 32 (i 2).val) x0 x1 x2 p).2.2 := by
  unfold kernelRun1_B; dsimp only; sl_unfold_words
  rw [View.canon_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS
  rfl

/-! ## The last key block, meeting the triangle -/

/-- The output's piece covers its block. -/
theorem coverC_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (p : Scr F) (y : S1x1024x1024.Idx) :
    ∃ pc ∈ (kernelRun1_C c i arg3 harg3 arg4 harg4 arg5 harg5 arg6 harg6 arg7 harg7 arg8 harg8 arg9 harg9 hc0 hc1 hc2 x0 x1 x2 p.1 p.2.1 p.2.2).1, y ∈ pc.1.set :=
  View.cover_of_tiledL (kernelRun1_C c i arg3 harg3 arg4 harg4 arg5 harg5 arg6 harg6 arg7 harg7 arg8 harg8 arg9 harg9 hc0 hc1 hc2 x0 x1 x2 p.1 p.2.1 p.2.2).1 S1x1024x1024.size (by sl_kernel_rfl) y
/-- The running maximum's piece covers it. -/
theorem scoverC_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (p : Scr F) (y : S1024x1.Idx) :
    ∃ pc ∈ (kernelRun1_C c i arg3 harg3 arg4 harg4 arg5 harg5 arg6 harg6 arg7 harg7 arg8 harg8 arg9 harg9 hc0 hc1 hc2 x0 x1 x2 p.1 p.2.1 p.2.2).2.1, y ∈ pc.1.set :=
  View.cover_of_tiledL (kernelRun1_C c i arg3 harg3 arg4 harg4 arg5 harg5 arg6 harg6 arg7 harg7 arg8 harg8 arg9 harg9 hc0 hc1 hc2 x0 x1 x2 p.1 p.2.1 p.2.2).2.1 S1024x1.size (by sl_kernel_rfl) y
/-- The running denominator's piece covers it. -/
theorem scoverC_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (p : Scr F) (y : S1024x1.Idx) :
    ∃ pc ∈ (kernelRun1_C c i arg3 harg3 arg4 harg4 arg5 harg5 arg6 harg6 arg7 harg7 arg8 harg8 arg9 harg9 hc0 hc1 hc2 x0 x1 x2 p.1 p.2.1 p.2.2).2.2.1, y ∈ pc.1.set :=
  View.cover_of_tiledL (kernelRun1_C c i arg3 harg3 arg4 harg4 arg5 harg5 arg6 harg6 arg7 harg7 arg8 harg8 arg9 harg9 hc0 hc1 hc2 x0 x1 x2 p.1 p.2.1 p.2.2).2.2.1 S1024x1.size (by sl_kernel_rfl) y
/-- The running numerator's piece covers it. -/
theorem scoverC_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (p : Scr F) (y : S1024x1024.Idx) :
    ∃ pc ∈ (kernelRun1_C c i arg3 harg3 arg4 harg4 arg5 harg5 arg6 harg6 arg7 harg7 arg8 harg8 arg9 harg9 hc0 hc1 hc2 x0 x1 x2 p.1 p.2.1 p.2.2).2.2.2.1, y ∈ pc.1.set :=
  View.cover_of_tiledL (kernelRun1_C c i arg3 harg3 arg4 harg4 arg5 harg5 arg6 harg6 arg7 harg7 arg8 harg8 arg9 harg9 hc0 hc1 hc2 x0 x1 x2 p.1 p.2.1 p.2.2).2.2.2.1 S1024x1024.size (by sl_kernel_rfl) y
/-- The running maximum ends at the update of the state found. -/
theorem valC_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (p : Scr F) :
    View.canon (kernelRun1_C c i arg3 harg3 arg4 harg4 arg5 harg5 arg6 harg6 arg7 harg7 arg8 harg8 arg9 harg9 hc0 hc1 hc2 x0 x1 x2 p.1 p.2.1 p.2.2).2.1 = (stepS (BitVec.ofNat 32 (i 1).val) (BitVec.ofNat 32 (i 2).val) x0 x1 x2 p).1 := by
  unfold kernelRun1_C; dsimp only; sl_unfold_words
  rw [View.canon_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS
  rfl
/-- The running denominator ends at the update of the state found. -/
theorem valC_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (p : Scr F) :
    View.canon (kernelRun1_C c i arg3 harg3 arg4 harg4 arg5 harg5 arg6 harg6 arg7 harg7 arg8 harg8 arg9 harg9 hc0 hc1 hc2 x0 x1 x2 p.1 p.2.1 p.2.2).2.2.1 = (stepS (BitVec.ofNat 32 (i 1).val) (BitVec.ofNat 32 (i 2).val) x0 x1 x2 p).2.1 := by
  unfold kernelRun1_C; dsimp only; sl_unfold_words
  rw [View.canon_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS
  rfl
/-- The running numerator ends at the update of the state found. -/
theorem valC_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (p : Scr F) :
    View.canon (kernelRun1_C c i arg3 harg3 arg4 harg4 arg5 harg5 arg6 harg6 arg7 harg7 arg8 harg8 arg9 harg9 hc0 hc1 hc2 x0 x1 x2 p.1 p.2.1 p.2.2).2.2.2.1 = (stepS (BitVec.ofNat 32 (i 1).val) (BitVec.ofNat 32 (i 2).val) x0 x1 x2 p).2.2 := by
  unfold kernelRun1_C; dsimp only; sl_unfold_words
  rw [View.canon_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS
  rfl
/-- The output block is the updated numerator over the updated denominator: its loads read what the update has just stored. -/
theorem valC_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (p : Scr F) :
    View.canon (kernelRun1_C c i arg3 harg3 arg4 harg4 arg5 harg5 arg6 harg6 arg7 harg7 arg8 harg8 arg9 harg9 hc0 hc1 hc2 x0 x1 x2 p.1 p.2.1 p.2.2).1 = k1_pay6 (stepS (BitVec.ofNat 32 (i 1).val) (BitVec.ofNat 32 (i 2).val) x0 x1 x2 p).2.2 (stepS (BitVec.ofNat 32 (i 1).val) (BitVec.ofNat 32 (i 2).val) x0 x1 x2 p).2.1 := by
  unfold kernelRun1_C; dsimp only; sl_unfold_words
  rw [View.canon_unit_zero hz3]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS
  rfl

/-! ## The last key block, past the triangle -/

/-- The output's piece covers its block. -/
theorem coverE_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : cond1_2 i)
    (x0 : Vec F S1x1024x1024 .bf16) (x1 : Vec F S1x512x1024 .bf16) (x2 : Vec F S1x512x1024 .bf16) (p : Scr F) (y : S1x1024x1024.Idx) :
    ∃ pc ∈ (kernelRun1_E c i arg3 harg3 arg4 harg4 arg5 harg5 arg6 harg6 arg7 harg7 arg8 harg8 arg9 harg9 hc0 hc1 hc2 x0 x1 x2 p.1 p.2.1 p.2.2).1, y ∈ pc.1.set :=
  View.cover_of_tiledL (kernelRun1_E c i arg3 harg3 arg4 harg4 arg5 harg5 arg6 harg6 arg7 harg7 arg8 harg8 arg9 harg9 hc0 hc1 hc2 x0 x1 x2 p.1 p.2.1 p.2.2).1 S1x1024x1024.size (by sl_kernel_rfl) y
/-- The output block is the numerator found over the denominator found. -/
theorem valE_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : cond1_2 i)
    (x0 : Vec F S1x1024x1024 .bf16) (x1 : Vec F S1x512x1024 .bf16) (x2 : Vec F S1x512x1024 .bf16) (p : Scr F) :
    View.canon (kernelRun1_E c i arg3 harg3 arg4 harg4 arg5 harg5 arg6 harg6 arg7 harg7 arg8 harg8 arg9 harg9 hc0 hc1 hc2 x0 x1 x2 p.1 p.2.1 p.2.2).1 = k1_pay6 p.2.2 p.2.1 := by
  unfold kernelRun1_E; dsimp only; sl_unfold_words
  rw [View.canon_unit_zero hz3]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]

end Cert.Kernel.Hand

end
-- ==== Proof.KFrame1.lean ====
/-
  Region 1 (causal attention): the proof data and the body obligation.

  After the body at position n the three scratch buffers hold the explicit state `stateAt` (reset-then-update at a
  row block's first key block, update where the key block meets the causal triangle, kept otherwise), and at a row
  block's last key block the output's staging buffer holds `outAt` (numerator over denominator); elsewhere the
  output window is idle and its buffer is handed back as found. The invariant carries the scratch buffers at the
  state the point before left, together with the scoped buffers the region never touches and the generator register.
-/
import proofs.«168439_j45234595561646_2_alg».proof.Proof.KFrame1Vals

-- goals about indices of 1024-long axes nest deeply when elaborated
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : Entry F)

/-! ## The invariant -/

/-- Before position `n`: at the region's entry the launch's invariant (every scoped buffer at some contents); afterwards
    the untouched scoped buffers at some contents, the three scratch buffers at the state the point before left, and the
    generator register at some state. -/
def PhiS1 (c : Dev nD) : (n : ℕ) → n ≤ cfg1.N → sProp 𝕄
  | 0, _ => Pipeline.ΦA spec1 c
  | n + 1, hn => iprop((stg1 (F := F) c ∗ owns (c : Thread nD τ) scM1_0 fullShare (stateAt V c n hn).1
      ∗ owns (c : Thread nD τ) scM1_1 fullShare (stateAt V c n hn).2.1 ∗ owns (c : Thread nD τ) scM1_2 fullShare (stateAt V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((stg1 (F := F) c ∗ owns (c : Thread nD τ) scM1_0 fullShare (stateAt V c n hn).1
      ∗ owns (c : Thread nD τ) scM1_1 fullShare (stateAt V c n hn).2.1 ∗ owns (c : Thread nD τ) scM1_2 fullShare (stateAt V c n hn).2.2) ∗ (∃ r, prngReg c r)) := rfl

theorem PhiS1_pos (c : Dev nD) (n : ℕ) (h : n ≤ cfg1.N) (hz : n ≠ 0) :
    PhiS1 V c n h = iprop((stg1 (F := F) c ∗ owns (c : Thread nD τ) scM1_0 fullShare (stateAt V c (n - 1) (by omega)).1
      ∗ owns (c : Thread nD τ) scM1_1 fullShare (stateAt V c (n - 1) (by omega)).2.1 ∗ owns (c : Thread nD τ) scM1_2 fullShare (stateAt V c (n - 1) (by omega)).2.2) ∗ (∃ r, prngReg c r)) := by
  cases n with
  | zero => exact absurd rfl hz
  | succ n => rfl

/-! ## The proof data -/

/-- The region's proof data on core `c`: the arrays as the region finds them; after the body at point `t` each input's
    buffer at its block and the output's at `outAt`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

example (c : Dev nD) (w : Fin cfg1.W) : (dat1 V c).q w = fullShare := rfl
example (c : Dev nD) (t : Fin (cfg1.N + 1)) : (dat1 V c).owed t = 0 := rfl
example (c : Dev nD) : (dat1 V c).recorded 0 = Set.univ := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t.val t.isLt := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point. The inputs' memrefs hold their blocks; the closed forms say which of the five control cases
    the point is in, and that case's run applies: the invariant hands it the scratch buffers at the state the point
    before left (at anything at the first point of all), and takes them back at this point's state — the run's pieces
    read back are the explicit update term, which is `stateAt` there by its case equation; past the causal triangle
    nothing is stored and the state is the one found. At a last key block the output's buffer ends at numerator over
    denominator; elsewhere it is idle and handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : Hits t.val
    · by_cases h2 : t.val % 8 = 7
      · exfalso; omega
      · -- a first key block: the reset, then the update of the reset state
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [Dat.leavesExact_idle (dat1 V c) 3 t (idleAt1_3 t (fun h => h2 ((hcond1_2 t).mp h))) (noFlush1_3 t (fun h => h2 ((hcond1_2 t).mp h)))]
        rw [stateAt_first V c t h0]
        unfold stepAt qa ka
        by_cases hz : t.val = 0
        · rw [PhiS1_castSucc V c t, PhiS1_zero V c _ _ hz, PhiA1_eq]
          iintro ⟨⟨⟨HR, HS0, HS1, HS2⟩, Hg⟩, Ho, ⟨%d0, H0⟩, ⟨%d1, H1⟩, ⟨%d2, H2⟩, ⟨%d3, H3⟩⟩
          iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)).2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [HR HS0 HS1 HS2 Hg]
          · isplitr [Hg]; swap; · iexact Hg
            isplitl [HR]; · iexact HR
            isplitl [HS0]
            · unfold owns; iexists _; isplitr
              swap; · iexact HS0
              ipureintro; exact (View.read_writes_eq_canon _ _ _ (scoverA_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))).trans (valA_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))
            isplitl [HS1]
            · unfold owns; iexists _; isplitr
              swap; · iexact HS1
              ipureintro; exact (View.read_writes_eq_canon _ _ _ (scoverA_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))).trans (valA_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))
            · unfold owns; iexists _; isplitr
              swap; · iexact HS2
              ipureintro; exact (View.read_writes_eq_canon _ _ _ (scoverA_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))).trans (valA_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))
          isplitl [Ho]; · iexact Ho
          isplitl [H0]; · iexact H0
          isplitl [H1]; · iexact H1
          isplitl [H2]; · iexact H2
          iexists _; iexact H3
        · rw [PhiS1_castSucc V c t, PhiS1_pos V c _ _ hz]
          iintro ⟨⟨⟨HR, HS0, HS1, HS2⟩, Hg⟩, Ho, ⟨%d0, H0⟩, ⟨%d1, H1⟩, ⟨%d2, H2⟩, ⟨%d3, H3⟩⟩
          iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)).2.2.2 _ Set.univ _)
          isplitl [H0]; · iexact H0
          isplitl [H1]; · iexact H1
          isplitl [H2]; · iexact H2
          isplitl [H3]; · iexact H3
          isplitl [HS0]; · iexists _; iexact HS0
          isplitl [HS1]; · iexists _; iexact HS1
          isplitl [HS2]; · iexists _; iexact HS2
          iintro ⟨H0, H1, H2, H3, ⟨%es0, HS0⟩, ⟨%es1, HS1⟩, ⟨%es2, HS2⟩⟩
          isplitl [HR HS0 HS1 HS2 Hg]
          · isplitr [Hg]; swap; · iexact Hg
            isplitl [HR]; · iexact HR
            isplitl [HS0]
            · unfold owns; iexists _; isplitr
              swap; · iexact HS0
              ipureintro; exact (View.read_writes_eq_canon _ _ _ (scoverA_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))).trans (valA_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))
            isplitl [HS1]
            · unfold owns; iexists _; isplitr
              swap; · iexact HS1
              ipureintro; exact (View.read_writes_eq_canon _ _ _ (scoverA_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))).trans (valA_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))
            · unfold owns; iexists _; isplitr
              swap; · iexact HS2
              ipureintro; exact (View.read_writes_eq_canon _ _ _ (scoverA_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))).trans (valA_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))
          isplitl [Ho]; · iexact Ho
          isplitl [H0]; · iexact H0
          isplitl [H1]; · iexact H1
          isplitl [H2]; · iexact H2
          iexists _; iexact H3
    · exfalso; exact h1 (by show t.val % 8 ≤ 2 * (t.val / 8 % 4) + 1; omega)
  · have hz : t.val ≠ 0 := fun e => h0 (by rw [e])
    by_cases h1 : Hits t.val
    · by_cases h2 : t.val % 8 = 7
      · -- the last key block, meeting the triangle: the update, then the output
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t ((hcond1_2 t).mpr h2)], after1_3]
        unfold outAt
        rw [stateAt_hit V c t h0 h1]
        unfold stepAt qa ka
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (stateAt V c (t.val - 1) (Nat.lt_of_le_of_lt (Nat.sub_le _ _) t.isLt)).1 (stateAt V c (t.val - 1) (Nat.lt_of_le_of_lt (Nat.sub_le _ _) t.isLt)).2.1 (stateAt V c (t.val - 1) (Nat.lt_of_le_of_lt (Nat.sub_le _ _) t.isLt)).2.2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR HS0 HS1 HS2 Hg]
        · isplitr [Hg]; swap; · iexact Hg
          isplitl [HR]; · iexact HR
          isplitl [HS0]
          · unfold owns; iexists _; isplitr
            swap; · iexact HS0
            ipureintro; exact (View.read_writes_eq_canon _ _ _ (scoverC_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (stateAt V c (t.val - 1) (Nat.lt_of_le_of_lt (Nat.sub_le _ _) t.isLt)))).trans (valC_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (stateAt V c (t.val - 1) (Nat.lt_of_le_of_lt (Nat.sub_le _ _) t.isLt)))
          isplitl [HS1]
          · unfold owns; iexists _; isplitr
            swap; · iexact HS1
            ipureintro; exact (View.read_writes_eq_canon _ _ _ (scoverC_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (stateAt V c (t.val - 1) (Nat.lt_of_le_of_lt (Nat.sub_le _ _) t.isLt)))).trans (valC_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (stateAt V c (t.val - 1) (Nat.lt_of_le_of_lt (Nat.sub_le _ _) t.isLt)))
          · unfold owns; iexists _; isplitr
            swap; · iexact HS2
            ipureintro; exact (View.read_writes_eq_canon _ _ _ (scoverC_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (stateAt V c (t.val - 1) (Nat.lt_of_le_of_lt (Nat.sub_le _ _) t.isLt)))).trans (valC_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (stateAt V c (t.val - 1) (Nat.lt_of_le_of_lt (Nat.sub_le _ _) t.isLt)))
        isplitl [Ho]; · iexact Ho
        isplitl [H0]; · iexact H0
        isplitl [H1]; · iexact H1
        isplitl [H2]; · iexact H2
        unfold owns; iexists _; isplitr
        swap; · iexact H3
        ipureintro; exact (View.read_writes_eq_canon _ _ _ (coverC_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (stateAt V c (t.val - 1) (Nat.lt_of_le_of_lt (Nat.sub_le _ _) t.isLt)))).trans (valC_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (stateAt V c (t.val - 1) (Nat.lt_of_le_of_lt (Nat.sub_le _ _) t.isLt)))
      · -- a later key block meeting the triangle: the update
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [Dat.leavesExact_idle (dat1 V c) 3 t (idleAt1_3 t (fun h => h2 ((hcond1_2 t).mp h))) (noFlush1_3 t (fun h => h2 ((hcond1_2 t).mp h)))]
        rw [stateAt_hit V c t h0 h1]
        unfold stepAt qa ka
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (stateAt V c (t.val - 1) (Nat.lt_of_le_of_lt (Nat.sub_le _ _) t.isLt)).1 (stateAt V c (t.val - 1) (Nat.lt_of_le_of_lt (Nat.sub_le _ _) t.isLt)).2.1 (stateAt V c (t.val - 1) (Nat.lt_of_le_of_lt (Nat.sub_le _ _) t.isLt)).2.2).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2 Hg]
        · isplitr [Hg]; swap; · iexact Hg
          isplitl [HR]; · iexact HR
          isplitl [HS0]
          · unfold owns; iexists _; isplitr
            swap; · iexact HS0
            ipureintro; exact (View.read_writes_eq_canon _ _ _ (scoverB_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (stateAt V c (t.val - 1) (Nat.lt_of_le_of_lt (Nat.sub_le _ _) t.isLt)))).trans (valB_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (stateAt V c (t.val - 1) (Nat.lt_of_le_of_lt (Nat.sub_le _ _) t.isLt)))
          isplitl [HS1]
          · unfold owns; iexists _; isplitr
            swap; · iexact HS1
            ipureintro; exact (View.read_writes_eq_canon _ _ _ (scoverB_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (stateAt V c (t.val - 1) (Nat.lt_of_le_of_lt (Nat.sub_le _ _) t.isLt)))).trans (valB_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (stateAt V c (t.val - 1) (Nat.lt_of_le_of_lt (Nat.sub_le _ _) t.isLt)))
          · unfold owns; iexists _; isplitr
            swap; · iexact HS2
            ipureintro; exact (View.read_writes_eq_canon _ _ _ (scoverB_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (stateAt V c (t.val - 1) (Nat.lt_of_le_of_lt (Nat.sub_le _ _) t.isLt)))).trans (valB_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (stateAt V c (t.val - 1) (Nat.lt_of_le_of_lt (Nat.sub_le _ _) t.isLt)))
        isplitl [Ho]; · iexact Ho
        isplitl [H0]; · iexact H0
        isplitl [H1]; · iexact H1
        isplitl [H2]; · iexact H2
        iexists _; iexact H3
    · by_cases h2 : t.val % 8 = 7
      · -- the last key block, past the triangle: the output from the state found
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t ((hcond1_2 t).mpr h2)], after1_3]
        unfold outAt
        rw [stateAt_miss V c t h0 h1]
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply ((kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) (stateAt V c (t.val - 1) (Nat.lt_of_le_of_lt (Nat.sub_le _ _) t.isLt)).1 (stateAt V c (t.val - 1) (Nat.lt_of_le_of_lt (Nat.sub_le _ _) t.isLt)).2.1 (stateAt V c (t.val - 1) (Nat.lt_of_le_of_lt (Nat.sub_le _ _) t.isLt)).2.2).2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [HR HS0 HS1 HS2 Hg]
        · isplitr [Hg]; swap; · iexact Hg
          isplitl [HR]; · iexact HR
          isplitl [HS0]; · iexact HS0
          isplitl [HS1]; · iexact HS1
          iexact HS2
        isplitl [Ho]; · iexact Ho
        isplitl [H0]; · iexact H0
        isplitl [H1]; · iexact H1
        isplitl [H2]; · iexact H2
        unfold owns; iexists _; isplitr
        swap; · iexact H3
        ipureintro; exact (View.read_writes_eq_canon _ _ _ (coverE_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) (stateAt V c (t.val - 1) (Nat.lt_of_le_of_lt (Nat.sub_le _ _) t.isLt)))).trans (valE_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) (stateAt V c (t.val - 1) (Nat.lt_of_le_of_lt (Nat.sub_le _ _) t.isLt)))
      · -- past the triangle and not the last: nothing is loaded or stored
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [Dat.leavesExact_idle (dat1 V c) 3 t (idleAt1_3 t (fun h => h2 ((hcond1_2 t).mp h))) (noFlush1_3 t (fun h => h2 ((hcond1_2 t).mp h)))]
        rw [stateAt_miss V c t h0 h1]
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) (stateAt V c (t.val - 1) (Nat.lt_of_le_of_lt (Nat.sub_le _ _) t.isLt)).1 (stateAt V c (t.val - 1) (Nat.lt_of_le_of_lt (Nat.sub_le _ _) t.isLt)).2.1 (stateAt V c (t.val - 1) (Nat.lt_of_le_of_lt (Nat.sub_le _ _) t.isLt)).2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HR HS0 HS1 HS2 Hg]
        · isplitr [Hg]; swap; · iexact Hg
          isplitl [HR]; · iexact HR
          isplitl [HS0]; · iexact HS0
          isplitl [HS1]; · iexact HS1
          iexact HS2
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1, HS2⟩, Hg⟩
  isplitr [Hg]; swap; · iexact Hg
  isplitl [HR]; · iexact HR
  isplitl [HS0]; · iexists _; iexact HS0
  isplitl [HS1]; · iexists _; iexact HS1
  iexists _; iexact HS2

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.KFrameClaim.lean ====
/-
  The word-level program's frame claim: its run from the two regions' proof data, region 1's being the attention
  pipeline's at the word instance — the arrays as the region finds them, full shares, nothing owed and no bound on
  the recorded waits at entry, the body obligation, and the invariant entered from and giving back the scoped rest
  and the generator register.
-/
import proofs.«168439_j45234595561646_2_alg».proof.Defs
import proofs.«168439_j45234595561646_2_alg».proof.Proof.KRun
import proofs.«168439_j45234595561646_2_alg».proof.Proof.KFrame1
import proofs.«168439_j45234595561646_2_alg».proof.Proof.Gen.Pre_finite_inputs

noncomputable section

namespace Cert.Kernel.Hand

open Idealize.ShloMosaic Idealize.ShloMosaic.TcCoe
open Idealize.SL Idealize.SL.Sem
open Cert.Kernel.Gen

/-- Region 1's proof data at the word instance, with what the run needs of them. -/
def R1K : Reg1 Bits where
  dat V c := dat1 V c
  hA V c w := A_eq1 V c w
  hq _ _ _ := rfl
  howed _ _ _ := rfl
  hrec _ _ := rfl
  hbody V c := body_obligation1 V c
  hin V c := hin1 V c
  hout V c := hout1 V c

end Cert.Kernel.Hand

namespace Cert.Proof

open Idealize.ShloMosaic Idealize.SL.Sem

/-- The word-level program runs and its argument arrays end as launched. -/
theorem frame_p : Cert.frame_Kernel (hKernel := Cert.Kernel.Gen.facts) (hPre_finite_inputs := Cert.Pre_finite_inputs.Gen.facts) :=
  fun m ρ _ => Cert.Kernel.Hand.frame Cert.Kernel.Hand.R1K m ρ

/-- info: 'Cert.Proof.frame_p' depends on axioms: [propext, Classical.choice, Quot.sound] -/
#guard_msgs in #print axioms frame_p

end Cert.Proof

end
-- ==== Proof.Flash.lean ====
/-
  The explicit per-point contents of the two kernels' buffers, for any float instance.

  Region 0 (the fused projection, 16 row blocks): at a point its three output blocks are the products of the
  row block of the activations with the three weight matrices.

  Region 1 (causal attention, grid 4 x 4 x 8, the last axis the key blocks): three scratch buffers are carried
  along the key axis — the running row maximum, the running denominator and the running numerator.  At the first
  key block they are reset and then updated with that block; at a later key block they are updated when the block
  meets the causal triangle (key block index at most 2 * query block index + 1) and kept otherwise; the output
  block is the numerator over the denominator.
-/
import proofs.«168439_j45234595561646_2_alg».proof.Proof.Gen.KernelIdeal.Launch
import proofs.«168439_j45234595561646_2_alg».proof.Proof.Gen.KernelIdeal.Skeleton
import proofs.«168439_j45234595561646_2_alg».proof.Proof.Gen.KernelIdeal.Points
import Idealize.ShloMosaic.Lib.Pipeline.FrameBody

noncomputable section

namespace Cert.KernelIdeal.Hand

open Idealize.ShloMosaic Idealize.ShloMosaic.TcCoe
open Idealize.SL Idealize.SL.Sem
open Cert.KernelIdeal.Gen

variable {F : FTy → Type} [FloatOps F] [Named F]

/-- The contents of a core's TensorCore buffers when a region is entered: the parameter both regions are stated at. -/
abbrev Entry (F : FTy → Type) : Type := (c : Dev nD) → (b : Ref sig .tc) → Buf (Elt F) ((c : Thread nD τ).loc b)

variable (V : Entry F)

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangle of a 1024 x 1024 staging buffer. -/
abbrev r0 : Rect S1024x1024 := Rect.unit (s := S1024x1024) ![0, 0] S1024x1024.size inb_S1024x1024_S1024x1024_0_0

/-- What the projection body leaves in its three output buffers, from the activations' block `x` and a weight matrix. -/
def out0_4 (x w : Vec F S1024x1024 .bf16) : Vec F S1024x1024 .bf16 :=
  View.canon [⟨r0, k0_pay2 (View.ld x r0) (View.ld w r0)⟩]
def out0_5 (x w : Vec F S1024x1024 .bf16) : Vec F S1024x1024 .bf16 :=
  View.canon [⟨r0, k0_pay3 (View.ld x r0) (View.ld w r0)⟩]
def out0_6 (x w : Vec F S1024x1024 .bf16) : Vec F S1024x1024 .bf16 :=
  View.canon [⟨r0, k0_pay4 (View.ld x r0) (View.ld w r0)⟩]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three carried scratch buffers: running maximum, running denominator, running numerator. -/
abbrev Scr (F : FTy → Type) : Type := Vec F S1024x1 .f32 × Vec F S1024x1 .f32 × Vec F S1024x1024 .f32

/-- The reset at a row block's first key block: maximum at minus infinity, denominator and numerator at zero. -/
def initS : Scr F := (k1_pay1, k1_pay2, k1_pay3)

/-- One online-softmax update with the query block `q`, key block `k` and value block `v`; `a1`, `a2` are the query
    and key block numbers as the body reads them. -/
def stepS (a1 a2 : BitVec 32) (q : Vec F S1x1024x1024 .bf16) (k v : Vec F S1x512x1024 .bf16) (p : Scr F) : Scr F :=
  (k1_pay5 (k1_pay8 a1 a2 q k p.1),
   k1_pay11 a1 a2 q k p.1 p.1 p.2.1,
   k1_pay4 (k1_pay9 a1 a2 q k p.1 p.1) (k1_pay10 a1 a2 q k p.1) p.2.2 v)

/-- The query block number and the key block number at a point, as 32-bit words. -/
def qa (t : Fin cfg1.N) : BitVec 32 := BitVec.ofNat 32 ((grid1.coords t) 1).val
def ka (t : Fin cfg1.N) : BitVec 32 := BitVec.ofNat 32 ((grid1.coords t) 2).val

/-- The key block at position `n` meets the causal triangle of its query block. -/
abbrev Hits (n : ℕ) : Prop := n % 8 ≤ 2 * (n / 8 % 4) + 1

/-- The update at point `t` from the point's blocks. -/
def stepAt (c : Dev nD) (t : Fin cfg1.N) (p : Scr F) : Scr F :=
  stepS (qa t) (ka t) (iblk1 V c 0 t) (iblk1 V c 1 t) (iblk1 V c 2 t) p

/-- The scratch contents after the body at position `n`. -/
def stateAt (c : Dev nD) : (n : ℕ) → n < cfg1.N → Scr F
  | 0, hn => stepAt V c ⟨0, hn⟩ initS
  | n + 1, hn =>
    if (n + 1) % 8 = 0 then stepAt V c ⟨n + 1, hn⟩ initS
    else if Hits (n + 1) then stepAt V c ⟨n + 1, hn⟩ (stateAt c n (Nat.lt_of_succ_lt hn))
    else stateAt c n (Nat.lt_of_succ_lt hn)

/-- The output block the body stores at a row block's last key block: numerator over denominator. -/
def outAt (c : Dev nD) (n : ℕ) (hn : n < cfg1.N) : Vec F S1x1024x1024 .f32 :=
  k1_pay6 (stateAt V c n hn).2.2 (stateAt V c n hn).2.1

theorem stateAt_first (c : Dev nD) (t : Fin cfg1.N) (h : t.val % 8 = 0) :
    stateAt V c t.val t.isLt = stepAt V c t initS := by
  obtain ⟨n, hn⟩ := t
  cases n with
  | zero => rfl
  | succ n => exact if_pos h

theorem stateAt_hit (c : Dev nD) (t : Fin cfg1.N) (h : ¬ t.val % 8 = 0) (h2 : Hits t.val) :
    stateAt V c t.val t.isLt = stepAt V c t (stateAt V c (t.val - 1) (Nat.lt_of_le_of_lt (Nat.sub_le _ _) t.isLt)) := by
  obtain ⟨n, hn⟩ := t
  cases n with
  | zero => exact absurd (Nat.zero_mod _) h
  | succ n => exact (if_neg h).trans (if_pos h2)

theorem stateAt_miss (c : Dev nD) (t : Fin cfg1.N) (h : ¬ t.val % 8 = 0) (h2 : ¬ Hits t.val) :
    stateAt V c t.val t.isLt = stateAt V c (t.val - 1) (Nat.lt_of_le_of_lt (Nat.sub_le _ _) t.isLt) := by
  obtain ⟨n, hn⟩ := t
  cases n with
  | zero => exact absurd (Nat.zero_mod _) h
  | succ n => exact (if_neg h).trans (if_neg h2)

end Cert.KernelIdeal.Hand

end
-- ==== Proof.Frame0.lean ====
/-
  Region 0, the fused projection: its proof data at the contents `V` the region is entered with, and the body
  obligation.  At every point the four input buffers hold their blocks (the activations' row block, fetched at
  every point; the three weight matrices, fetched once and kept); the body loads them, loads each output buffer
  once, and stores the three products over the three output buffers whole.  The invariant is the constant one:
  nothing is carried between points.
-/
import proofs.«168439_j45234595561646_2_alg».proof.Proof.Flash
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 1024 x 1024: the elaborator recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : Entry F)

/-! ## The input windows' buffers at a point -/

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The output buffers are covered by their one store -/

/-- A store over the whole-buffer rectangle covers the buffer. -/
theorem cover0 (p0 : Vec F S1024x1024 .bf16) (y : S1024x1024.Idx) :
    ∃ pc ∈ ([⟨r0, p0⟩] : List (View.Piece (Elt F) S1024x1024 .bf16)), y ∈ pc.1.set :=
  View.cover_of_tiled [⟨r0, p0⟩] S1024x1024.size (by rfl) y

/-! ## The body's triple -/

set_option maxHeartbeats 1000000 in
/-- The projection body on whole staging buffers, the inputs' at contents `x0 … x3` and the outputs' at anything, runs to
    the continuation holding the inputs' as they were and the outputs' at the three products. -/
theorem sound_kernel0 (c : Dev nD) (E : Set ℕ) (i : grid0.Coords)
    (arg1 : Memref sig .tc .vmem S1024x1024 .bf16) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (arg7 : Memref sig .tc .vmem S1024x1024 .bf16) (harg7 : arg7.IsWhole)
    (x0 x1 x2 x3 : Vec F S1024x1024 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The proof data -/

/-- The proof data of the projection pipeline on core `c`: the arrays as the region finds them; after the body at
    point `t` each input's buffer at its block and each output's at the product of the row block with its weight
    matrix; the constant invariant (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- info: 'Cert.KernelIdeal.Hand.body_obligation0' depends on axioms: [propext, Classical.choice, Quot.sound] -/
#guard_msgs in #print axioms body_obligation0

end Cert.KernelIdeal.Hand

end
-- ==== Proof.Run.lean ====
/-
  The run of the whole program from the two regions' proof data: the buffer contents at every boundary between
  a host stretch and a kernel region, folded from the launch memory; each region as a segment entered from the
  contents before it and left at the contents after it; and the launch, ending with every unscoped buffer at the
  last boundary's contents.  Region 0's proof data are the projection's; region 1's are a parameter: any proof
  data whose arrays are the entry contents, at full shares, owing nothing and bounding nothing at entry, with the body
  obligation, and whose invariant is entered from and gives back the scoped rest and the generator register.
-/
import proofs.«168439_j45234595561646_2_alg».proof.Proof.Frame0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- Region 1's proof data at any entry contents, with what the run needs of them. -/
structure Reg1 (F : FTy → Type) [FloatOps F] [Named F] where
  dat : (V : Entry F) → (c : Dev nD) → Dat τ (Elt F) Unit ℕ (UR sig nD τ) ℕ cfg1 c
  hA : ∀ V c w, (dat V c).A w = V c (Pipeline.arrRef spec1 w)
  hq : ∀ V c w, (dat V c).q w = fullShare
  howed : ∀ V c t, (dat V c).owed t = 0
  hrec : ∀ V c, (dat V c).recorded 0 = Set.univ
  hbody : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

variable (R1 : Reg1 F)
variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev V1 : Entry F := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : Entry F := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : Entry F := fun c b => W3 m ρ c b
/-- At region 1's exit: its arrays at what the pipeline leaves, every other buffer as entered. -/
def W4 (c : Dev nD) : Valuation τ sig (Elt F) :=
  Pipeline.withArrays spec1 c (W3 m ρ c) fun w => (R1.dat (V3 m ρ) c).arrAt w cfg1.N
theorem W4_arr (c : Dev nD) (w : Fin cfg1.W) :
    W4 R1 m ρ c (Proc.devRef .tc (Pipeline.arrRef spec1 w)) = (R1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 R1 m ρ c (Proc.devRef .tc b) = W3 m ρ c (Proc.devRef .tc b) := by
  unfold W4; exact Pipeline.withArrays_of_ne spec1 c _ _ b hb
abbrev V4 : Entry F := fun c b => W4 R1 m ρ c b
theorem hF1 (c : Dev nD) (w : Fin cfg1.W) : (R1.dat (V3 m ρ) c).arrAt w cfg1.N = V4 R1 m ρ c (Pipeline.arrRef spec1 w) :=
  (W4_arr R1 m ρ c w).symm
theorem hrest1 (c : Dev nD) : ∀ b, b ∉ Finset.univ.image (Pipeline.arrRef spec1) → V4 R1 m ρ c b = V3 m ρ c b :=
  fun b hb => W4_of_ne R1 m ρ c b fun w e => hb (Finset.mem_image.mpr ⟨w, Finset.mem_univ _, e⟩)

/-! ### The arguments end as launched: no host operation writes one and none is an array of either pipeline -/

theorem W4_main_arg0 (c : Dev nD) : W4 R1 m ρ c (Proc.devRef .tc main_arg0) = m ((c : Thread nD τ).loc main_arg0) :=
  calc W4 R1 m ρ c (Proc.devRef .tc main_arg0)
    _ = W3 m ρ c (Proc.devRef .tc main_arg0) := W4_of_ne R1 m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 R1 m ρ c (Proc.devRef .tc main_arg1) = m ((c : Thread nD τ).loc main_arg1) :=
  calc W4 R1 m ρ c (Proc.devRef .tc main_arg1)
    _ = W3 m ρ c (Proc.devRef .tc main_arg1) := W4_of_ne R1 m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 R1 m ρ c (Proc.devRef .tc main_arg2) = m ((c : Thread nD τ).loc main_arg2) :=
  calc W4 R1 m ρ c (Proc.devRef .tc main_arg2)
    _ = W3 m ρ c (Proc.devRef .tc main_arg2) := W4_of_ne R1 m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 R1 m ρ c (Proc.devRef .tc main_arg3) = m ((c : Thread nD τ).loc main_arg3) :=
  calc W4 R1 m ρ c (Proc.devRef .tc main_arg3)
    _ = W3 m ρ c (Proc.devRef .tc main_arg3) := W4_of_ne R1 m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The result array ends at what region 1's pipeline leaves in its output window's array. -/
theorem W4_main_v9 (c : Dev nD) : W4 R1 m ρ c (Proc.devRef .tc main_v9) = (R1.dat (V3 m ρ) c).arrAt 3 cfg1.N :=
  W4_arr R1 m ρ c 3

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => R1.dat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 R1 m ρ c) ∗ ∃ r, prngReg c r)

/-! ## The constant invariant, in and out -/

/-- The scoped rest and the generator register, beside anything, make the constant invariant, -/
theorem ΦA_in {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp
/-- and it gives them back. -/
theorem ΦA_out {gr W : Nat} (win : Fin W → Pipeline.WinSpec sig gr) (c : Dev nD) :
    (Pipeline.ΦA win c : sProp 𝕄)
      ⊢ iprop((∃ r, prngReg c r) ∗ (BI.emp : sProp 𝕄) ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

/-! ## The regions as segments -/

set_option backward.isDefEq.respectTransparency.types false in
/-- Region 0 over the thread state: entered from every unscoped buffer at `W1`, left at `W2`. -/
def reg0 : Pipeline.RegionSeg (pcfgs (F := F)) adm (pdats R1 m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats R1 m ρ) launch0.win launch0.arr_whole c
      ((pdats R1 m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats R1 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats R1 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R1 m ρ) ((pdats R1 m ρ 0 c).share_full fun _ => rfl)
      (V1 m ρ c) (V2 m ρ c) ((pdats R1 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`.  Its invariant is
    entered from, and gives back, the scoped rest and the generator register through the proof data's two entailments. -/
def reg1 : Pipeline.RegionSeg (pcfgs (F := F)) adm (pdats R1 m ρ) () defs₀ 𝒱₀ L lv 1 where
  win := launch1.win.to₀
  block_pos := launch1.block_pos
  stage_whole := launch1.stage_whole
  K := PEmpty
  osem k := k.elim
  ho := Pipeline.OwnSemFacts.none _
  hbody c := (R1.hbody (V3 m ρ) c).loose
  hwaits := Pipeline.hwaits_of_owed_zero _ _ _ _ L lv 1 fun c t => R1.howed (V3 m ρ) c t
  pre c := iprop(StableHlo.held (c : Thread nD τ) (Pipeline.ucRefs τ sig) (W3 m ρ c) ∗ R c)
  post c := iprop(Tₙ R1 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats R1 m ρ) launch1.win launch1.arr_whole c
      ((pdats R1 m ρ 1 c).share_full fun w => R1.hq (V3 m ρ) c w) (V3 m ρ c) fun w => R1.hA (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats R1 m ρ 1 c).owed 0 = 0 from R1.howed (V3 m ρ) c 0]
      icases HO with ⟨%W, HO⟩; iexists W
      isplitr
      · ipureintro; intro x _; left
        show x ∈ (R1.dat (V3 m ρ) c).recorded 0
        rw [R1.hrec]; trivial
      iexact HO
    isplitl [Hp]; · iexact Hp
    iexact Hrest
  hin c := (ΦA_in spec1 c _).trans (R1.hin (V3 m ρ) c)
  hout c := by
    rw [Pipeline.ownSems0_none]
    exact (R1.hout (V3 m ρ) c).trans (ΦA_out spec1 c)
  hexit c := by
    have hjoin := Pipeline.unscopedBufs_of_arrays (p := 1) (pcfgs (F := F)) adm (Ix := Unit) (Name := ℕ) (U := UR sig nD τ) (Lvl := ℕ)
      launch1.win launch1.arr_whole c (pdats R1 m ρ) ((pdats R1 m ρ 1 c).share_full fun w => R1.hq (V3 m ρ) c w)
      (V3 m ρ c) (V4 R1 m ρ c) ((pdats R1 m ρ 1 c).arrAt · cfg1.N) (hF1 R1 m ρ c) (hrest1 R1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats R1 m ρ 1 c).owed (Fin.last _) = 0 from R1.howed (V3 m ρ) c _]
    icases HO with ⟨%W, -, HO⟩; iexists W; iexact HO

/-! ## The program as segments, and the launch -/

/-- The program's 4 segments in order: a host segment per stretch from its boundary's contents, a region per kernel call. -/
abbrev segs : List (Pipeline.Seg (pcfgs (F := F)) adm (pdats R1 m ρ) () defs₀ 𝒱₀ L lv) :=
  [ .host (hseg hostOps0 hostOps0_sub hostOps0_fresh (W0 m ρ)),
    .region (reg0 R1 m ρ),
    .host (hseg hostOps1 hostOps1_sub hostOps1_fresh (W2 m ρ)),
    .region (reg1 R1 m ρ) ]
/-- The program is the run of the segments. -/
theorem main_run (c : Dev nD) : main (F := F) c = Pipeline.Seg.run (segs R1 m ρ) := (main_chain c).trans (by chain_rfl)

set_option backward.isDefEq.respectTransparency.types false in
/-- THE RUN: from any memory with zero counters, every weakly fair execution of the program on the TensorCores
    terminates, nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 R1 m ρ c b) :=
  Pipeline.θ_run_regions_kit (pcfgs (F := F)) adm (pdats R1 m ρ) () cellOf_inj emb₁ defs₀ 𝒱₀ L lv m ρ main (segs R1 m ρ)
    (fun c Q => by rw [main_run R1 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ R1 m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 R1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 R1 m ρ c) s')
      isplitl [Hh] <;> iassumption)
    (hQ := fun s h c => h c)

include R1 in
/-- THE FRAME: the program terminates, nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 R1 m ρ c),
     (h c _ (mem_uc main_arg1 (by decide))).trans (W4_main_arg1 R1 m ρ c),
     (h c _ (mem_uc main_arg2 (by decide))).trans (W4_main_arg2 R1 m ρ c),
     (h c _ (mem_uc main_arg3 (by decide))).trans (W4_main_arg3 R1 m ρ c)⟩) (run_all R1 m ρ)

/-- info: 'Cert.KernelIdeal.Hand.run_all' depends on axioms: [propext, Classical.choice, Quot.sound] -/
#guard_msgs in #print axioms run_all
/-- info: 'Cert.KernelIdeal.Hand.frame' depends on axioms: [propext, Classical.choice, Quot.sound] -/
#guard_msgs in #print axioms frame

end Cert.KernelIdeal.Hand

end
-- ==== Proof.Frame1Runs.lean ====
/-
  Region 1 (causal attention), what its case runs share: the three branch conditions of the body in closed form
  over the point number, decided over the grid; where the output window is idle; the staging and scratch memrefs
  as the pipeline passes them; the region's entry invariant with the three scratch buffers split off; and the
  input windows' contents at every point.
-/
import proofs.«168439_j45234595561646_2_alg».proof.Proof.Flash
import Idealize.ShloMosaic.Lib.Ring
import Idealize.ShloMosaic.Lib.Tactic

-- goals about indices of 1024-long axes nest deeply when elaborated
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : Entry F)

/-! ## The body's branch conditions -/

/-- The first conditional's condition (the key block is the row block's first), from the grid coordinates. -/
abbrev cond1_0 (i : grid1.Coords) : Prop :=
  (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (the key block meets the causal triangle), from the grid coordinates. -/
abbrev cond1_1 (i : grid1.Coords) : Prop :=
  (Scalar.cmpi .ne (Scalar.extui (Scalar.cmpi .sle (BitVec.ofNat 32 (i 2).val)
    (Scalar.subi (Scalar.muli (Scalar.addi (BitVec.ofNat 32 (i 1).val) 1#32) 2#32) 1#32))) 0#32) = 1#1
/-- It holds where the key block number is at most twice the query block number plus one. -/
theorem hcond1_1 : ∀ t : Fin cfg1.N, cond1_1 (grid1.coords t) ↔ Hits t.val :=
  (by decide +kernel : ∀ t : Fin grid1.N, cond1_1 (grid1.coords t) ↔ t.val % 8 ≤ 2 * (t.val / 8 % 4) + 1)

/-- The third conditional's condition (the key block is the row block's last). -/
abbrev cond1_2 (i : grid1.Coords) : Prop := k1_cond3 i = 1#1
/-- It holds at the points ≡ 7 (mod 8). -/
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a row block's last key block the output window is idle: nothing is stored into it, -/
theorem idleAt1_3 : ∀ t : Fin cfg1.N, ¬cond1_2 (grid1.coords t) → cfg1.idle 3 (grid1.coords t) = true := by decide +kernel
/-- and it is not written back; -/
theorem noFlush1_3 : ∀ t : Fin cfg1.N, ¬cond1_2 (grid1.coords t) → (cfg1.win 3).flush t = false := by decide +kernel
/-- at the last key block it is live. -/
theorem liveAt1_3 : ∀ t : Fin cfg1.N, cond1_2 (grid1.coords t) → cfg1.idle 3 (grid1.coords t) = false := by decide +kernel

/-! ## The memrefs the body is called with -/

/-- One staging buffer of the output window, through which its contents are stated (the choice does not matter). -/
abbrev VO1_3 : View sig .tc .vmem S1x1024x1024 .f32 := (Memref.whole cc1_stg3_0 : Memref sig .tc .vmem S1x1024x1024 .f32).view
/-- Each window's current staging memref at point `t`, as the pipeline passes it, and its wholeness. -/
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The scratch operands: whole scoped buffers of the kernel's own — the running maximum, denominator and numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
/-- and their views, through which what they hold is stated. -/
abbrev VS1_0 : View sig .tc .vmem S1024x1 .f32 := (scM1_0 : Memref sig .tc .vmem S1024x1 .f32).view
abbrev VS1_1 : View sig .tc .vmem S1024x1 .f32 := (scM1_1 : Memref sig .tc .vmem S1024x1 .f32).view
abbrev VS1_2 : View sig .tc .vmem S1024x1024 .f32 := (scM1_2 : Memref sig .tc .vmem S1024x1024 .f32).view

/-! ## The region's invariant with the scratch split off -/

/-- Re-association of the separating conjunction, as an equation. -/
theorem sepA (P Q R : sProp 𝕄) : (iprop((P ∗ Q) ∗ R) : sProp 𝕄) = iprop(P ∗ Q ∗ R) := by
  have h₁ : iprop((P ∗ Q) ∗ R) ⊢ (iprop(P ∗ Q ∗ R) : sProp 𝕄) := by
    iintro ⟨⟨HP, HQ⟩, HR⟩
    isplitl [HP]; · iexact HP
    isplitl [HQ]; · iexact HQ
    iexact HR
  have h₂ : iprop(P ∗ Q ∗ R) ⊢ (iprop((P ∗ Q) ∗ R) : sProp 𝕄) := by
    iintro ⟨HP, HQ, HR⟩
    isplitr [HR]; swap; · iexact HR
    isplitl [HP]; · iexact HP
    iexact HQ
  exact BI.equiv_iff.mp ⟨h₁, h₂⟩

/-- The core's scoped buffers that this region never touches (the other region's staging buffers), each at some contents. -/
def stg1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The region's entry invariant: the untouched buffers, the three scratch buffers at some contents each, and the
    generator register at some state. -/
theorem PhiA1_eq (c : Dev nD) :
    (Pipeline.ΦA spec1 c : sProp 𝕄)
      = iprop((stg1 (F := F) c ∗ (∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [scM1_0, scM1_1, scM1_2, owns_whole, stg1, sepA] <;> rfl

/-! ## The input windows' blocks -/

/-- An input window's current staging buffer holds its block at every point, fetched there or not, for any proof data
    whose array is the entry contents and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Cert.KernelIdeal.Hand

end
-- ==== Proof.Frame1RunA.lean ====
/-
  Region 1, the body's run at a row block's first key block (the reset taken, the update taken, the output not
  stored): the pieces the three scratch buffers end with are the witness the run finds.
-/
import proofs.«168439_j45234595561646_2_alg».proof.Proof.Frame1Runs

-- goals about indices of 1024-long axes nest deeply when elaborated
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the elaborated run is a long term: more heartbeats than the default are needed to finish the declaration
set_option maxHeartbeats 1000000 in
/-- At a first key block: on whole memrefs — the inputs' at their contents, the output's (idle here) at contents handed
    back untouched, the three scratch buffers at anything — the body runs to the continuation holding the inputs' and
    the output's as they were and each scratch buffer with its pieces written (the reset store, then the update's). -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) :
    Σ' (LS0 : List (View.Piece (Elt F) S1024x1 .f32)), Σ' (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__causal_kernel i arg3 harg3 arg4 harg4 arg5 harg5 arg6 harg6 arg7 harg7 arg8 harg8 arg9 harg9) K } := by
  refine ⟨?_, ?_, ?_, fun xi3 E K => ?run⟩
  case run =>
    simp only [cc1__causal_kernel_eq_skeleton]; unfold cc1__causal_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.Frame1RunB.lean ====
/-
  Region 1, the body's run at a later key block that meets the causal triangle and is not the row block's last
  (no reset, the update taken, the output not stored): the pieces the three scratch buffers end with are the witness.
-/
import proofs.«168439_j45234595561646_2_alg».proof.Proof.Frame1RunA

-- goals about indices of 1024-long axes nest deeply when elaborated
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the elaborated run is a long term: more heartbeats than the default are needed to finish the declaration
set_option maxHeartbeats 1000000 in
/-- At such a key block: on whole memrefs — the inputs' at their contents, the output's (idle here) at contents handed back
    untouched, the three scratch buffers at what the point before left — the body runs to the continuation holding the
    inputs' and the output's as they were and each scratch buffer with the update's piece written. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (LS0 : List (View.Piece (Elt F) S1024x1 .f32)), Σ' (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__causal_kernel i arg3 harg3 arg4 harg4 arg5 harg5 arg6 harg6 arg7 harg7 arg8 harg8 arg9 harg9) K } := by
  refine ⟨?_, ?_, ?_, fun xi3 E K => ?run⟩
  case run =>
    simp only [cc1__causal_kernel_eq_skeleton]; unfold cc1__causal_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.Frame1RunC.lean ====
/-
  Region 1, the body's run at a row block's last key block when it meets the causal triangle (no reset, the update
  taken, the output stored): the pieces the output and the three scratch buffers end with are the witness.
-/
import proofs.«168439_j45234595561646_2_alg».proof.Proof.Frame1RunB

-- goals about indices of 1024-long axes nest deeply when elaborated
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the elaborated run is a long term: more heartbeats than the default are needed to finish the declaration
set_option maxHeartbeats 1000000 in
/-- At such a key block: on whole memrefs — the inputs' at their contents, the output's at anything, the three scratch
    buffers at what the point before left — the body runs to the continuation holding the inputs' as they were, the
    output's with its piece written and each scratch buffer with the update's piece written. -/
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)), Σ' (LS0 : List (View.Piece (Elt F) S1024x1 .f32)), Σ' (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__causal_kernel i arg3 harg3 arg4 harg4 arg5 harg5 arg6 harg6 arg7 harg7 arg8 harg8 arg9 harg9) K } := by
  refine ⟨?_, ?_, ?_, ?_, fun E K => ?run⟩
  case run =>
    simp only [cc1__causal_kernel_eq_skeleton]; unfold cc1__causal_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.Frame1RunD.lean ====
/-
  Region 1, the body's run at a key block past the causal triangle that is not the row block's last (no conditional
  taken): nothing is loaded or stored.
-/
import proofs.«168439_j45234595561646_2_alg».proof.Proof.Frame1RunC

-- goals about indices of 1024-long axes nest deeply when elaborated
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the elaborated run is a long term: more heartbeats than the default are needed to finish the declaration
set_option maxHeartbeats 1000000 in
/-- At such a key block: on whole memrefs — the inputs' at their contents, the output's (idle here) at contents handed back
    untouched, the three scratch buffers at what the point before left — the body runs to the continuation holding
    every one of them as it was. -/
theorem kernelRun1_D (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : ¬cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32)
    (xi3 : Vec F S1x1024x1024 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__causal_kernel i arg3 harg3 arg4 harg4 arg5 harg5 arg6 harg6 arg7 harg7 arg8 harg8 arg9 harg9) K := by
  simp only [cc1__causal_kernel_eq_skeleton]; unfold cc1__causal_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1; obtain rfl := harg9.eq_unread hfs2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; · ipureintro; exact harg7.read_unread _
    iexact HS0
  isplitl [HS1]
  · iexists _; isplitr; · ipureintro; exact harg8.read_unread _
    iexact HS1
  iexists _; isplitr; · ipureintro; exact harg9.read_unread _
  iexact HS2

end Cert.KernelIdeal.Hand

end
-- ==== Proof.Frame1RunE.lean ====
/-
  Region 1, the body's run at a row block's last key block when it lies past the causal triangle (only the output
  conditional taken): the output's piece is the witness; the scratch buffers are only read.
-/
import proofs.«168439_j45234595561646_2_alg».proof.Proof.Frame1RunD

-- goals about indices of 1024-long axes nest deeply when elaborated
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the elaborated run is a long term: more heartbeats than the default are needed to finish the declaration
set_option maxHeartbeats 1000000 in
/-- At such a key block: on whole memrefs — the inputs' at their contents, the output's at anything, the three scratch
    buffers at what the point before left — the body runs to the continuation holding the inputs' and the scratch
    buffers as they were and the output's with its piece written. -/
noncomputable def kernelRun1_E (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    { L3 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__causal_kernel i arg3 harg3 arg4 harg4 arg5 harg5 arg6 harg6 arg7 harg7 arg8 harg8 arg9 harg9) K } := by
  refine ⟨?_, fun E K => ?run⟩
  case run =>
    simp only [cc1__causal_kernel_eq_skeleton]; unfold cc1__causal_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.Frame1Vals.lean ====
/-
  Region 1: what each case's run leaves in the buffers it stores into. Every store is of a whole buffer through the
  whole-shape rectangle at zero offsets, so each buffer's pieces cover it, and the last piece's payload is what it holds:
  the explicit update term over the point's blocks and the state found (the reset state at a first key block, where the
  update's loads read what the reset has just stored), and for the output the numerator over the denominator.
-/
import proofs.«168439_j45234595561646_2_alg».proof.Proof.Frame1RunE
import Idealize.ShloMosaic.Lib.Pipeline.Value

-- goals about indices of 1024-long axes nest deeply when elaborated
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The zero offsets of a rank-2 and of a rank-3 rectangle, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## A first key block -/

/-- The running maximum's pieces (the reset, then the update) cover it. -/
theorem scoverA_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL (kernelRun1_A c i arg3 harg3 arg4 harg4 arg5 harg5 arg6 harg6 arg7 harg7 arg8 harg8 arg9 harg9 hc0 hc1 hc2 x0 x1 x2).1 S1024x1.size (by sl_kernel_rfl) y
/-- The running denominator's pieces cover it. -/
theorem scoverA_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S1024x1.size (by sl_kernel_rfl) y
/-- The running numerator's pieces cover it. -/
theorem scoverA_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) (y : S1024x1024.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S1024x1024.size (by sl_kernel_rfl) y
/-- The running maximum ends at the update of the reset state. -/
theorem valA_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) :
    View.canon (kernelRun1_A c i arg3 harg3 arg4 harg4 arg5 harg5 arg6 harg6 arg7 harg7 arg8 harg8 arg9 harg9 hc0 hc1 hc2 x0 x1 x2).1 = (stepS (BitVec.ofNat 32 (i 1).val) (BitVec.ofNat 32 (i 2).val) x0 x1 x2 initS).1 := by
  unfold kernelRun1_A; dsimp only; sl_unfold_words
  rw [View.canon_cons_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS initS
  rfl
/-- The running denominator ends at the update of the reset state. -/
theorem valA_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) :
    View.canon (kernelRun1_A c i arg3 harg3 arg4 harg4 arg5 harg5 arg6 harg6 arg7 harg7 arg8 harg8 arg9 harg9 hc0 hc1 hc2 x0 x1 x2).2.1 = (stepS (BitVec.ofNat 32 (i 1).val) (BitVec.ofNat 32 (i 2).val) x0 x1 x2 initS).2.1 := by
  unfold kernelRun1_A; dsimp only; sl_unfold_words
  rw [View.canon_cons_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS initS
  rfl
/-- The running numerator ends at the update of the reset state. -/
theorem valA_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) :
    View.canon (kernelRun1_A c i arg3 harg3 arg4 harg4 arg5 harg5 arg6 harg6 arg7 harg7 arg8 harg8 arg9 harg9 hc0 hc1 hc2 x0 x1 x2).2.2.1 = (stepS (BitVec.ofNat 32 (i 1).val) (BitVec.ofNat 32 (i 2).val) x0 x1 x2 initS).2.2 := by
  unfold kernelRun1_A; dsimp only; sl_unfold_words
  rw [View.canon_cons_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS initS
  rfl

/-! ## A later key block meeting the triangle, not the last -/

/-- The running maximum's piece covers it. -/
theorem scoverB_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (p : Scr F) (y : S1024x1.Idx) :
    ∃ pc ∈ (kernelRun1_B c i arg3 harg3 arg4 harg4 arg5 harg5 arg6 harg6 arg7 harg7 arg8 harg8 arg9 harg9 hc0 hc1 hc2 x0 x1 x2 p.1 p.2.1 p.2.2).1, y ∈ pc.1.set :=
  View.cover_of_tiledL (kernelRun1_B c i arg3 harg3 arg4 harg4 arg5 harg5 arg6 harg6 arg7 harg7 arg8 harg8 arg9 harg9 hc0 hc1 hc2 x0 x1 x2 p.1 p.2.1 p.2.2).1 S1024x1.size (by sl_kernel_rfl) y
/-- The running denominator's piece covers it. -/
theorem scoverB_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (p : Scr F) (y : S1024x1.Idx) :
    ∃ pc ∈ (kernelRun1_B c i arg3 harg3 arg4 harg4 arg5 harg5 arg6 harg6 arg7 harg7 arg8 harg8 arg9 harg9 hc0 hc1 hc2 x0 x1 x2 p.1 p.2.1 p.2.2).2.1, y ∈ pc.1.set :=
  View.cover_of_tiledL (kernelRun1_B c i arg3 harg3 arg4 harg4 arg5 harg5 arg6 harg6 arg7 harg7 arg8 harg8 arg9 harg9 hc0 hc1 hc2 x0 x1 x2 p.1 p.2.1 p.2.2).2.1 S1024x1.size (by sl_kernel_rfl) y
/-- The running numerator's piece covers it. -/
theorem scoverB_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (p : Scr F) (y : S1024x1024.Idx) :
    ∃ pc ∈ (kernelRun1_B c i arg3 harg3 arg4 harg4 arg5 harg5 arg6 harg6 arg7 harg7 arg8 harg8 arg9 harg9 hc0 hc1 hc2 x0 x1 x2 p.1 p.2.1 p.2.2).2.2.1, y ∈ pc.1.set :=
  View.cover_of_tiledL (kernelRun1_B c i arg3 harg3 arg4 harg4 arg5 harg5 arg6 harg6 arg7 harg7 arg8 harg8 arg9 harg9 hc0 hc1 hc2 x0 x1 x2 p.1 p.2.1 p.2.2).2.2.1 S1024x1024.size (by sl_kernel_rfl) y
/-- The running maximum ends at the update of the state found. -/
theorem valB_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (p : Scr F) :
    View.canon (kernelRun1_B c i arg3 harg3 arg4 harg4 arg5 harg5 arg6 harg6 arg7 harg7 arg8 harg8 arg9 harg9 hc0 hc1 hc2 x0 x1 x2 p.1 p.2.1 p.2.2).1 = (stepS (BitVec.ofNat 32 (i 1).val) (BitVec.ofNat 32 (i 2).val) x0 x1 x2 p).1 := by
  unfold kernelRun1_B; dsimp only; sl_unfold_words
  rw [View.canon_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS
  rfl
/-- The running denominator ends at the update of the state found. -/
theorem valB_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (p : Scr F) :
    View.canon (kernelRun1_B c i arg3 harg3 arg4 harg4 arg5 harg5 arg6 harg6 arg7 harg7 arg8 harg8 arg9 harg9 hc0 hc1 hc2 x0 x1 x2 p.1 p.2.1 p.2.2).2.1 = (stepS (BitVec.ofNat 32 (i 1).val) (BitVec.ofNat 32 (i 2).val) x0 x1 x2 p).2.1 := by
  unfold kernelRun1_B; dsimp only; sl_unfold_words
  rw [View.canon_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS
  rfl
/-- The running numerator ends at the update of the state found. -/
theorem valB_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (p : Scr F) :
    View.canon (kernelRun1_B c i arg3 harg3 arg4 harg4 arg5 harg5 arg6 harg6 arg7 harg7 arg8 harg8 arg9 harg9 hc0 hc1 hc2 x0 x1 x2 p.1 p.2.1 p.2.2).2.2.1 = (stepS (BitVec.ofNat 32 (i 1).val) (BitVec.ofNat 32 (i 2).val) x0 x1 x2 p).2.2 := by
  unfold kernelRun1_B; dsimp only; sl_unfold_words
  rw [View.canon_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS
  rfl

/-! ## The last key block, meeting the triangle -/

/-- The output's piece covers its block. -/
theorem coverC_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (p : Scr F) (y : S1x1024x1024.Idx) :
    ∃ pc ∈ (kernelRun1_C c i arg3 harg3 arg4 harg4 arg5 harg5 arg6 harg6 arg7 harg7 arg8 harg8 arg9 harg9 hc0 hc1 hc2 x0 x1 x2 p.1 p.2.1 p.2.2).1, y ∈ pc.1.set :=
  View.cover_of_tiledL (kernelRun1_C c i arg3 harg3 arg4 harg4 arg5 harg5 arg6 harg6 arg7 harg7 arg8 harg8 arg9 harg9 hc0 hc1 hc2 x0 x1 x2 p.1 p.2.1 p.2.2).1 S1x1024x1024.size (by sl_kernel_rfl) y
/-- The running maximum's piece covers it. -/
theorem scoverC_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (p : Scr F) (y : S1024x1.Idx) :
    ∃ pc ∈ (kernelRun1_C c i arg3 harg3 arg4 harg4 arg5 harg5 arg6 harg6 arg7 harg7 arg8 harg8 arg9 harg9 hc0 hc1 hc2 x0 x1 x2 p.1 p.2.1 p.2.2).2.1, y ∈ pc.1.set :=
  View.cover_of_tiledL (kernelRun1_C c i arg3 harg3 arg4 harg4 arg5 harg5 arg6 harg6 arg7 harg7 arg8 harg8 arg9 harg9 hc0 hc1 hc2 x0 x1 x2 p.1 p.2.1 p.2.2).2.1 S1024x1.size (by sl_kernel_rfl) y
/-- The running denominator's piece covers it. -/
theorem scoverC_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (p : Scr F) (y : S1024x1.Idx) :
    ∃ pc ∈ (kernelRun1_C c i arg3 harg3 arg4 harg4 arg5 harg5 arg6 harg6 arg7 harg7 arg8 harg8 arg9 harg9 hc0 hc1 hc2 x0 x1 x2 p.1 p.2.1 p.2.2).2.2.1, y ∈ pc.1.set :=
  View.cover_of_tiledL (kernelRun1_C c i arg3 harg3 arg4 harg4 arg5 harg5 arg6 harg6 arg7 harg7 arg8 harg8 arg9 harg9 hc0 hc1 hc2 x0 x1 x2 p.1 p.2.1 p.2.2).2.2.1 S1024x1.size (by sl_kernel_rfl) y
/-- The running numerator's piece covers it. -/
theorem scoverC_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (p : Scr F) (y : S1024x1024.Idx) :
    ∃ pc ∈ (kernelRun1_C c i arg3 harg3 arg4 harg4 arg5 harg5 arg6 harg6 arg7 harg7 arg8 harg8 arg9 harg9 hc0 hc1 hc2 x0 x1 x2 p.1 p.2.1 p.2.2).2.2.2.1, y ∈ pc.1.set :=
  View.cover_of_tiledL (kernelRun1_C c i arg3 harg3 arg4 harg4 arg5 harg5 arg6 harg6 arg7 harg7 arg8 harg8 arg9 harg9 hc0 hc1 hc2 x0 x1 x2 p.1 p.2.1 p.2.2).2.2.2.1 S1024x1024.size (by sl_kernel_rfl) y
/-- The running maximum ends at the update of the state found. -/
theorem valC_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (p : Scr F) :
    View.canon (kernelRun1_C c i arg3 harg3 arg4 harg4 arg5 harg5 arg6 harg6 arg7 harg7 arg8 harg8 arg9 harg9 hc0 hc1 hc2 x0 x1 x2 p.1 p.2.1 p.2.2).2.1 = (stepS (BitVec.ofNat 32 (i 1).val) (BitVec.ofNat 32 (i 2).val) x0 x1 x2 p).1 := by
  unfold kernelRun1_C; dsimp only; sl_unfold_words
  rw [View.canon_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS
  rfl
/-- The running denominator ends at the update of the state found. -/
theorem valC_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (p : Scr F) :
    View.canon (kernelRun1_C c i arg3 harg3 arg4 harg4 arg5 harg5 arg6 harg6 arg7 harg7 arg8 harg8 arg9 harg9 hc0 hc1 hc2 x0 x1 x2 p.1 p.2.1 p.2.2).2.2.1 = (stepS (BitVec.ofNat 32 (i 1).val) (BitVec.ofNat 32 (i 2).val) x0 x1 x2 p).2.1 := by
  unfold kernelRun1_C; dsimp only; sl_unfold_words
  rw [View.canon_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS
  rfl
/-- The running numerator ends at the update of the state found. -/
theorem valC_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (p : Scr F) :
    View.canon (kernelRun1_C c i arg3 harg3 arg4 harg4 arg5 harg5 arg6 harg6 arg7 harg7 arg8 harg8 arg9 harg9 hc0 hc1 hc2 x0 x1 x2 p.1 p.2.1 p.2.2).2.2.2.1 = (stepS (BitVec.ofNat 32 (i 1).val) (BitVec.ofNat 32 (i 2).val) x0 x1 x2 p).2.2 := by
  unfold kernelRun1_C; dsimp only; sl_unfold_words
  rw [View.canon_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS
  rfl
/-- The output block is the updated numerator over the updated denominator: its loads read what the update has just stored. -/
theorem valC_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (p : Scr F) :
    View.canon (kernelRun1_C c i arg3 harg3 arg4 harg4 arg5 harg5 arg6 harg6 arg7 harg7 arg8 harg8 arg9 harg9 hc0 hc1 hc2 x0 x1 x2 p.1 p.2.1 p.2.2).1 = k1_pay6 (stepS (BitVec.ofNat 32 (i 1).val) (BitVec.ofNat 32 (i 2).val) x0 x1 x2 p).2.2 (stepS (BitVec.ofNat 32 (i 1).val) (BitVec.ofNat 32 (i 2).val) x0 x1 x2 p).2.1 := by
  unfold kernelRun1_C; dsimp only; sl_unfold_words
  rw [View.canon_unit_zero hz3]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]
  unfold stepS
  rfl

/-! ## The last key block, past the triangle -/

/-- The output's piece covers its block. -/
theorem coverE_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : cond1_2 i)
    (x0 : Vec F S1x1024x1024 .bf16) (x1 : Vec F S1x512x1024 .bf16) (x2 : Vec F S1x512x1024 .bf16) (p : Scr F) (y : S1x1024x1024.Idx) :
    ∃ pc ∈ (kernelRun1_E c i arg3 harg3 arg4 harg4 arg5 harg5 arg6 harg6 arg7 harg7 arg8 harg8 arg9 harg9 hc0 hc1 hc2 x0 x1 x2 p.1 p.2.1 p.2.2).1, y ∈ pc.1.set :=
  View.cover_of_tiledL (kernelRun1_E c i arg3 harg3 arg4 harg4 arg5 harg5 arg6 harg6 arg7 harg7 arg8 harg8 arg9 harg9 hc0 hc1 hc2 x0 x1 x2 p.1 p.2.1 p.2.2).1 S1x1024x1024.size (by sl_kernel_rfl) y
/-- The output block is the numerator found over the denominator found. -/
theorem valE_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : cond1_2 i)
    (x0 : Vec F S1x1024x1024 .bf16) (x1 : Vec F S1x512x1024 .bf16) (x2 : Vec F S1x512x1024 .bf16) (p : Scr F) :
    View.canon (kernelRun1_E c i arg3 harg3 arg4 harg4 arg5 harg5 arg6 harg6 arg7 harg7 arg8 harg8 arg9 harg9 hc0 hc1 hc2 x0 x1 x2 p.1 p.2.1 p.2.2).1 = k1_pay6 p.2.2 p.2.1 := by
  unfold kernelRun1_E; dsimp only; sl_unfold_words
  rw [View.canon_unit_zero hz3]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]

end Cert.KernelIdeal.Hand

end
-- ==== Proof.Frame1.lean ====
/-
  Region 1 (causal attention): the proof data and the body obligation.

  After the body at position n the three scratch buffers hold the explicit state `stateAt` (reset-then-update at a
  row block's first key block, update where the key block meets the causal triangle, kept otherwise), and at a row
  block's last key block the output's staging buffer holds `outAt` (numerator over denominator); elsewhere the
  output window is idle and its buffer is handed back as found. The invariant carries the scratch buffers at the
  state the point before left, together with the scoped buffers the region never touches and the generator register.
-/
import proofs.«168439_j45234595561646_2_alg».proof.Proof.Frame1Vals

-- goals about indices of 1024-long axes nest deeply when elaborated
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : Entry F)

/-! ## The invariant -/

/-- Before position `n`: at the region's entry the launch's invariant (every scoped buffer at some contents); afterwards
    the untouched scoped buffers at some contents, the three scratch buffers at the state the point before left, and the
    generator register at some state. -/
def PhiS1 (c : Dev nD) : (n : ℕ) → n ≤ cfg1.N → sProp 𝕄
  | 0, _ => Pipeline.ΦA spec1 c
  | n + 1, hn => iprop((stg1 (F := F) c ∗ owns (c : Thread nD τ) scM1_0 fullShare (stateAt V c n hn).1
      ∗ owns (c : Thread nD τ) scM1_1 fullShare (stateAt V c n hn).2.1 ∗ owns (c : Thread nD τ) scM1_2 fullShare (stateAt V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((stg1 (F := F) c ∗ owns (c : Thread nD τ) scM1_0 fullShare (stateAt V c n hn).1
      ∗ owns (c : Thread nD τ) scM1_1 fullShare (stateAt V c n hn).2.1 ∗ owns (c : Thread nD τ) scM1_2 fullShare (stateAt V c n hn).2.2) ∗ (∃ r, prngReg c r)) := rfl

theorem PhiS1_pos (c : Dev nD) (n : ℕ) (h : n ≤ cfg1.N) (hz : n ≠ 0) :
    PhiS1 V c n h = iprop((stg1 (F := F) c ∗ owns (c : Thread nD τ) scM1_0 fullShare (stateAt V c (n - 1) (by omega)).1
      ∗ owns (c : Thread nD τ) scM1_1 fullShare (stateAt V c (n - 1) (by omega)).2.1 ∗ owns (c : Thread nD τ) scM1_2 fullShare (stateAt V c (n - 1) (by omega)).2.2) ∗ (∃ r, prngReg c r)) := by
  cases n with
  | zero => exact absurd rfl hz
  | succ n => rfl

/-! ## The proof data -/

/-- The region's proof data on core `c`: the arrays as the region finds them; after the body at point `t` each input's
    buffer at its block and the output's at `outAt`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

example (c : Dev nD) (w : Fin cfg1.W) : (dat1 V c).q w = fullShare := rfl
example (c : Dev nD) (t : Fin (cfg1.N + 1)) : (dat1 V c).owed t = 0 := rfl
example (c : Dev nD) : (dat1 V c).recorded 0 = Set.univ := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t.val t.isLt := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point. The inputs' memrefs hold their blocks; the closed forms say which of the five control cases
    the point is in, and that case's run applies: the invariant hands it the scratch buffers at the state the point
    before left (at anything at the first point of all), and takes them back at this point's state — the run's pieces
    read back are the explicit update term, which is `stateAt` there by its case equation; past the causal triangle
    nothing is stored and the state is the one found. At a last key block the output's buffer ends at numerator over
    denominator; elsewhere it is idle and handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : Hits t.val
    · by_cases h2 : t.val % 8 = 7
      · exfalso; omega
      · -- a first key block: the reset, then the update of the reset state
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [Dat.leavesExact_idle (dat1 V c) 3 t (idleAt1_3 t (fun h => h2 ((hcond1_2 t).mp h))) (noFlush1_3 t (fun h => h2 ((hcond1_2 t).mp h)))]
        rw [stateAt_first V c t h0]
        unfold stepAt qa ka
        by_cases hz : t.val = 0
        · rw [PhiS1_castSucc V c t, PhiS1_zero V c _ _ hz, PhiA1_eq]
          iintro ⟨⟨⟨HR, HS0, HS1, HS2⟩, Hg⟩, Ho, ⟨%d0, H0⟩, ⟨%d1, H1⟩, ⟨%d2, H2⟩, ⟨%d3, H3⟩⟩
          iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)).2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [HR HS0 HS1 HS2 Hg]
          · isplitr [Hg]; swap; · iexact Hg
            isplitl [HR]; · iexact HR
            isplitl [HS0]
            · unfold owns; iexists _; isplitr
              swap; · iexact HS0
              ipureintro; exact (View.read_writes_eq_canon _ _ _ (scoverA_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))).trans (valA_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))
            isplitl [HS1]
            · unfold owns; iexists _; isplitr
              swap; · iexact HS1
              ipureintro; exact (View.read_writes_eq_canon _ _ _ (scoverA_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))).trans (valA_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))
            · unfold owns; iexists _; isplitr
              swap; · iexact HS2
              ipureintro; exact (View.read_writes_eq_canon _ _ _ (scoverA_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))).trans (valA_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))
          isplitl [Ho]; · iexact Ho
          isplitl [H0]; · iexact H0
          isplitl [H1]; · iexact H1
          isplitl [H2]; · iexact H2
          iexists _; iexact H3
        · rw [PhiS1_castSucc V c t, PhiS1_pos V c _ _ hz]
          iintro ⟨⟨⟨HR, HS0, HS1, HS2⟩, Hg⟩, Ho, ⟨%d0, H0⟩, ⟨%d1, H1⟩, ⟨%d2, H2⟩, ⟨%d3, H3⟩⟩
          iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)).2.2.2 _ Set.univ _)
          isplitl [H0]; · iexact H0
          isplitl [H1]; · iexact H1
          isplitl [H2]; · iexact H2
          isplitl [H3]; · iexact H3
          isplitl [HS0]; · iexists _; iexact HS0
          isplitl [HS1]; · iexists _; iexact HS1
          isplitl [HS2]; · iexists _; iexact HS2
          iintro ⟨H0, H1, H2, H3, ⟨%es0, HS0⟩, ⟨%es1, HS1⟩, ⟨%es2, HS2⟩⟩
          isplitl [HR HS0 HS1 HS2 Hg]
          · isplitr [Hg]; swap; · iexact Hg
            isplitl [HR]; · iexact HR
            isplitl [HS0]
            · unfold owns; iexists _; isplitr
              swap; · iexact HS0
              ipureintro; exact (View.read_writes_eq_canon _ _ _ (scoverA_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))).trans (valA_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))
            isplitl [HS1]
            · unfold owns; iexists _; isplitr
              swap; · iexact HS1
              ipureintro; exact (View.read_writes_eq_canon _ _ _ (scoverA_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))).trans (valA_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))
            · unfold owns; iexists _; isplitr
              swap; · iexact HS2
              ipureintro; exact (View.read_writes_eq_canon _ _ _ (scoverA_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))).trans (valA_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t))
          isplitl [Ho]; · iexact Ho
          isplitl [H0]; · iexact H0
          isplitl [H1]; · iexact H1
          isplitl [H2]; · iexact H2
          iexists _; iexact H3
    · exfalso; exact h1 (by show t.val % 8 ≤ 2 * (t.val / 8 % 4) + 1; omega)
  · have hz : t.val ≠ 0 := fun e => h0 (by rw [e])
    by_cases h1 : Hits t.val
    · by_cases h2 : t.val % 8 = 7
      · -- the last key block, meeting the triangle: the update, then the output
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t ((hcond1_2 t).mpr h2)], after1_3]
        unfold outAt
        rw [stateAt_hit V c t h0 h1]
        unfold stepAt qa ka
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (stateAt V c (t.val - 1) (Nat.lt_of_le_of_lt (Nat.sub_le _ _) t.isLt)).1 (stateAt V c (t.val - 1) (Nat.lt_of_le_of_lt (Nat.sub_le _ _) t.isLt)).2.1 (stateAt V c (t.val - 1) (Nat.lt_of_le_of_lt (Nat.sub_le _ _) t.isLt)).2.2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR HS0 HS1 HS2 Hg]
        · isplitr [Hg]; swap; · iexact Hg
          isplitl [HR]; · iexact HR
          isplitl [HS0]
          · unfold owns; iexists _; isplitr
            swap; · iexact HS0
            ipureintro; exact (View.read_writes_eq_canon _ _ _ (scoverC_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (stateAt V c (t.val - 1) (Nat.lt_of_le_of_lt (Nat.sub_le _ _) t.isLt)))).trans (valC_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (stateAt V c (t.val - 1) (Nat.lt_of_le_of_lt (Nat.sub_le _ _) t.isLt)))
          isplitl [HS1]
          · unfold owns; iexists _; isplitr
            swap; · iexact HS1
            ipureintro; exact (View.read_writes_eq_canon _ _ _ (scoverC_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (stateAt V c (t.val - 1) (Nat.lt_of_le_of_lt (Nat.sub_le _ _) t.isLt)))).trans (valC_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (stateAt V c (t.val - 1) (Nat.lt_of_le_of_lt (Nat.sub_le _ _) t.isLt)))
          · unfold owns; iexists _; isplitr
            swap; · iexact HS2
            ipureintro; exact (View.read_writes_eq_canon _ _ _ (scoverC_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (stateAt V c (t.val - 1) (Nat.lt_of_le_of_lt (Nat.sub_le _ _) t.isLt)))).trans (valC_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (stateAt V c (t.val - 1) (Nat.lt_of_le_of_lt (Nat.sub_le _ _) t.isLt)))
        isplitl [Ho]; · iexact Ho
        isplitl [H0]; · iexact H0
        isplitl [H1]; · iexact H1
        isplitl [H2]; · iexact H2
        unfold owns; iexists _; isplitr
        swap; · iexact H3
        ipureintro; exact (View.read_writes_eq_canon _ _ _ (coverC_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (stateAt V c (t.val - 1) (Nat.lt_of_le_of_lt (Nat.sub_le _ _) t.isLt)))).trans (valC_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (stateAt V c (t.val - 1) (Nat.lt_of_le_of_lt (Nat.sub_le _ _) t.isLt)))
      · -- a later key block meeting the triangle: the update
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [Dat.leavesExact_idle (dat1 V c) 3 t (idleAt1_3 t (fun h => h2 ((hcond1_2 t).mp h))) (noFlush1_3 t (fun h => h2 ((hcond1_2 t).mp h)))]
        rw [stateAt_hit V c t h0 h1]
        unfold stepAt qa ka
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (stateAt V c (t.val - 1) (Nat.lt_of_le_of_lt (Nat.sub_le _ _) t.isLt)).1 (stateAt V c (t.val - 1) (Nat.lt_of_le_of_lt (Nat.sub_le _ _) t.isLt)).2.1 (stateAt V c (t.val - 1) (Nat.lt_of_le_of_lt (Nat.sub_le _ _) t.isLt)).2.2).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2 Hg]
        · isplitr [Hg]; swap; · iexact Hg
          isplitl [HR]; · iexact HR
          isplitl [HS0]
          · unfold owns; iexists _; isplitr
            swap; · iexact HS0
            ipureintro; exact (View.read_writes_eq_canon _ _ _ (scoverB_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (stateAt V c (t.val - 1) (Nat.lt_of_le_of_lt (Nat.sub_le _ _) t.isLt)))).trans (valB_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (stateAt V c (t.val - 1) (Nat.lt_of_le_of_lt (Nat.sub_le _ _) t.isLt)))
          isplitl [HS1]
          · unfold owns; iexists _; isplitr
            swap; · iexact HS1
            ipureintro; exact (View.read_writes_eq_canon _ _ _ (scoverB_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (stateAt V c (t.val - 1) (Nat.lt_of_le_of_lt (Nat.sub_le _ _) t.isLt)))).trans (valB_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (stateAt V c (t.val - 1) (Nat.lt_of_le_of_lt (Nat.sub_le _ _) t.isLt)))
          · unfold owns; iexists _; isplitr
            swap; · iexact HS2
            ipureintro; exact (View.read_writes_eq_canon _ _ _ (scoverB_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (stateAt V c (t.val - 1) (Nat.lt_of_le_of_lt (Nat.sub_le _ _) t.isLt)))).trans (valB_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (stateAt V c (t.val - 1) (Nat.lt_of_le_of_lt (Nat.sub_le _ _) t.isLt)))
        isplitl [Ho]; · iexact Ho
        isplitl [H0]; · iexact H0
        isplitl [H1]; · iexact H1
        isplitl [H2]; · iexact H2
        iexists _; iexact H3
    · by_cases h2 : t.val % 8 = 7
      · -- the last key block, past the triangle: the output from the state found
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t ((hcond1_2 t).mpr h2)], after1_3]
        unfold outAt
        rw [stateAt_miss V c t h0 h1]
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply ((kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) (stateAt V c (t.val - 1) (Nat.lt_of_le_of_lt (Nat.sub_le _ _) t.isLt)).1 (stateAt V c (t.val - 1) (Nat.lt_of_le_of_lt (Nat.sub_le _ _) t.isLt)).2.1 (stateAt V c (t.val - 1) (Nat.lt_of_le_of_lt (Nat.sub_le _ _) t.isLt)).2.2).2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [HR HS0 HS1 HS2 Hg]
        · isplitr [Hg]; swap; · iexact Hg
          isplitl [HR]; · iexact HR
          isplitl [HS0]; · iexact HS0
          isplitl [HS1]; · iexact HS1
          iexact HS2
        isplitl [Ho]; · iexact Ho
        isplitl [H0]; · iexact H0
        isplitl [H1]; · iexact H1
        isplitl [H2]; · iexact H2
        unfold owns; iexists _; isplitr
        swap; · iexact H3
        ipureintro; exact (View.read_writes_eq_canon _ _ _ (coverE_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) (stateAt V c (t.val - 1) (Nat.lt_of_le_of_lt (Nat.sub_le _ _) t.isLt)))).trans (valE_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) (stateAt V c (t.val - 1) (Nat.lt_of_le_of_lt (Nat.sub_le _ _) t.isLt)))
      · -- past the triangle and not the last: nothing is loaded or stored
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [Dat.leavesExact_idle (dat1 V c) 3 t (idleAt1_3 t (fun h => h2 ((hcond1_2 t).mp h))) (noFlush1_3 t (fun h => h2 ((hcond1_2 t).mp h)))]
        rw [stateAt_miss V c t h0 h1]
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) (stateAt V c (t.val - 1) (Nat.lt_of_le_of_lt (Nat.sub_le _ _) t.isLt)).1 (stateAt V c (t.val - 1) (Nat.lt_of_le_of_lt (Nat.sub_le _ _) t.isLt)).2.1 (stateAt V c (t.val - 1) (Nat.lt_of_le_of_lt (Nat.sub_le _ _) t.isLt)).2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HR HS0 HS1 HS2 Hg]
        · isplitr [Hg]; swap; · iexact Hg
          isplitl [HR]; · iexact HR
          isplitl [HS0]; · iexact HS0
          isplitl [HS1]; · iexact HS1
          iexact HS2
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1, HS2⟩, Hg⟩
  isplitr [Hg]; swap; · iexact Hg
  isplitl [HR]; · iexact HR
  isplitl [HS0]; · iexists _; iexact HS0
  isplitl [HS1]; · iexists _; iexact HS1
  iexists _; iexact HS2

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.Blocks1.lean ====
/-
  Where the attention kernel's blocks sit in their arrays.  The grid is 4 x 4 x 8; point number t has batch entry
  t / 32, query block t / 8 % 4 and key block t % 8.  The query block and the output block at a point are rows
  1024·(t / 8 % 4) … of batch entry t / 32; the key and value blocks are rows 512·j … with
  j = min (t % 8) (2·(t / 8 % 4) + 1), the key block clamped to the last one that meets the causal triangle.
-/
import proofs.«168439_j45234595561646_2_alg».proof.Proof.Flash
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL Idealize.SL.Sem
open Cert.KernelIdeal.Gen

variable {F : FTy → Type} [FloatOps F] [Named F]

/-- The block indices of the four windows and the grid coordinates, in closed form over the point number. -/
theorem idx1 : ∀ t : Fin grid1.N,
    (win1_0.index t 0 = t.val / 32 ∧ win1_0.index t 1 = t.val / 8 % 4 ∧ win1_0.index t 2 = 0)
    ∧ (win1_1.index t 0 = t.val / 32 ∧ win1_1.index t 1 = min (t.val % 8) (2 * (t.val / 8 % 4) + 1) ∧ win1_1.index t 2 = 0)
    ∧ (win1_2.index t 0 = t.val / 32 ∧ win1_2.index t 1 = min (t.val % 8) (2 * (t.val / 8 % 4) + 1) ∧ win1_2.index t 2 = 0)
    ∧ (win1_3.index t 0 = t.val / 32 ∧ win1_3.index t 1 = t.val / 8 % 4 ∧ win1_3.index t 2 = 0)
    ∧ (((grid1.coords t) 1).val = t.val / 8 % 4 ∧ ((grid1.coords t) 2).val = t.val % 8) := by
  decide +kernel

variable (V : Entry F)

/-- An element of the query block at point `t`: row `r` of the block is row 1024·(t / 8 % 4) + r of batch entry t / 32. -/
theorem iblk1_0_apply (c : Dev nD) (t : Fin cfg1.N) (r d : Fin 1024) (k : S4x4096x1024.Idx)
    (h0 : (k 0).val = t.val / 32) (h1 : (k 1).val = t.val / 8 % 4 * 1024 + r.val) (h2 : (k 2).val = d.val) :
    (iblk1 V c 0 t : Vec F S1x1024x1024 .bf16) (ix3 (0 : Fin 1) r d) = (V c main_v6 : S4x4096x1024.Idx → Elt F .bf16) k := by
  obtain ⟨⟨i0, i1, i2⟩, -⟩ := idx1 t
  unfold iblk1
  rw [View.read_apply]
  show (V c main_v6 : S4x4096x1024.Idx → Elt F .bf16) _ = V c main_v6 k
  congr 1
  funext a
  apply Fin.ext
  match a with
  | ⟨0, _⟩ => show win1_0.index t 0 * 1 + 1 * 0 = (k 0).val; rw [i0, h0]; omega
  | ⟨1, _⟩ => show win1_0.index t 1 * 1024 + 1 * r.val = (k 1).val; rw [i1, h1]; omega
  | ⟨2, _⟩ => show win1_0.index t 2 * 1024 + 1 * d.val = (k 2).val; rw [i2, h2]; omega

/-- An element of the key block at point `t`. -/
theorem iblk1_1_apply (c : Dev nD) (t : Fin cfg1.N) (r : Fin 512) (d : Fin 1024) (k : S4x4096x1024.Idx)
    (h0 : (k 0).val = t.val / 32) (h1 : (k 1).val = min (t.val % 8) (2 * (t.val / 8 % 4) + 1) * 512 + r.val) (h2 : (k 2).val = d.val) :
    (iblk1 V c 1 t : Vec F S1x512x1024 .bf16) (ix3 (0 : Fin 1) r d) = (V c main_v7 : S4x4096x1024.Idx → Elt F .bf16) k := by
  obtain ⟨-, ⟨i0, i1, i2⟩, -⟩ := idx1 t
  unfold iblk1
  rw [View.read_apply]
  show (V c main_v7 : S4x4096x1024.Idx → Elt F .bf16) _ = V c main_v7 k
  congr 1
  funext a
  apply Fin.ext
  match a with
  | ⟨0, _⟩ => show win1_1.index t 0 * 1 + 1 * 0 = (k 0).val; rw [i0, h0]; omega
  | ⟨1, _⟩ => show win1_1.index t 1 * 512 + 1 * r.val = (k 1).val; rw [i1, h1]; omega
  | ⟨2, _⟩ => show win1_1.index t 2 * 1024 + 1 * d.val = (k 2).val; rw [i2, h2]; omega

/-- An element of the value block at point `t`. -/
theorem iblk1_2_apply (c : Dev nD) (t : Fin cfg1.N) (r : Fin 512) (d : Fin 1024) (k : S4x4096x1024.Idx)
    (h0 : (k 0).val = t.val / 32) (h1 : (k 1).val = min (t.val % 8) (2 * (t.val / 8 % 4) + 1) * 512 + r.val) (h2 : (k 2).val = d.val) :
    (iblk1 V c 2 t : Vec F S1x512x1024 .bf16) (ix3 (0 : Fin 1) r d) = (V c main_v8 : S4x4096x1024.Idx → Elt F .bf16) k := by
  obtain ⟨-, -, ⟨i0, i1, i2⟩, -⟩ := idx1 t
  unfold iblk1
  rw [View.read_apply]
  show (V c main_v8 : S4x4096x1024.Idx → Elt F .bf16) _ = V c main_v8 k
  congr 1
  funext a
  apply Fin.ext
  match a with
  | ⟨0, _⟩ => show win1_2.index t 0 * 1 + 1 * 0 = (k 0).val; rw [i0, h0]; omega
  | ⟨1, _⟩ => show win1_2.index t 1 * 512 + 1 * r.val = (k 1).val; rw [i1, h1]; omega
  | ⟨2, _⟩ => show win1_2.index t 2 * 1024 + 1 * d.val = (k 2).val; rw [i2, h2]; omega

end Cert.KernelIdeal.Hand

end
-- ==== Proof.Spec.lean ====
/-
  Single-head causal attention as one function of the four argument arrays, over the extended reals.

  With Q = x·Wq, K = x·Wk, V = x·Wv (per batch entry, rows of length 1024), the score of query row q against key
  row k is (Q_q · K_k) / 32 when k ≤ q and minus infinity otherwise; a row's weights are the exponentials of its
  scores less the row maximum, divided by their sum; the result row is the weighted sum of the rows of V.
-/
import Idealize.ShloMosaic.PureOps.Ideal
import Idealize.ShloMosaic.Lib.ValueIdx

noncomputable section

namespace Cert.Attn

open Idealize.ShloMosaic Idealize.ShloMosaic.ValueIdx

/-- The activations' shape [4, 4096, 1024] and a weight matrix's shape [1024, 1024]. -/
abbrev SX : Shape := ⟨3, ![4, 4096, 1024]⟩
abbrev SW : Shape := ⟨2, ![1024, 1024]⟩

/-- Entry `e` of row `s` of batch entry `b` of the projection `x · w`. -/
def proj (x : SX.Idx → EReal) (w : SW.Idx → EReal) (b : Fin 4) (s : Fin 4096) (e : Fin 1024) : EReal :=
  ∑ d : Fin 1024, x (ix3 b s d) * w (ix2 d e)

/-- The score scale 1/32 = 1/sqrt(1024), as the f32 word the kernel multiplies by. -/
def scale : EReal := Ideal.ofBits .f32 0x3D000000#32

/-- The scaled score of query row `q` against key row `k`. -/
def score (x : SX.Idx → EReal) (wq wk : SW.Idx → EReal) (b : Fin 4) (q k : Fin 4096) : EReal :=
  (∑ e : Fin 1024, proj x wq b q e * proj x wk b k e) * scale

/-- The causal mask: a key after the query scores minus infinity. -/
def masked (x : SX.Idx → EReal) (wq wk : SW.Idx → EReal) (b : Fin 4) (q k : Fin 4096) : EReal :=
  if k.val ≤ q.val then score x wq wk b q k else ⊥

/-- A row's maximum score. -/
def rowMax (x : SX.Idx → EReal) (wq wk : SW.Idx → EReal) (b : Fin 4) (q : Fin 4096) : EReal :=
  (Finset.univ : Finset (Fin 4096)).fold max ⊥ (masked x wq wk b q)

/-- A row's unnormalised weights and their sum. -/
def wexp (x : SX.Idx → EReal) (wq wk : SW.Idx → EReal) (b : Fin 4) (q k : Fin 4096) : EReal :=
  Ideal.exp (masked x wq wk b q k - rowMax x wq wk b q)
def denom (x : SX.Idx → EReal) (wq wk : SW.Idx → EReal) (b : Fin 4) (q : Fin 4096) : EReal :=
  ∑ k : Fin 4096, wexp x wq wk b q k

/-- The attention output at batch entry `b`, row `q`, column `e`. -/
def attn (x : SX.Idx → EReal) (wq wk wv : SW.Idx → EReal) (b : Fin 4) (q : Fin 4096) (e : Fin 1024) : EReal :=
  ∑ k : Fin 4096, Ideal.div (wexp x wq wk b q k) (denom x wq wk b q) * proj x wv b k e

/-- The whole result array. -/
def G (x : SX.Idx → EReal) (wq wk wv : SW.Idx → EReal) : SX.Idx → EReal :=
  fun i => attn x wq wk wv (i 0) (i 1) (i 2)

end Cert.Attn

end
-- ==== Proof.OnlineDefs.lean ====
/-
  The online (blockwise) form of a softmax-weighted sum: keys come in blocks of `B`; a running maximum `m`, a running
  denominator `l` and a running numerator `a` are updated block by block, each update rescaling what was accumulated
  by the exponential of the old maximum less the new one.
-/
import Idealize.ShloMosaic.PureOps.Ideal

noncomputable section

namespace Cert.Attn.Online

open Idealize.ShloMosaic

/-- One update with a block's scores `s` and values `v`, from the state (maximum, denominator, numerator). -/
def step {B : ℕ} (s v : Fin B → EReal) (p : EReal × EReal × EReal) : EReal × EReal × EReal :=
  (max p.1 ((Finset.univ : Finset (Fin B)).fold max ⊥ s),
   Ideal.exp (p.1 - max p.1 ((Finset.univ : Finset (Fin B)).fold max ⊥ s)) * p.2.1
     + ∑ c : Fin B, Ideal.exp (s c - max p.1 ((Finset.univ : Finset (Fin B)).fold max ⊥ s)),
   Ideal.exp (p.1 - max p.1 ((Finset.univ : Finset (Fin B)).fold max ⊥ s)) * p.2.2
     + ∑ c : Fin B, Ideal.exp (s c - max p.1 ((Finset.univ : Finset (Fin B)).fold max ⊥ s)) * v c)

/-- The state after blocks 0 … j, from (minus infinity, 0, 0). -/
def run {B : ℕ} (s v : ℕ → Fin B → EReal) : ℕ → EReal × EReal × EReal
  | 0 => step (s 0) (v 0) (⊥, 0, 0)
  | j + 1 => step (s (j + 1)) (v (j + 1)) (run s v j)

/-- Block `j` of a family indexed by `nb * B` keys (minus infinity past the end). -/
def blk {nb B : ℕ} (f : Fin (nb * B) → EReal) (j : ℕ) (c : Fin B) : EReal :=
  if h : j * B + c.val < nb * B then f ⟨j * B + c.val, h⟩ else ⊥

end Cert.Attn.Online

end
-- ==== Proof.LibColumn.lean ====
/-
  A column broadcast along rows, read at an index.

  An `[a, 1]` array broadcast to `[a, b]` repeats each row's one entry across the row: at `(p, c)` it reads the
  operand at `(p, 0)`.
-/
import Idealize.ShloMosaic.Lib.Pipeline.Value
import Idealize.ShloMosaic.Lib.ValueIdx

noncomputable section

namespace Idealize.ShloMosaic.ColumnBroadcast

open Idealize.ShloMosaic Idealize.ShloMosaic.ValueIdx

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnBroadcast

end
-- ==== Proof.StepValueA.lean ====
/-
  Words and row reductions of the attention update, read at the ideal instance: the minus-infinity word and the named
  mask constant are the bottom of the extended reals; the causal comparison of two positions below 2^31 as signed
  32-bit words is the comparison of the positions; the maximum and the sum over the 512 columns of a [1024, 512]
  vector, read at row r, are the fold of max and the sum over the row.
-/
import proofs.«168439_j45234595561646_2_alg».proof.Proof.Flash
import Idealize.ShloMosaic.Lib.ValueIdx
import Idealize.ShloMosaic.Lib.Pipeline.Value
import Idealize.ShloMosaic.PureOps.Ideal.Laws
import Idealize.ShloMosaic.PureOps.IdealRules

noncomputable section

namespace Cert.KernelIdeal.HandV

open Idealize.ShloMosaic Idealize.ShloMosaic.ValueIdx Cert.KernelIdeal Cert.KernelIdeal.Gen Cert.KernelIdeal.Hand

/-! ## Words -/

/-- The f32 word of minus infinity is the bottom of the extended reals. -/
theorem sv_ofBits_neg_inf : Ideal.ofBits .f32 0xFF800000#32 = (⊥ : EReal) := by
  simp [Ideal.ofBits, Ideal.ieee]

/-- The named mask constant is minus infinity at the ideal instance. -/
theorem sv_neg_big : Named.named (F := Ideal) κ "neg_big" (φ := .f32) 0xF149F2CA#32 = (⊥ : EReal) :=
  IdealRules.named_const.ideal_named_scalar _ _ _ _ rfl

/-- A natural number below 2^31, as a 32-bit word read signed, is itself. -/
theorem sv_toInt_ofNat_small (n : ℕ) (h : n < 2147483648) : (BitVec.ofNat 32 n).toInt = (n : ℤ) := by
  have hn : (BitVec.ofNat 32 n).toNat = n := by rw [BitVec.toNat_ofNat]; omega
  rw [BitVec.toInt_eq_toNat_of_lt (by rw [hn]; omega), hn]

/-- The causal comparison: query position qi·1024 + r against key position ki·512 + c, both below 2^31, compared
    as signed words. -/
theorem sv_mask_bit (qi ki : ℕ) (hqi : qi < 4) (hki : ki < 8) (r : Fin 1024) (c : Fin 512) :
    IntOp.cmpi .sge (IntOp.addi (Scalar.muli (BitVec.ofNat 32 qi) 1024#32) (BitVec.ofNat 32 r.val))
        (IntOp.addi (Scalar.muli (BitVec.ofNat 32 ki) 512#32) (BitVec.ofNat 32 c.val))
      = if ki * 512 + c.val ≤ qi * 1024 + r.val then 1#1 else 0#1 := by
  have hr := r.isLt
  have hc := c.isLt
  have e1 : IntOp.addi (Scalar.muli (BitVec.ofNat 32 qi) 1024#32) (BitVec.ofNat 32 r.val) = BitVec.ofNat 32 (qi * 1024 + r.val) := by
    show BitVec.ofNat 32 qi * BitVec.ofNat 32 1024 + BitVec.ofNat 32 r.val = _
    rw [← BitVec.ofNat_mul, ← BitVec.ofNat_add]
  have e2 : IntOp.addi (Scalar.muli (BitVec.ofNat 32 ki) 512#32) (BitVec.ofNat 32 c.val) = BitVec.ofNat 32 (ki * 512 + c.val) := by
    show BitVec.ofNat 32 ki * BitVec.ofNat 32 512 + BitVec.ofNat 32 c.val = _
    rw [← BitVec.ofNat_mul, ← BitVec.ofNat_add]
  rw [e1, e2]
  show BitVec.ofBool ((BitVec.ofNat 32 (ki * 512 + c.val)).sle (BitVec.ofNat 32 (qi * 1024 + r.val))) = _
  have t1 : (BitVec.ofNat 32 (ki * 512 + c.val)).toInt = ((ki * 512 + c.val : ℕ) : ℤ) := sv_toInt_ofNat_small _ (by omega)
  have t2 : (BitVec.ofNat 32 (qi * 1024 + r.val)).toInt = ((qi * 1024 + r.val : ℕ) : ℤ) := sv_toInt_ofNat_small _ (by omega)
  rw [BitVec.sle_eq_decide, t1, t2]
  by_cases h : ki * 512 + c.val ≤ qi * 1024 + r.val
  · rw [if_pos h, decide_eq_true (by exact_mod_cast h)]; rfl
  · rw [if_neg h, decide_eq_false (by exact_mod_cast h)]; rfl

/-! ## A row's reduction over its 512 columns -/

/-- The index of row r of a [1024, 512] vector at column k, as the one-axis reduction over the columns inserts it. -/
theorem sv_lift_row (h : S1024x512.Reduces [1] S1024) (r : Fin 1024) (k : Fin 512) :
    h.lift (ix1 r) k = ix2 r k := by
  funext a
  match a with
  | ⟨0, _⟩ => exact Fin.ext rfl
  | ⟨1, _⟩ => exact Fin.ext rfl

/-- The maximum over the columns, from minus infinity: at row r the fold of max over the row. -/
theorem sv_rowmax_apply (src : FVec Ideal S1024x512 .f32) (h : S1024x512.Reduces [1] S1024) (r : Fin 1024) :
    multiReduction .maximumf [1] S1024 src 0xFF800000#32 h (.inl rfl) rfl (ix1 r)
      = (Finset.univ : Finset (Fin 512)).fold max (⊥ : EReal) (fun c => src (ix2 r c)) := by
  refine (Ideal.multiReduction_maximumf_single src 0xFF800000#32 h (.inl rfl) rfl (ix1 r)).trans ?_
  have e : (src ∘ h.lift (ix1 r) : Fin 512 → EReal) = fun c => src (ix2 r c) :=
    funext fun c => congrArg src (sv_lift_row h r c)
  exact (congrArg (fun f : Fin 512 → EReal => (Finset.univ : Finset (Fin 512)).fold max (Ideal.ofBits .f32 0xFF800000#32) f) e).trans
    (congrArg (fun b : EReal => (Finset.univ : Finset (Fin 512)).fold max b (fun c => src (ix2 r c))) sv_ofBits_neg_inf)

/-- The sum over the columns: at row r the sum over the row. -/
theorem sv_rowsum_apply (src : FVec Ideal S1024x512 .f32) (h : S1024x512.Reduces [1] S1024) (r : Fin 1024) :
    multiReduction .add [1] S1024 src 0x00000000#32 h (.inl rfl) rfl (ix1 r) = ∑ c : Fin 512, src (ix2 r c) := by
  refine (Ideal.multiReduction_add_single src 0x00000000#32 h (.inl rfl) rfl (ix1 r)).trans ?_
  exact Finset.sum_congr rfl fun c _ => congrArg src (sv_lift_row h r c)

end Cert.KernelIdeal.HandV

end
-- ==== Proof.LibColumnCast.lean ====
/-
  A vector of length n and the column [n, 1] that holds the same elements: a shape cast between the two keeps
  every element's row-major position, which is i for the vector's element i and i · 1 + 0 for the column's
  element (i, 0). So the cast to a column reads the vector at the row coordinate, and the cast back reads the
  column at (i, 0).
-/
import Idealize.ShloMosaic.Lib.ValueIdx
import Idealize.ShloMosaic.Lib.Pipeline.Value
import Idealize.ShloMosaic.Lib.ValueLayout

namespace Idealize.ShloMosaic.ColumnCast

open Idealize.ShloMosaic Idealize.ShloMosaic.ValueIdx

/-- A vector of length n cast to a column [n, 1] reads, at (i, u), the vector at i, whatever the unit
    coordinate u: the row-major positions are i · 1 + u with u = 0, and i. -/
theorem shapeCast_col_apply {α : Type} {n : ℕ} (x : (⟨1, ![n]⟩ : Shape).Idx → α)
    (h : (⟨1, ![n]⟩ : Shape).ShapeCasts (⟨2, ![n, 1]⟩ : Shape)) (i : Fin n) (u : Fin 1) :
    shapeCast (⟨2, ![n, 1]⟩ : Shape) x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [n, 1] cast to a vector of length n reads, at i, the column at (i, 0): the row-major positions
    are i · 1 + 0 and i. -/
theorem shapeCast_uncol_apply {α : Type} {n : ℕ} (x : (⟨2, ![n, 1]⟩ : Shape).Idx → α)
    (h : (⟨2, ![n, 1]⟩ : Shape).ShapeCasts (⟨1, ![n]⟩ : Shape)) (i : Fin n) :
    shapeCast (⟨1, ![n]⟩ : Shape) x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnCast
-- ==== Proof.StepValueB.lean ====
/-
  The attention update's two matrix products read at an index, at the ideal instance: queries against keys contracts
  the last axis of both operands; weights against values is the plain product. Each is the sum over the one
  contraction coordinate of the operands' products.
-/
import proofs.«168439_j45234595561646_2_alg».proof.Proof.Flash
import Idealize.ShloMosaic.Lib.ValueIdx
import Idealize.ShloMosaic.PureOps.Ideal.Laws

noncomputable section

namespace Cert.KernelIdeal.HandV

open Idealize.ShloMosaic Idealize.ShloMosaic.ValueIdx Cert.KernelIdeal Cert.KernelIdeal.Gen Cert.KernelIdeal.Hand

/-! ## The two products -/

/-- Queries against keys: the left operand's row coordinate is the result's row. -/
theorem sv_qk_lhs0 (j : S1024x512.Idx) (t : dot_S1024x1024_S512x1024_S1024x512_1_1_0_0_n_n.contr.Idx) : (dot_S1024x1024_S512x1024_S1024x512_1_1_0_0_n_n.lhsIdx j t 0).val = (j 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl
/-- The right operand's row coordinate is the result's column. -/
theorem sv_qk_rhs0 (j : S1024x512.Idx) (t : dot_S1024x1024_S512x1024_S1024x512_1_1_0_0_n_n.contr.Idx) : (dot_S1024x1024_S512x1024_S1024x512_1_1_0_0_n_n.rhsIdx j t 0).val = (j 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl
/-- Both operands' last coordinate is the contraction position. -/
theorem sv_qk_lhs1 (j : S1024x512.Idx) (t : dot_S1024x1024_S512x1024_S1024x512_1_1_0_0_n_n.contr.Idx) : (dot_S1024x1024_S512x1024_S1024x512_1_1_0_0_n_n.lhsIdx j t 1).val = (t ⟨0, by decide⟩).val :=
  dot_S1024x1024_S512x1024_S1024x512_1_1_0_0_n_n.lhsIdx_val_of_single rfl j t
theorem sv_qk_rhs1 (j : S1024x512.Idx) (t : dot_S1024x1024_S512x1024_S1024x512_1_1_0_0_n_n.contr.Idx) : (dot_S1024x1024_S512x1024_S1024x512_1_1_0_0_n_n.rhsIdx j t 1).val = (t ⟨0, by decide⟩).val :=
  dot_S1024x1024_S512x1024_S1024x512_1_1_0_0_n_n.rhsIdx_val_of_single rfl j t

/-- Queries against keys: the product contracts the last axis of both operands, so entry (r, c) is the sum over d
    of query r at d times key c at d. -/
theorem sv_qk_apply (q : FVec Ideal S1024x1024 .bf16) (k : FVec Ideal S512x1024 .bf16) (r : Fin 1024) (c : Fin 512) :
    matmul dot_S1024x1024_S512x1024_S1024x512_1_1_0_0_n_n none q k (constant S1024x512 .f32 0x00000000#32) (ix2 r c)
      = ∑ d : Fin 1024, q (ix2 r d) * k (ix2 c d) := by
  refine (Ideal.matmul_constant_zero_apply dot_S1024x1024_S512x1024_S1024x512_1_1_0_0_n_n none q k (ix2 r c)).trans ?_
  rw [← Equiv.sum_comp (contrEquiv1 dot_S1024x1024_S512x1024_S1024x512_1_1_0_0_n_n 1024 rfl rfl).symm]
  refine Finset.sum_congr rfl fun d _ => ?_
  have hd := contrEquiv1_symm_val dot_S1024x1024_S512x1024_S1024x512_1_1_0_0_n_n 1024 rfl rfl d
  have el : dot_S1024x1024_S512x1024_S1024x512_1_1_0_0_n_n.lhsIdx (ix2 r c) ((contrEquiv1 dot_S1024x1024_S512x1024_S1024x512_1_1_0_0_n_n 1024 rfl rfl).symm d) = ix2 r d :=
    funext fun a => Fin.ext (by
      match a with
      | ⟨0, _⟩ => exact sv_qk_lhs0 _ _
      | ⟨1, _⟩ => exact (sv_qk_lhs1 _ _).trans hd)
  have er : dot_S1024x1024_S512x1024_S1024x512_1_1_0_0_n_n.rhsIdx (ix2 r c) ((contrEquiv1 dot_S1024x1024_S512x1024_S1024x512_1_1_0_0_n_n 1024 rfl rfl).symm d) = ix2 c d :=
    funext fun a => Fin.ext (by
      match a with
      | ⟨0, _⟩ => exact sv_qk_rhs0 _ _
      | ⟨1, _⟩ => exact (sv_qk_rhs1 _ _).trans hd)
  rw [el, er]

/-- Weights against values: the left operand's row coordinate is the result's row. -/
theorem sv_pv_lhs0 (j : S1024x1024.Idx) (t : dot_S1024x512_S512x1024_S1024x1024_1_0_0_1_n_n.contr.Idx) : (dot_S1024x512_S512x1024_S1024x1024_1_0_0_1_n_n.lhsIdx j t 0).val = (j 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
/-- The right operand's column coordinate is the result's column. -/
theorem sv_pv_rhs1 (j : S1024x1024.Idx) (t : dot_S1024x512_S512x1024_S1024x1024_1_0_0_1_n_n.contr.Idx) : (dot_S1024x512_S512x1024_S1024x1024_1_0_0_1_n_n.rhsIdx j t 1).val = (j 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl
/-- The left operand's column and the right operand's row are the contraction position. -/
theorem sv_pv_lhs1 (j : S1024x1024.Idx) (t : dot_S1024x512_S512x1024_S1024x1024_1_0_0_1_n_n.contr.Idx) : (dot_S1024x512_S512x1024_S1024x1024_1_0_0_1_n_n.lhsIdx j t 1).val = (t ⟨0, by decide⟩).val :=
  dot_S1024x512_S512x1024_S1024x1024_1_0_0_1_n_n.lhsIdx_val_of_single rfl j t
theorem sv_pv_rhs0 (j : S1024x1024.Idx) (t : dot_S1024x512_S512x1024_S1024x1024_1_0_0_1_n_n.contr.Idx) : (dot_S1024x512_S512x1024_S1024x1024_1_0_0_1_n_n.rhsIdx j t 0).val = (t ⟨0, by decide⟩).val :=
  dot_S1024x512_S512x1024_S1024x1024_1_0_0_1_n_n.rhsIdx_val_of_single rfl j t

/-- Weights against values: entry (r, e) is the sum over the 512 keys c of weight (r, c) times value c at e. -/
theorem sv_pv_apply (w : FVec Ideal S1024x512 .bf16) (v : FVec Ideal S512x1024 .bf16) (r e : Fin 1024) :
    matmul dot_S1024x512_S512x1024_S1024x1024_1_0_0_1_n_n none w v (constant S1024x1024 .f32 0x00000000#32) (ix2 r e)
      = ∑ c : Fin 512, w (ix2 r c) * v (ix2 c e) := by
  refine (Ideal.matmul_constant_zero_apply dot_S1024x512_S512x1024_S1024x1024_1_0_0_1_n_n none w v (ix2 r e)).trans ?_
  rw [← Equiv.sum_comp (contrEquiv1 dot_S1024x512_S512x1024_S1024x1024_1_0_0_1_n_n 512 rfl rfl).symm]
  refine Finset.sum_congr rfl fun c _ => ?_
  have hc := contrEquiv1_symm_val dot_S1024x512_S512x1024_S1024x1024_1_0_0_1_n_n 512 rfl rfl c
  have el : dot_S1024x512_S512x1024_S1024x1024_1_0_0_1_n_n.lhsIdx (ix2 r e) ((contrEquiv1 dot_S1024x512_S512x1024_S1024x1024_1_0_0_1_n_n 512 rfl rfl).symm c) = ix2 r c :=
    funext fun a => Fin.ext (by
      match a with
      | ⟨0, _⟩ => exact sv_pv_lhs0 _ _
      | ⟨1, _⟩ => exact (sv_pv_lhs1 _ _).trans hc)
  have er : dot_S1024x512_S512x1024_S1024x1024_1_0_0_1_n_n.rhsIdx (ix2 r e) ((contrEquiv1 dot_S1024x512_S512x1024_S1024x1024_1_0_0_1_n_n 512 rfl rfl).symm c) = ix2 c e :=
    funext fun a => Fin.ext (by
      match a with
      | ⟨0, _⟩ => exact (sv_pv_rhs0 _ _).trans hc
      | ⟨1, _⟩ => exact sv_pv_rhs1 _ _)
  rw [el, er]

end Cert.KernelIdeal.HandV

end
-- ==== Proof.StepValueC.lean ====
/-
  The attention kernel's update payloads read at an index, at the ideal instance: the masked scaled scores of a key block
  against a query block, the new running maximum, the rescaling factor, the block's exponentials, the new running
  denominator and the new running numerator, each from the one before.
-/
import proofs.«168439_j45234595561646_2_alg».proof.Proof.Flash
import proofs.«168439_j45234595561646_2_alg».proof.Proof.Spec
import proofs.«168439_j45234595561646_2_alg».proof.Proof.LibColumnCast
import proofs.«168439_j45234595561646_2_alg».proof.Proof.LibColumn
import proofs.«168439_j45234595561646_2_alg».proof.Proof.StepValueA
import proofs.«168439_j45234595561646_2_alg».proof.Proof.StepValueB
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandV

open Idealize.ShloMosaic Idealize.ShloMosaic.ValueIdx Cert.KernelIdeal Cert.KernelIdeal.Gen Cert.KernelIdeal.Hand
open Idealize.ShloMosaic.ColumnCast Idealize.ShloMosaic.ColumnBroadcast

/-! ## The payloads at an index -/

/-- the masked, scaled scores the update at query block qi, key block ki sees in row r: column c is key ki·512 + c
    against query qi·1024 + r -/
def sblk (qi ki : ℕ) (q : Vec Ideal S1x1024x1024 .bf16) (k : Vec Ideal S1x512x1024 .bf16) (r : Fin 1024) (c : Fin 512) : EReal :=
  if ki * 512 + c.val ≤ qi * 1024 + r.val then (∑ d : Fin 1024, q (ix3 (0 : Fin 1) r d) * k (ix3 (0 : Fin 1) c d)) * Cert.Attn.scale else ⊥

/-- The masked scores the body computes are `sblk`. -/
theorem sv_pay7_apply (qi ki : ℕ) (hqi : qi < 4) (hki : ki < 8) (q : Vec Ideal S1x1024x1024 .bf16) (k : Vec Ideal S1x512x1024 .bf16)
    (r : Fin 1024) (c : Fin 512) :
    k1_pay7 (BitVec.ofNat 32 qi) (BitVec.ofNat 32 ki) q k (ix2 r c) = sblk qi ki q k r c := by
  unfold k1_pay7
  show Scalar.select
      (IntOp.cmpi .sge (IntOp.addi (Scalar.muli (BitVec.ofNat 32 qi) 1024#32) (iota .tc S1024x512 32 [0] iota_S1024x512_d0_w32 (ix2 r c)))
        (IntOp.addi (Scalar.muli (BitVec.ofNat 32 ki) 512#32) (iota .tc S1024x512 32 [1] iota_S1024x512_d1_w32 (ix2 r c))))
      (matmul dot_S1024x1024_S512x1024_S1024x512_1_1_0_0_n_n none (shapeCast S1024x1024 q shapeCasts_S1x1024x1024_S1024x1024)
          (shapeCast S512x1024 k shapeCasts_S1x512x1024_S512x1024) (constant S1024x512 .f32 0x00000000#32) (ix2 r c)
        * Ideal.ofBits .f32 0x3D000000#32)
      (Named.named (F := Ideal) κ "neg_big" (φ := .f32) 0xF149F2CA#32) = _
  rw [iota_single_apply, iota_single_apply, sv_qk_apply, sv_neg_big]
  refine (congrArg (fun b => Scalar.select b _ _) (sv_mask_bit qi ki hqi hki r c)).trans ?_
  unfold sblk
  by_cases h : ki * 512 + c.val ≤ qi * 1024 + r.val
  · rw [if_pos h, if_pos h, select_one]
    refine congrArg (· * Ideal.ofBits .f32 0x3D000000#32) (Finset.sum_congr rfl fun d _ => ?_)
    rw [shapeCast_1ab_ab_apply, shapeCast_1ab_ab_apply]
  · rw [if_neg h, if_neg h, select_zero]

/-- The new running maximum at row r. -/
theorem sv_pay8_apply (a1 a2 : BitVec 32) (q : Vec Ideal S1x1024x1024 .bf16) (k : Vec Ideal S1x512x1024 .bf16)
    (m : Vec Ideal S1024x1 .f32) (r : Fin 1024) :
    k1_pay8 a1 a2 q k m (ix2 r (0 : Fin 1))
      = max (m (ix2 r (0 : Fin 1))) ((Finset.univ : Finset (Fin 512)).fold max (⊥ : EReal) (fun c => k1_pay7 a1 a2 q k (ix2 r c))) := by
  unfold k1_pay8
  refine (maximumf_apply _ _ _).trans ?_
  refine congrArg (max (m (ix2 r (0 : Fin 1)))) ?_
  refine (shapeCast_col_apply _ _ r (0 : Fin 1)).trans ?_
  exact sv_rowmax_apply _ _ r

/-- The rescaling factor at row r. -/
theorem sv_pay9_apply (a1 a2 : BitVec 32) (q : Vec Ideal S1x1024x1024 .bf16) (k : Vec Ideal S1x512x1024 .bf16)
    (m m' : Vec Ideal S1024x1 .f32) (r : Fin 1024) :
    k1_pay9 a1 a2 q k m m' (ix2 r (0 : Fin 1))
      = Ideal.exp (m' (ix2 r (0 : Fin 1)) - k1_pay8 a1 a2 q k m (ix2 r (0 : Fin 1))) := by
  unfold k1_pay9
  rfl

/-- The block's unnormalised weights at (r, c). -/
theorem sv_pay10_apply (a1 a2 : BitVec 32) (q : Vec Ideal S1x1024x1024 .bf16) (k : Vec Ideal S1x512x1024 .bf16)
    (m : Vec Ideal S1024x1 .f32) (r : Fin 1024) (c : Fin 512) :
    k1_pay10 a1 a2 q k m (ix2 r c)
      = Ideal.exp (k1_pay7 a1 a2 q k (ix2 r c) - k1_pay8 a1 a2 q k m (ix2 r (0 : Fin 1))) := by
  unfold k1_pay10
  show Ideal.exp (k1_pay7 a1 a2 q k (ix2 r c) - broadcastTo S1024x512 (k1_pay8 a1 a2 q k m) broadcasts_S1024x1_S1024x512 (ix2 r c)) = _
  rw [broadcastTo_a1_ab_apply]

/-- The new running denominator at row r. -/
theorem sv_pay11_apply (a1 a2 : BitVec 32) (q : Vec Ideal S1x1024x1024 .bf16) (k : Vec Ideal S1x512x1024 .bf16)
    (m m' l : Vec Ideal S1024x1 .f32) (r : Fin 1024) :
    k1_pay11 a1 a2 q k m m' l (ix2 r (0 : Fin 1))
      = k1_pay9 a1 a2 q k m m' (ix2 r (0 : Fin 1)) * l (ix2 r (0 : Fin 1)) + ∑ c : Fin 512, k1_pay10 a1 a2 q k m (ix2 r c) := by
  unfold k1_pay11
  rw [shapeCast_self]
  refine (addf_apply _ _ _).trans ?_
  refine congrArg₂ (· + ·) (mulf_apply _ _ _) ?_
  refine (shapeCast_col_apply _ _ r (0 : Fin 1)).trans ?_
  exact sv_rowsum_apply _ _ r

/-- The new running numerator at (r, e). -/
theorem sv_pay4_apply (v36 : FVec Ideal S1024x1 .f32) (v39 : FVec Ideal S1024x512 .f32) (acc : Vec Ideal S1024x1024 .f32)
    (v : Vec Ideal S1x512x1024 .bf16) (r e : Fin 1024) :
    k1_pay4 v36 v39 acc v (ix2 r e)
      = v36 (ix2 r (0 : Fin 1)) * acc (ix2 r e) + ∑ c : Fin 512, v39 (ix2 r c) * v (ix3 (0 : Fin 1) c e) := by
  unfold k1_pay4
  rw [shapeCast_self]
  refine (addf_apply _ _ _).trans ?_
  refine congrArg₂ (· + ·) ?_ ?_
  · refine (mulf_apply _ _ _).trans ?_
    exact congrArg (· * acc (ix2 r e)) (broadcastTo_a1_ab_apply v36 _ r e)
  · refine (sv_pv_apply _ _ r e).trans ?_
    refine Finset.sum_congr rfl fun c _ => ?_
    exact congrArg (v39 (ix2 r c) * ·) (shapeCast_1ab_ab_apply v _ c e)

end Cert.KernelIdeal.HandV

end
-- ==== Proof.StepValue.lean ====
/-
  The attention kernel's update, reset and output, read at an index at the ideal instance.

  At query block qi and key block ki the body forms, in row r, the scores of keys ki·512 + c against query qi·1024 + r
  (the products' sum times the scale word, minus infinity above the diagonal), takes the new maximum against the running
  one, rescales the running denominator and numerator by the exponential of the old maximum less the new one, and adds
  the block's exponentials and their weighted values: one step of the online softmax sum. The reset is (minus infinity,
  0, 0) and the output is the numerator over the denominator.
-/
import proofs.«168439_j45234595561646_2_alg».proof.Proof.Flash
import proofs.«168439_j45234595561646_2_alg».proof.Proof.Spec
import proofs.«168439_j45234595561646_2_alg».proof.Proof.OnlineDefs
import proofs.«168439_j45234595561646_2_alg».proof.Proof.LibColumn
import proofs.«168439_j45234595561646_2_alg».proof.Proof.StepValueA
import proofs.«168439_j45234595561646_2_alg».proof.Proof.StepValueC
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandV

open Idealize.ShloMosaic Idealize.ShloMosaic.ValueIdx Cert.KernelIdeal Cert.KernelIdeal.Gen Cert.KernelIdeal.Hand
open Idealize.ShloMosaic.ColumnBroadcast

/-! ## The update, the reset and the output at an index -/

theorem stepS_apply (qi ki : ℕ) (hqi : qi < 4) (hki : ki < 8) (q : Vec Ideal S1x1024x1024 .bf16) (k v : Vec Ideal S1x512x1024 .bf16)
    (p : Scr Ideal) (r e : Fin 1024) :
    ((stepS (BitVec.ofNat 32 qi) (BitVec.ofNat 32 ki) q k v p).1 (ix2 r (0 : Fin 1)),
     (stepS (BitVec.ofNat 32 qi) (BitVec.ofNat 32 ki) q k v p).2.1 (ix2 r (0 : Fin 1)),
     (stepS (BitVec.ofNat 32 qi) (BitVec.ofNat 32 ki) q k v p).2.2 (ix2 r e))
    = Cert.Attn.Online.step (sblk qi ki q k r) (fun c : Fin 512 => v (ix3 (0 : Fin 1) c e))
        (p.1 (ix2 r (0 : Fin 1)), p.2.1 (ix2 r (0 : Fin 1)), p.2.2 (ix2 r e)) := by
  have h7 : ∀ c : Fin 512, k1_pay7 (BitVec.ofNat 32 qi) (BitVec.ofNat 32 ki) q k (ix2 r c) = sblk qi ki q k r c :=
    fun c => sv_pay7_apply qi ki hqi hki q k r c
  have h8 : k1_pay8 (BitVec.ofNat 32 qi) (BitVec.ofNat 32 ki) q k p.1 (ix2 r (0 : Fin 1))
      = max (p.1 (ix2 r (0 : Fin 1))) ((Finset.univ : Finset (Fin 512)).fold max (⊥ : EReal) (sblk qi ki q k r)) :=
    (sv_pay8_apply _ _ q k p.1 r).trans
      (congrArg (fun f : Fin 512 → EReal => max (p.1 (ix2 r (0 : Fin 1))) ((Finset.univ : Finset (Fin 512)).fold max (⊥ : EReal) f))
        (funext h7))
  have h9 : k1_pay9 (BitVec.ofNat 32 qi) (BitVec.ofNat 32 ki) q k p.1 p.1 (ix2 r (0 : Fin 1))
      = Ideal.exp (p.1 (ix2 r (0 : Fin 1)) - max (p.1 (ix2 r (0 : Fin 1))) ((Finset.univ : Finset (Fin 512)).fold max (⊥ : EReal) (sblk qi ki q k r))) :=
    (sv_pay9_apply _ _ q k p.1 p.1 r).trans (congrArg (fun x => Ideal.exp (p.1 (ix2 r (0 : Fin 1)) - x)) h8)
  have h10 : ∀ c : Fin 512, k1_pay10 (BitVec.ofNat 32 qi) (BitVec.ofNat 32 ki) q k p.1 (ix2 r c)
      = Ideal.exp (sblk qi ki q k r c - max (p.1 (ix2 r (0 : Fin 1))) ((Finset.univ : Finset (Fin 512)).fold max (⊥ : EReal) (sblk qi ki q k r))) :=
    fun c => (sv_pay10_apply _ _ q k p.1 r c).trans (congrArg₂ (fun x y => Ideal.exp (x - y)) (h7 c) h8)
  unfold stepS Cert.Attn.Online.step
  refine Prod.ext ?_ (Prod.ext ?_ ?_)
  · show k1_pay5 (k1_pay8 (BitVec.ofNat 32 qi) (BitVec.ofNat 32 ki) q k p.1) (ix2 r (0 : Fin 1)) = _
    unfold k1_pay5
    rw [shapeCast_self]
    exact h8
  · show k1_pay11 (BitVec.ofNat 32 qi) (BitVec.ofNat 32 ki) q k p.1 p.1 p.2.1 (ix2 r (0 : Fin 1)) = _
    refine (sv_pay11_apply _ _ q k p.1 p.1 p.2.1 r).trans ?_
    exact congrArg₂ (· + ·) (congrArg (· * p.2.1 (ix2 r (0 : Fin 1))) h9) (Finset.sum_congr rfl fun c _ => h10 c)
  · show k1_pay4 (k1_pay9 (BitVec.ofNat 32 qi) (BitVec.ofNat 32 ki) q k p.1 p.1) (k1_pay10 (BitVec.ofNat 32 qi) (BitVec.ofNat 32 ki) q k p.1)
        p.2.2 v (ix2 r e) = _
    refine (sv_pay4_apply _ _ p.2.2 v r e).trans ?_
    exact congrArg₂ (· + ·) (congrArg (· * p.2.2 (ix2 r e)) h9)
      (Finset.sum_congr rfl fun c _ => congrArg (· * v (ix3 (0 : Fin 1) c e)) (h10 c))

theorem initS_apply (r e : Fin 1024) :
    ((initS (F := Ideal)).1 (ix2 r (0 : Fin 1)), (initS (F := Ideal)).2.1 (ix2 r (0 : Fin 1)), (initS (F := Ideal)).2.2 (ix2 r e))
      = ((⊥ : EReal), (0 : EReal), (0 : EReal)) := by
  unfold initS
  refine Prod.ext ?_ (Prod.ext ?_ ?_)
  · show k1_pay1 (F := Ideal) (ix2 r (0 : Fin 1)) = ⊥
    unfold k1_pay1
    rw [shapeCast_self]
    exact sv_ofBits_neg_inf
  · show k1_pay2 (F := Ideal) (ix2 r (0 : Fin 1)) = 0
    unfold k1_pay2
    rw [shapeCast_self]
    exact Ideal.ofBits_zero_f32
  · show k1_pay3 (F := Ideal) (ix2 r e) = 0
    unfold k1_pay3
    rw [shapeCast_self]
    exact Ideal.ofBits_zero_f32

theorem pay6_apply (acc : Vec Ideal S1024x1024 .f32) (l : Vec Ideal S1024x1 .f32) (r e : Fin 1024) :
    k1_pay6 acc l (ix3 (0 : Fin 1) r e) = Ideal.div (acc (ix2 r e)) (l (ix2 r (0 : Fin 1))) := by
  unfold k1_pay6
  refine (shapeCast_ab_1ab_apply _ _ (0 : Fin 1) r e).trans ?_
  refine (divf_apply _ _ _).trans ?_
  exact congrArg (Ideal.div (acc (ix2 r e))) (broadcastTo_a1_ab_apply l _ r e)

end Cert.KernelIdeal.HandV

end
-- ==== Proof.RowState.lean ====
/-
  The running maximum, denominator and numerator of one query row, followed along the key blocks.

  Fix a batch entry b, a query block qi, a row r of that block and an output column e.  Write q = 1024·qi + r for the
  query's row in the sequence, Q, K, W for the three projected arrays the attention kernel reads.  The masked scaled
  score of key k is (Q_q · K_k)·(1/32) for k ≤ q and minus infinity otherwise.  After the body at key block ki the three
  scratch entries of the row are the online-softmax state after key blocks 0 … min ki (2·qi + 1): the first key block
  resets and updates, a key block inside the causal triangle updates, a key block beyond it leaves the state alone.
-/
import proofs.«168439_j45234595561646_2_alg».proof.Proof.Blocks1
import proofs.«168439_j45234595561646_2_alg».proof.Proof.StepValue
import proofs.«168439_j45234595561646_2_alg».proof.Proof.OnlineDefs
import proofs.«168439_j45234595561646_2_alg».proof.Proof.Spec

noncomputable section

namespace Cert.KernelIdeal.HandV

open Idealize.ShloMosaic Idealize.ShloMosaic.TcCoe Idealize.ShloMosaic.ValueIdx
open Idealize.SL Idealize.SL.Sem
open Cert.KernelIdeal Cert.KernelIdeal.Gen Cert.KernelIdeal.Hand Cert.Attn

/-- The masked scaled scores of query row `q` of batch entry `b`, from the projected arrays. -/
def mQK (Q K : SX.Idx → EReal) (b : Fin 4) (q k : Fin 4096) : EReal :=
  if k.val ≤ q.val then (∑ d : Fin 1024, Q (ix3 b q d) * K (ix3 b k d)) * scale else ⊥

/-- The three running quantities of row `r`, column `e`. -/
def tri (p : Scr Ideal) (r e : Fin 1024) : EReal × EReal × EReal :=
  (p.1 (ix2 r (0 : Fin 1)), p.2.1 (ix2 r (0 : Fin 1)), p.2.2 (ix2 r e))

variable (V : Entry Ideal) (c : Dev nD)

/-- The three arrays the attention kernel reads, as the region finds them. -/
abbrev Qa : SX.Idx → EReal := (V c main_v6 : S4x4096x1024.Idx → Elt Ideal .bf16)
abbrev Ka : SX.Idx → EReal := (V c main_v7 : S4x4096x1024.Idx → Elt Ideal .bf16)
abbrev Wa : SX.Idx → EReal := (V c main_v8 : S4x4096x1024.Idx → Elt Ideal .bf16)

theorem hN1 : cfg1.N = 128 := N_1

/-- The update at a point, read at row `r`, column `e`: one online-softmax step with the point's blocks. -/
theorem stepAt_tri (t : Fin cfg1.N) (p : Scr Ideal) (r e : Fin 1024) :
    tri (stepAt V c t p) r e
      = Online.step (sblk (t.val / 8 % 4) (t.val % 8) (iblk1 V c 0 t) (iblk1 V c 1 t) r)
          (fun cc : Fin 512 => (iblk1 V c 2 t : Vec Ideal S1x512x1024 .bf16) (ix3 (0 : Fin 1) cc e)) (tri p r e) := by
  obtain ⟨-, -, -, -, hq, hk⟩ := idx1 t
  have ht : t.val < 128 := lt_of_lt_of_eq t.isLt hN1
  unfold stepAt qa ka
  rw [hq, hk]
  exact stepS_apply _ _ (by omega) (by omega) _ _ _ p r e

/-- At a point whose key block meets the causal triangle, the scores the update sees in row `r` are key block
    `t % 8` of the row's masked scores. -/
theorem sblk_eq_blk (t : Fin cfg1.N) (h : Hits t.val) (r : Fin 1024) (b : Fin 4) (q : Fin 4096)
    (hb : b.val = t.val / 32) (hq : q.val = t.val / 8 % 4 * 1024 + r.val) :
    sblk (t.val / 8 % 4) (t.val % 8) (iblk1 V c 0 t) (iblk1 V c 1 t) r
      = Online.blk (nb := 8) (B := 512) (mQK (Qa V c) (Ka V c) b q) (t.val % 8) := by
  funext cc
  have hcc : cc.val < 512 := cc.isLt
  have hlt : t.val % 8 * 512 + cc.val < 8 * 512 := by omega
  unfold sblk Online.blk
  rw [dif_pos hlt]
  unfold mQK
  refine if_congr (by rw [hq]) ?_ rfl
  refine congrArg (· * scale) (Finset.sum_congr rfl fun d _ => ?_)
  refine congrArg₂ (· * ·) ?_ ?_
  · exact iblk1_0_apply V c t r d _ hb hq rfl
  · refine iblk1_1_apply V c t cc d _ hb ?_ rfl
    show t.val % 8 * 512 + cc.val = min (t.val % 8) (2 * (t.val / 8 % 4) + 1) * 512 + cc.val
    rw [min_eq_left h]

/-- And the values it sees in column `e` are key block `t % 8` of that column of the value array. -/
theorem vblk_eq_blk (t : Fin cfg1.N) (h : Hits t.val) (e : Fin 1024) (b : Fin 4) (hb : b.val = t.val / 32) :
    (fun cc : Fin 512 => (iblk1 V c 2 t : Vec Ideal S1x512x1024 .bf16) (ix3 (0 : Fin 1) cc e))
      = Online.blk (nb := 8) (B := 512) (fun k : Fin 4096 => Wa V c (ix3 b k e)) (t.val % 8) := by
  funext cc
  have hcc : cc.val < 512 := cc.isLt
  have hlt : t.val % 8 * 512 + cc.val < 8 * 512 := by omega
  unfold Online.blk
  rw [dif_pos hlt]
  refine iblk1_2_apply V c t cc e _ hb ?_ rfl
  show t.val % 8 * 512 + cc.val = min (t.val % 8) (2 * (t.val / 8 % 4) + 1) * 512 + cc.val
  rw [min_eq_left h]

theorem stateAt_congr {n n' : ℕ} (e : n = n') (h : n < cfg1.N) (h' : n' < cfg1.N) : stateAt V c n h = stateAt V c n' h' := by
  subst e; rfl

/-- THE ROW'S STATE along the key axis. -/
theorem state_row (b qi : Fin 4) (r e : Fin 1024) (q : Fin 4096) (hq : q.val = qi.val * 1024 + r.val) :
    ∀ (ki : ℕ) (hki : ki < 8) (hn : (b.val * 4 + qi.val) * 8 + ki < cfg1.N),
      tri (stateAt V c ((b.val * 4 + qi.val) * 8 + ki) hn) r e
        = Online.run (Online.blk (nb := 8) (B := 512) (mQK (Qa V c) (Ka V c) b q))
            (Online.blk (nb := 8) (B := 512) (fun k : Fin 4096 => Wa V c (ix3 b k e))) (min ki (2 * qi.val + 1)) := by
  have hbv : b.val < 4 := b.isLt
  have hqv : qi.val < 4 := qi.isLt
  intro ki
  induction ki with
  | zero =>
    intro hki hn
    have h8 : ((b.val * 4 + qi.val) * 8 + 0) % 8 = 0 := by omega
    rw [stateAt_first V c ⟨_, hn⟩ h8, stepAt_tri]
    have hits : Hits ((b.val * 4 + qi.val) * 8 + 0) := by show _ % 8 ≤ _; omega
    rw [sblk_eq_blk V c ⟨_, hn⟩ hits r b q (by show b.val = ((b.val * 4 + qi.val) * 8 + 0) / 32; omega) (by show q.val = ((b.val * 4 + qi.val) * 8 + 0) / 8 % 4 * 1024 + r.val; rw [hq]; omega),
      vblk_eq_blk V c ⟨_, hn⟩ hits e b (by show b.val = ((b.val * 4 + qi.val) * 8 + 0) / 32; omega)]
    show Online.step (Online.blk _ (((b.val * 4 + qi.val) * 8 + 0) % 8)) (Online.blk _ (((b.val * 4 + qi.val) * 8 + 0) % 8)) (tri initS r e) = _
    rw [h8, show tri (initS (F := Ideal)) r e = ((⊥ : EReal), (0 : EReal), (0 : EReal)) from initS_apply r e,
      show min 0 (2 * qi.val + 1) = 0 from Nat.zero_min _]
    rfl
  | succ ki ih =>
    intro hki hn
    have hn' : (b.val * 4 + qi.val) * 8 + ki < cfg1.N := Nat.lt_of_succ_lt hn
    have ih' := ih (by omega) hn'
    have h8 : ¬ ((b.val * 4 + qi.val) * 8 + (ki + 1)) % 8 = 0 := by omega
    have hk8 : ((b.val * 4 + qi.val) * 8 + (ki + 1)) % 8 = ki + 1 := by omega
    by_cases hits : Hits ((b.val * 4 + qi.val) * 8 + (ki + 1))
    · have hle : ki + 1 ≤ 2 * qi.val + 1 := by
        have : ((b.val * 4 + qi.val) * 8 + (ki + 1)) % 8 ≤ 2 * (((b.val * 4 + qi.val) * 8 + (ki + 1)) / 8 % 4) + 1 := hits
        omega
      rw [stateAt_hit V c ⟨_, hn⟩ h8 hits, stepAt_tri,
        stateAt_congr V c (show (⟨(b.val * 4 + qi.val) * 8 + (ki + 1), hn⟩ : Fin cfg1.N).val - 1 = (b.val * 4 + qi.val) * 8 + ki from by show _ + (ki + 1) - 1 = _; omega) _ hn',
        ih',
        sblk_eq_blk V c ⟨_, hn⟩ hits r b q (by show b.val = ((b.val * 4 + qi.val) * 8 + (ki + 1)) / 32; omega) (by show q.val = ((b.val * 4 + qi.val) * 8 + (ki + 1)) / 8 % 4 * 1024 + r.val; rw [hq]; omega),
        vblk_eq_blk V c ⟨_, hn⟩ hits e b (by show b.val = ((b.val * 4 + qi.val) * 8 + (ki + 1)) / 32; omega)]
      show Online.step (Online.blk _ (((b.val * 4 + qi.val) * 8 + (ki + 1)) % 8)) (Online.blk _ (((b.val * 4 + qi.val) * 8 + (ki + 1)) % 8)) _ = _
      rw [hk8, min_eq_left (by omega : ki ≤ 2 * qi.val + 1), min_eq_left hle]
      rfl
    · have hgt : 2 * qi.val + 1 < ki + 1 := by
        have : ¬ ((b.val * 4 + qi.val) * 8 + (ki + 1)) % 8 ≤ 2 * (((b.val * 4 + qi.val) * 8 + (ki + 1)) / 8 % 4) + 1 := hits
        omega
      rw [stateAt_miss V c ⟨_, hn⟩ h8 hits,
        stateAt_congr V c (show (⟨(b.val * 4 + qi.val) * 8 + (ki + 1), hn⟩ : Fin cfg1.N).val - 1 = (b.val * 4 + qi.val) * 8 + ki from by show _ + (ki + 1) - 1 = _; omega) _ hn',
        ih', min_eq_right (by omega : 2 * qi.val + 1 ≤ ki), min_eq_right (by omega : 2 * qi.val + 1 ≤ ki + 1)]

end Cert.KernelIdeal.HandV

end
-- ==== Proof.LibOnlineSoftmaxA.lean ====
/-
  The online (blockwise) softmax recurrence computes the softmax-weighted sum.

  Keys 0 … nb·B − 1 carry a score (a real, or minus infinity for a masked key) and a real value. Processing the keys in
  blocks of B, the recurrence keeps the running maximum M of the scores seen, the running denominator Σ exp(s − M) and
  the running numerator Σ exp(s − M)·v, rescaling the two sums by exp(M_old − M_new) at every block. After any block
  that contains every unmasked key, numerator over denominator is the softmax-weighted sum Σ_k softmax(s)_k · v_k taken
  over ALL the keys: the masked keys contribute exp(−∞) = 0 to both sums and nothing to the maximum.

  The argument is carried out in the reals: once key 0 (whose score is real) has been seen the running maximum is a
  real, every exponential is a nonnegative real, and the rescaling is exp(a − b)·exp(c − a) = exp(c − b).
-/
import proofs.«168439_j45234595561646_2_alg».proof.Proof.OnlineDefs
import Mathlib

noncomputable section

namespace Cert.Attn.Online

open Idealize.ShloMosaic Finset

/-! ### Reals inside the extended reals -/

/-- reals inside the extended reals -/
def IsReal (x : EReal) : Prop := ∃ r : ℝ, x = (r : EReal)

/-- A real is a real. -/
theorem isReal_coe (r : ℝ) : IsReal (r : EReal) := ⟨r, rfl⟩

/-- Zero is a real. -/
theorem isReal_zero : IsReal 0 := ⟨0, rfl⟩

/-- The reals are closed under addition. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The reals are closed under multiplication. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A real is not minus infinity. -/
theorem IsReal.ne_bot {x : EReal} (hx : IsReal x) : x ≠ ⊥ := by
  obtain ⟨a, rfl⟩ := hx
  exact EReal.coe_ne_bot a

/-- A real is not plus infinity. -/
theorem IsReal.ne_top {x : EReal} (hx : IsReal x) : x ≠ ⊤ := by
  obtain ⟨a, rfl⟩ := hx
  exact EReal.coe_ne_top a

/-- A real is the inclusion of its real part. -/
theorem IsReal.coe_toReal {x : EReal} (hx : IsReal x) : ((x.toReal : ℝ) : EReal) = x := by
  obtain ⟨a, rfl⟩ := hx
  rfl

/-- A finite sum of reals is a real. -/
theorem isReal_sum {ι : Type*} (S : Finset ι) (f : ι → EReal) (h : ∀ i ∈ S, IsReal (f i)) :
    IsReal (∑ i ∈ S, f i) := by
  classical
  induction S using Finset.induction_on with
  | empty => rw [Finset.sum_empty]; exact isReal_zero
  | insert a S ha ih =>
    rw [Finset.sum_insert ha]
    exact (h a (mem_insert_self a S)).add (ih fun i hi => h i (mem_insert_of_mem hi))

/-- The inclusion of the reals commutes with finite sums. -/
theorem coe_finset_sum {ι : Type*} (S : Finset ι) (f : ι → ℝ) :
    ((∑ i ∈ S, f i : ℝ) : EReal) = ∑ i ∈ S, (f i : EReal) := by
  classical
  induction S using Finset.induction_on with
  | empty => rw [Finset.sum_empty, Finset.sum_empty]; rfl
  | insert a S ha ih => rw [Finset.sum_insert ha, Finset.sum_insert ha, EReal.coe_add, ih]

/-- Division of a real by a nonzero real is real division. -/
theorem div_coe (a b : ℝ) (hb : b ≠ 0) : Ideal.div (a : EReal) (b : EReal) = ((a / b : ℝ) : EReal) := by
  unfold Ideal.div
  rw [if_neg (fun h => hb (EReal.coe_eq_zero.1 h)), ← EReal.coe_inv, ← EReal.coe_mul, div_eq_mul_inv]

/-- The maximum of two extended reals that are each minus infinity or real is minus infinity or real. -/
theorem botOrReal_max {x y : EReal} (hx : x = ⊥ ∨ IsReal x) (hy : y = ⊥ ∨ IsReal y) :
    max x y = ⊥ ∨ IsReal (max x y) := by
  rcases max_choice x y with h | h <;> rw [h] <;> assumption

/-- The maximum (from minus infinity) of finitely many extended reals that are each minus infinity or real is minus
    infinity or real. -/
theorem botOrReal_fold {ι : Type*} (S : Finset ι) (f : ι → EReal) (h : ∀ i ∈ S, f i = ⊥ ∨ IsReal (f i)) :
    S.fold max ⊥ f = ⊥ ∨ IsReal (S.fold max ⊥ f) := by
  classical
  induction S using Finset.induction_on with
  | empty => left; exact Finset.fold_empty
  | insert a S ha ih =>
    rw [Finset.fold_insert ha]
    exact botOrReal_max (h a (mem_insert_self a S)) (ih fun i hi => h i (mem_insert_of_mem hi))

/-! ### Prefix maximum and the exponential weights, for a sequence of scores -/

/-- The maximum of the first T scores (minus infinity for none). -/
def pmax (σ : ℕ → EReal) (T : ℕ) : EReal := (range T).fold max ⊥ σ

/-- exp (σ n − m) as a real: zero at a masked key (score minus infinity). -/
def ew (σ : ℕ → EReal) (m : ℝ) (n : ℕ) : ℝ := if σ n = ⊥ then 0 else Real.exp ((σ n).toReal - m)

/-- The denominator over the first T keys, relative to their maximum. -/
def plse (σ : ℕ → EReal) (T : ℕ) : ℝ := ∑ n ∈ range T, ew σ (pmax σ T).toReal n

/-- The numerator over the first T keys, relative to their maximum. -/
def pacc (σ ν : ℕ → EReal) (T : ℕ) : ℝ := ∑ n ∈ range T, ew σ (pmax σ T).toReal n * (ν n).toReal

variable {σ ν : ℕ → EReal}

/-- Each of the first T scores is at most their maximum. -/
theorem le_pmax {T n : ℕ} (h : n < T) : σ n ≤ pmax σ T :=
  (Finset.le_fold_max _).2 (Or.inr ⟨n, mem_range.2 h, le_rfl⟩)

/-- A bound on each of the first T scores bounds their maximum. -/
theorem pmax_le {T : ℕ} {c : EReal} (h : ∀ n, n < T → σ n ≤ c) : pmax σ T ≤ c :=
  (Finset.fold_max_le _).2 ⟨bot_le, fun n hn => h n (mem_range.1 hn)⟩

/-- The prefix maximum of scores that are each minus infinity or real is minus infinity or real. -/
theorem pmax_botOrReal (hσ : ∀ n, σ n = ⊥ ∨ IsReal (σ n)) (T : ℕ) : pmax σ T = ⊥ ∨ IsReal (pmax σ T) :=
  botOrReal_fold _ _ (fun n _ => hσ n)

/-- The prefix maximum is real as soon as the prefix contains an unmasked key. -/
theorem pmax_isReal (hσ : ∀ n, σ n = ⊥ ∨ IsReal (σ n)) {T n : ℕ} (h : n < T) (hn : σ n ≠ ⊥) :
    IsReal (pmax σ T) := by
  rcases pmax_botOrReal hσ T with hb | hr
  · have h1 : σ n ≤ pmax σ T := le_pmax h
    rw [hb] at h1
    exact absurd (le_bot_iff.1 h1) hn
  · exact hr

/-- The maximum over T + B keys is the larger of the maximum over the first T and the maximum over the next B. -/
theorem pmax_add (σ : ℕ → EReal) (T B : ℕ) :
    pmax σ (T + B) = max (pmax σ T) ((univ : Finset (Fin B)).fold max ⊥ (fun c => σ (T + c.val))) := by
  apply le_antisymm
  · refine pmax_le fun n hn => ?_
    by_cases h : n < T
    · exact le_max_of_le_left (le_pmax h)
    · refine le_max_of_le_right ((Finset.le_fold_max _).2 (Or.inr ⟨⟨n - T, by omega⟩, mem_univ _, ?_⟩))
      have e : T + (n - T) = n := by omega
      show σ n ≤ σ (T + (n - T))
      rw [e]
  · refine max_le (pmax_le fun n hn => le_pmax (by omega)) ((Finset.fold_max_le _).2 ⟨bot_le, fun c _ => le_pmax ?_⟩)
    have := c.isLt
    omega

/-- The weights are nonnegative. -/
theorem ew_nonneg (σ : ℕ → EReal) (m : ℝ) (n : ℕ) : 0 ≤ ew σ m n := by
  unfold ew
  split_ifs
  · exact le_rfl
  · exact (Real.exp_pos _).le

/-- The weight of an unmasked key is positive. -/
theorem ew_pos {n : ℕ} (h : σ n ≠ ⊥) (m : ℝ) : 0 < ew σ m n := by
  unfold ew
  rw [if_neg h]
  exact Real.exp_pos _

/-- The weight of a masked key is zero. -/
theorem ew_bot {n : ℕ} (h : σ n = ⊥) (m : ℝ) : ew σ m n = 0 := by
  unfold ew
  rw [if_pos h]

/-- Changing the reference point from m to m' multiplies every weight by exp (m − m'). -/
theorem ew_rescale (σ : ℕ → EReal) (m m' : ℝ) (n : ℕ) : Real.exp (m - m') * ew σ m n = ew σ m' n := by
  unfold ew
  split_ifs with h
  · exact mul_zero _
  · rw [← Real.exp_add]
    congr 1
    ring

/-- The exponential of a score less a real reference point is the real weight. -/
theorem exp_sub_coe (hσ : ∀ n, σ n = ⊥ ∨ IsReal (σ n)) (m : ℝ) (n : ℕ) :
    Ideal.exp (σ n - (m : EReal)) = (ew σ m n : EReal) := by
  unfold ew
  rcases hσ n with h | ⟨r, h⟩
  · rw [if_pos h, h, EReal.bot_sub, Ideal.exp_bot, EReal.coe_zero]
  · rw [if_neg (by rw [h]; exact EReal.coe_ne_bot r), h, ← EReal.coe_sub, Ideal.exp_coe, EReal.toReal_coe]

end Cert.Attn.Online

end
-- ==== Proof.LibOnlineSoftmax.lean ====
/-
  The online (blockwise) softmax recurrence computes the softmax-weighted sum: the block step and the run over blocks
  in closed form (prefix maximum, prefix denominator, prefix numerator), and the final quotient as the softmax-weighted
  sum over all the keys.
-/
import proofs.«168439_j45234595561646_2_alg».proof.Proof.LibOnlineSoftmaxA

noncomputable section

namespace Cert.Attn.Online

open Idealize.ShloMosaic Finset

variable {σ ν : ℕ → EReal}

/-- Rescaling one weight: the exponential of (old maximum − new reference point) times the weight relative to the old
    maximum is the weight relative to the new reference point, for a key among those the old maximum is taken over. -/
theorem rescale_term (hσ : ∀ n, σ n = ⊥ ∨ IsReal (σ n)) {T n : ℕ} (hn : n < T) (m' : ℝ) :
    ew (fun _ => pmax σ T) m' 0 * ew σ (pmax σ T).toReal n = ew σ m' n := by
  by_cases hb : σ n = ⊥
  · rw [ew_bot hb, ew_bot hb, mul_zero]
  · have hr : IsReal (pmax σ T) := pmax_isReal hσ hn hb
    have e : ew (fun _ => pmax σ T) m' 0 = Real.exp ((pmax σ T).toReal - m') := by
      unfold ew
      rw [if_neg hr.ne_bot]
    rw [e]
    exact ew_rescale σ _ m' n

/-- One block step in closed form: from the state (maximum, denominator, numerator) of the first T keys, a step with
    the next B keys gives the state of the first T + B keys, provided that state's maximum is real. -/
theorem step_spec (hσ : ∀ n, σ n = ⊥ ∨ IsReal (σ n)) (T B : ℕ)
    (hν : ∀ n, T ≤ n → n < T + B → IsReal (ν n))
    (hreal : IsReal (pmax σ (T + B)))
    (sB vB : Fin B → EReal) (hs : ∀ c, sB c = σ (T + c.val)) (hv : ∀ c, vB c = ν (T + c.val)) :
    step sB vB (pmax σ T, (plse σ T : EReal), (pacc σ ν T : EReal))
      = (pmax σ (T + B), (plse σ (T + B) : EReal), (pacc σ ν (T + B) : EReal)) := by
  have hsB : sB = fun c => σ (T + c.val) := funext hs
  have hvB : vB = fun c => ν (T + c.val) := funext hv
  subst hsB hvB
  obtain ⟨m', hm'⟩ := hreal
  have hmr : (pmax σ (T + B)).toReal = m' := by rw [hm']; exact EReal.toReal_coe m'
  have hmax : max (pmax σ T) ((univ : Finset (Fin B)).fold max ⊥ (fun c => σ (T + c.val))) = (m' : EReal) := by
    rw [← pmax_add, hm']
  have hρ : Ideal.exp (pmax σ T - (m' : EReal)) = (ew (fun _ => pmax σ T) m' 0 : EReal) :=
    exp_sub_coe (σ := fun _ => pmax σ T) (fun _ => pmax_botOrReal hσ T) m' 0
  have hblock : ∑ c : Fin B, Ideal.exp (σ (T + c.val) - (m' : EReal))
      = ((∑ x ∈ range B, ew σ m' (T + x) : ℝ) : EReal) := by
    rw [coe_finset_sum, ← Fin.sum_univ_eq_sum_range (fun x => (ew σ m' (T + x) : EReal)) B]
    exact Finset.sum_congr rfl (fun c _ => exp_sub_coe hσ m' (T + c.val))
  have hblockv : ∑ c : Fin B, Ideal.exp (σ (T + c.val) - (m' : EReal)) * ν (T + c.val)
      = ((∑ x ∈ range B, ew σ m' (T + x) * (ν (T + x)).toReal : ℝ) : EReal) := by
    rw [coe_finset_sum, ← Fin.sum_univ_eq_sum_range (fun x => ((ew σ m' (T + x) * (ν (T + x)).toReal : ℝ) : EReal)) B]
    refine Finset.sum_congr rfl (fun c _ => ?_)
    have h1 := (hν (T + c.val) (Nat.le_add_right _ _) (Nat.add_lt_add_left c.isLt T)).coe_toReal
    rw [exp_sub_coe hσ m' (T + c.val), EReal.coe_mul, h1]
  have hkey : ew (fun _ => pmax σ T) m' 0 * plse σ T = ∑ n ∈ range T, ew σ m' n := by
    unfold plse
    rw [Finset.mul_sum]
    exact Finset.sum_congr rfl (fun n hn => rescale_term hσ (mem_range.1 hn) m')
  have hkeyv : ew (fun _ => pmax σ T) m' 0 * pacc σ ν T = ∑ n ∈ range T, ew σ m' n * (ν n).toReal := by
    unfold pacc
    rw [Finset.mul_sum]
    refine Finset.sum_congr rfl (fun n hn => ?_)
    rw [← mul_assoc, rescale_term hσ (mem_range.1 hn) m']
  unfold step
  simp only [hmax]
  rw [Prod.mk.injEq, Prod.mk.injEq]
  refine ⟨hm'.symm, ?_, ?_⟩
  · rw [hρ, hblock, ← EReal.coe_mul, ← EReal.coe_add, hkey]
    unfold plse
    rw [hmr, Finset.sum_range_add]
  · rw [hρ, hblockv, ← EReal.coe_mul, ← EReal.coe_add, hkeyv]
    unfold pacc
    rw [hmr, Finset.sum_range_add]

/-- The run over blocks 0 … j in closed form: the maximum, denominator and numerator of the first (j + 1)·B keys,
    when key 0 is unmasked. -/
theorem run_spec (hσ : ∀ n, σ n = ⊥ ∨ IsReal (σ n)) (B : ℕ) (hB : 0 < B) (h0 : IsReal (σ 0))
    (S V : ℕ → Fin B → EReal) (j : ℕ)
    (hν : ∀ n, n < (j + 1) * B → IsReal (ν n))
    (hS : ∀ i, i ≤ j → ∀ c : Fin B, S i c = σ (i * B + c.val))
    (hV : ∀ i, i ≤ j → ∀ c : Fin B, V i c = ν (i * B + c.val)) :
    run S V j = (pmax σ ((j + 1) * B), (plse σ ((j + 1) * B) : EReal), (pacc σ ν ((j + 1) * B) : EReal)) := by
  induction j with
  | zero =>
    have e : (0 + 1) * B = 0 + B := by ring
    have h := step_spec (σ := σ) (ν := ν) hσ 0 B (fun n _ hn => hν n (by rw [e]; exact hn))
      (pmax_isReal hσ (n := 0) (by omega) h0.ne_bot) (S 0) (V 0)
      (fun c => by rw [hS 0 le_rfl c, Nat.zero_mul]) (fun c => by rw [hV 0 le_rfl c, Nat.zero_mul])
    have e1 : pmax σ 0 = ⊥ := by unfold pmax; rw [Finset.range_zero, Finset.fold_empty]
    have e2 : ((plse σ 0 : ℝ) : EReal) = 0 := by unfold plse; rw [Finset.range_zero, Finset.sum_empty]; rfl
    have e3 : ((pacc σ ν 0 : ℝ) : EReal) = 0 := by unfold pacc; rw [Finset.range_zero, Finset.sum_empty]; rfl
    rw [e1, e2, e3] at h
    rw [e]
    exact h
  | succ j ih =>
    have e : (j + 1 + 1) * B = (j + 1) * B + B := by ring
    have ih' := ih (fun n hn => hν n (by omega)) (fun i hi => hS i (by omega)) (fun i hi => hV i (by omega))
    have h := step_spec (σ := σ) (ν := ν) hσ ((j + 1) * B) B (fun n _ hn => hν n (by omega))
      (pmax_isReal hσ (n := 0) (by omega) h0.ne_bot) (S (j + 1)) (V (j + 1))
      (fun c => hS (j + 1) le_rfl c) (fun c => hV (j + 1) le_rfl c)
    show step (S (j + 1)) (V (j + 1)) (run S V j) = _
    rw [ih', e]
    exact h

/-- The online softmax recurrence over key blocks 0 … J (running maximum from minus infinity, denominator and numerator
    from 0, each step rescaling by exp (old maximum − new maximum)), numerator over denominator, is the softmax-weighted
    sum Σ_k softmax(s)_k · v_k over ALL nb·B keys, when every score is a real or minus infinity, key 0's score is real,
    every value is real, and every key after block J scores minus infinity. -/
theorem flash_eq (nb B : ℕ) (hB : 0 < B) (s v : Fin (nb * B) → EReal) (J : ℕ) (hJ : J < nb)
    (hs : ∀ k, s k = ⊥ ∨ IsReal (s k)) (hv : ∀ k, IsReal (v k))
    (h0 : IsReal (s ⟨0, Nat.mul_pos (Nat.zero_lt_of_lt hJ) hB⟩))
    (hmask : ∀ k : Fin (nb * B), (J + 1) * B ≤ k.val → s k = ⊥) :
    Ideal.div (run (blk s) (blk v) J).2.2 (run (blk s) (blk v) J).2.1
      = ∑ k : Fin (nb * B), Ideal.div (Ideal.exp (s k - (Finset.univ : Finset (Fin (nb * B))).fold max ⊥ s))
            (∑ k' : Fin (nb * B), Ideal.exp (s k' - (Finset.univ : Finset (Fin (nb * B))).fold max ⊥ s)) * v k := by
  -- the scores and values as sequences (minus infinity, resp. 0, past the end)
  let σ : ℕ → EReal := fun n => if h : n < nb * B then s ⟨n, h⟩ else ⊥
  let ν : ℕ → EReal := fun n => if h : n < nb * B then v ⟨n, h⟩ else 0
  have hσk : ∀ k : Fin (nb * B), σ k.val = s k := fun k => by simp only [σ, dif_pos k.isLt, Fin.eta]
  have hνk : ∀ k : Fin (nb * B), ν k.val = v k := fun k => by simp only [ν, dif_pos k.isLt, Fin.eta]
  have hσ : ∀ n, σ n = ⊥ ∨ IsReal (σ n) := fun n => by
    by_cases h : n < nb * B
    · simp only [σ, dif_pos h]; exact hs _
    · left; simp only [σ, dif_neg h]
  have hν : ∀ n, IsReal (ν n) := fun n => by
    by_cases h : n < nb * B
    · simp only [ν, dif_pos h]; exact hv _
    · simp only [ν, dif_neg h]; exact isReal_zero
  have hT : (J + 1) * B ≤ nb * B := Nat.mul_le_mul_right B hJ
  have hTpos : 0 < (J + 1) * B := Nat.mul_pos (Nat.succ_pos J) hB
  have hσ0 : IsReal (σ 0) := by
    have := hσk ⟨0, Nat.mul_pos (Nat.zero_lt_of_lt hJ) hB⟩
    rw [this]; exact h0
  have hrun := run_spec (σ := σ) (ν := ν) hσ B hB hσ0 (blk s) (blk v) J (fun n _ => hν n) (fun i _ c => rfl)
    (fun i hi c => by
      have hlt : i * B + c.val < nb * B := by
        have h1 : (i + 1) * B ≤ nb * B := Nat.mul_le_mul_right B (by omega)
        have h2 : (i + 1) * B = i * B + B := by ring
        have := c.isLt
        omega
      simp only [blk, ν, dif_pos hlt])
  rw [hrun]
  obtain ⟨m, hm⟩ := pmax_isReal hσ hTpos hσ0.ne_bot
  have hmr : (pmax σ ((J + 1) * B)).toReal = m := by rw [hm]; exact EReal.toReal_coe m
  have hLdef : plse σ ((J + 1) * B) = ∑ n ∈ range ((J + 1) * B), ew σ m n := by unfold plse; rw [hmr]
  have hAdef : pacc σ ν ((J + 1) * B) = ∑ n ∈ range ((J + 1) * B), ew σ m n * (ν n).toReal := by
    unfold pacc; rw [hmr]
  have hL : 0 < plse σ ((J + 1) * B) := by
    rw [hLdef]
    exact Finset.sum_pos' (fun n _ => ew_nonneg σ m n) ⟨0, mem_range.2 hTpos, ew_pos hσ0.ne_bot m⟩
  -- the maximum over all keys is the maximum over the keys up to block J
  have hfold : (Finset.univ : Finset (Fin (nb * B))).fold max ⊥ s = (m : EReal) := by
    rw [← hm]
    apply le_antisymm
    · refine (Finset.fold_max_le _).2 ⟨bot_le, fun k _ => ?_⟩
      by_cases hk : k.val < (J + 1) * B
      · rw [← hσk k]; exact le_pmax hk
      · rw [hmask k (by omega)]; exact bot_le
    · refine pmax_le fun n hn => ?_
      have hnN : n < nb * B := by omega
      simp only [σ, dif_pos hnN]
      exact (Finset.le_fold_max _).2 (Or.inr ⟨_, mem_univ _, le_rfl⟩)
  -- a key after block J has weight zero
  have hzero : ∀ n, n ∈ range (nb * B) → n ∉ range ((J + 1) * B) → ew σ m n = 0 := fun n hn hn' => by
    have hnN : n < nb * B := mem_range.1 hn
    have hnT : (J + 1) * B ≤ n := by
      have := mem_range.not.1 hn'
      omega
    apply ew_bot
    simp only [σ, dif_pos hnN]
    exact hmask ⟨n, hnN⟩ hnT
  have hexp : ∀ k : Fin (nb * B), Ideal.exp (s k - (m : EReal)) = (ew σ m k.val : EReal) := fun k => by
    rw [← hσk k]; exact exp_sub_coe hσ m k.val
  have hden : ∑ k' : Fin (nb * B), (ew σ m k'.val : EReal) = (plse σ ((J + 1) * B) : EReal) := by
    rw [Fin.sum_univ_eq_sum_range (fun n => (ew σ m n : EReal)) (nb * B), ← coe_finset_sum, hLdef]
    congr 1
    exact (Finset.sum_subset (range_subset_range.2 hT) hzero).symm
  have hterm : ∀ k : Fin (nb * B), Ideal.div (ew σ m k.val : EReal) (plse σ ((J + 1) * B) : EReal) * v k
      = ((ew σ m k.val / plse σ ((J + 1) * B) * (ν k.val).toReal : ℝ) : EReal) := fun k => by
    rw [div_coe _ _ hL.ne', EReal.coe_mul, (hν k.val).coe_toReal, hνk k]
  rw [hfold]
  simp only [hexp, hden, hterm]
  rw [div_coe _ _ hL.ne', ← coe_finset_sum]
  congr 1
  rw [Fin.sum_univ_eq_sum_range (fun n => ew σ m n / plse σ ((J + 1) * B) * (ν n).toReal) (nb * B),
    ← Finset.sum_subset (range_subset_range.2 hT) (fun n hn hn' => by rw [hzero n hn hn', zero_div, zero_mul]),
    hAdef, Finset.sum_div]
  exact Finset.sum_congr rfl (fun n _ => by ring)

end Cert.Attn.Online

end
-- ==== Proof.OutRow.lean ====
/-
  The output the attention kernel stores for one query row: at the row block's last key block the body divides the
  running numerator by the running denominator.  By then the online-softmax state covers key blocks
  0 … min 7 (2·qi + 1); every later key is after the query and scores minus infinity, so the quotient is the
  softmax-weighted sum over ALL 4096 keys.
-/
import proofs.«168439_j45234595561646_2_alg».proof.Proof.RowState
import proofs.«168439_j45234595561646_2_alg».proof.Proof.LibOnlineSoftmax

noncomputable section

namespace Cert.KernelIdeal.HandV

open Idealize.ShloMosaic Idealize.ShloMosaic.TcCoe Idealize.ShloMosaic.ValueIdx
open Idealize.SL Idealize.SL.Sem
open Cert.KernelIdeal Cert.KernelIdeal.Gen Cert.KernelIdeal.Hand Cert.Attn
open Cert.Attn.Online (IsReal)

/-- Causal attention from the three projected arrays: the softmax over the masked scaled scores of a query row,
    applied to a column of the values. -/
def attnQKV (Q K W : SX.Idx → EReal) (b : Fin 4) (q : Fin 4096) (e : Fin 1024) : EReal :=
  ∑ k : Fin 4096, Ideal.div (Ideal.exp (mQK Q K b q k - (Finset.univ : Finset (Fin 4096)).fold max ⊥ (mQK Q K b q)))
      (∑ k' : Fin 4096, Ideal.exp (mQK Q K b q k' - (Finset.univ : Finset (Fin 4096)).fold max ⊥ (mQK Q K b q))) * W (ix3 b k e)

/-- A masked score is minus infinity or a real, when the projected arrays hold reals. -/
theorem mQK_real_or_bot (Q K : SX.Idx → EReal) (hQ : ∀ i, IsReal (Q i)) (hK : ∀ i, IsReal (K i)) (hsc : IsReal scale)
    (b : Fin 4) (q k : Fin 4096) : mQK Q K b q k = ⊥ ∨ IsReal (mQK Q K b q k) := by
  unfold mQK
  split
  · exact Or.inr (Online.IsReal.mul (Online.isReal_sum _ _ fun d _ => Online.IsReal.mul (hQ _) (hK _)) hsc)
  · exact Or.inl rfl

variable (V : Entry Ideal) (c : Dev nD)

theorem outAt_congr {n n' : ℕ} (e : n = n') (h : n < cfg1.N) (h' : n' < cfg1.N) : outAt V c n h = outAt V c n' h' := by
  subst e; rfl

/-- THE ROW'S OUTPUT. -/
theorem out_row (hQ : ∀ i, IsReal (Qa V c i)) (hK : ∀ i, IsReal (Ka V c i)) (hW : ∀ i, IsReal (Wa V c i)) (hsc : IsReal scale)
    (b qi : Fin 4) (r e : Fin 1024) (q : Fin 4096) (hq : q.val = qi.val * 1024 + r.val)
    (hn : (b.val * 4 + qi.val) * 8 + 7 < cfg1.N) :
    (outAt V c ((b.val * 4 + qi.val) * 8 + 7) hn : Vec Ideal S1x1024x1024 .f32) (ix3 (0 : Fin 1) r e)
      = attnQKV (Qa V c) (Ka V c) (Wa V c) b q e := by
  have hqv : qi.val < 4 := qi.isLt
  have hrv : r.val < 1024 := r.isLt
  unfold outAt
  rw [pay6_apply]
  show Ideal.div (tri (stateAt V c _ hn) r e).2.2 (tri (stateAt V c _ hn) r e).2.1 = _
  rw [state_row V c b qi r e q hq 7 (by omega) hn]
  refine Online.flash_eq 8 512 (by omega) (mQK (Qa V c) (Ka V c) b q) (fun k : Fin 4096 => Wa V c (ix3 b k e))
    (min 7 (2 * qi.val + 1)) (by omega) (fun k => mQK_real_or_bot _ _ hQ hK hsc b q k) (fun k => hW _) ?_ ?_
  · -- key 0 is never after the query
    have h := mQK_real_or_bot (Qa V c) (Ka V c) hQ hK hsc b q ⟨0, by omega⟩
    rcases h with h | h
    · exfalso
      unfold mQK at h
      rw [if_pos (Nat.zero_le _)] at h
      obtain ⟨x, hx⟩ := Online.IsReal.mul (Online.isReal_sum _ _ fun d _ => Online.IsReal.mul (hQ (ix3 b q d)) (hK (ix3 b ⟨0, by omega⟩ d))) hsc
      rw [hx] at h
      exact EReal.coe_ne_bot _ h
    · exact h
  · -- a key past the last processed block is after the query
    intro k hk
    unfold mQK
    refine if_neg ?_
    have hk' : k.val < 4096 := k.isLt
    rcases Nat.le_total 7 (2 * qi.val + 1) with h7 | h7
    · rw [min_eq_left h7] at hk; omega
    · rw [min_eq_right h7] at hk; omega

end Cert.KernelIdeal.HandV

end
-- ==== Proof.Attn1.lean ====
/-
  From the attention kernel's output blocks to its whole output array.  The output block of batch entry b and query
  block qi is written back once, at that row block's last key block (point ((4·b + qi)·8 + 7)), and holds, row by row,
  causal attention of the projected arrays; the sixteen blocks tile the [4, 4096, 1024] array.
-/
import proofs.«168439_j45234595561646_2_alg».proof.Proof.OutRow
import Idealize.ShloMosaic.Lib.Pipeline.Value

noncomputable section

namespace Cert.KernelIdeal.HandV

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand Cert.Attn
open Cert.Attn.Online (IsReal)

variable (V : Entry Ideal) (c : Dev nD)

/-- Causal attention of the projected arrays as one array. -/
def attnArr : S4x4096x1024.Idx → EReal :=
  fun i => attnQKV (Qa V c) (Ka V c) (Wa V c) (i 0) (i 1) (i 2)

/-- An index of the output array is in point `t`'s block iff each coordinate is in the block's range on its axis. -/
theorem mem_blk3 (t : Fin cfg1.N) (i : S4x4096x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v9).slice (win1_3.rect t)).set ↔ _
  rw [View.set_slice_whole, Rect.mem_set_unit]
  exact Iff.rfl

variable (dat : Dat τ (Elt Ideal) Unit ℕ (UR sig nD τ) ℕ cfg1 c)

/-- What a flushing point writes back is its block of `attnArr`. -/
theorem flushed3_eq (h3 : ∀ t, dat.after 3 t = outAt V c t.val t.isLt)
    (hQ : ∀ i, IsReal (Qa V c i)) (hK : ∀ i, IsReal (Ka V c i)) (hW : ∀ i, IsReal (Wa V c i)) (hsc : IsReal scale)
    (t : Fin cfg1.N) (hf : (cfg1.win 3).flush t = true) :
    dat.flushed 3 t = ((cfg1.win 3).blk t).view.read (Elt Ideal) (attnArr V c) := by
  have h7 : t.val % 8 = 7 := (flush1_3 t).mp hf
  have ht : t.val < 128 := lt_of_lt_of_eq t.isLt hN1
  obtain ⟨-, -, -, ⟨i0, i1, i2⟩, -⟩ := idx1 t
  show (cfg1.win 3).cut (grid1.coords t) (dat.after 3 t) = _
  rw [h3]
  funext y
  rw [View.read_apply]
  have hy0 : (y 0).val < 1 := (y 0).isLt
  have hy1 : (y 1).val < 1024 := (y 1).isLt
  have hy2 : (y 2).val < 1024 := (y 2).isLt
  have e0 : ((((cfg1.win 3).blk t).view.emb y) 0).val = t.val / 32 := by
    show win1_3.index t 0 * 1 + 1 * (y 0).val = _; rw [i0]; omega
  have e1 : ((((cfg1.win 3).blk t).view.emb y) 1).val = t.val / 8 % 4 * 1024 + (y 1).val := by
    show win1_3.index t 1 * 1024 + 1 * (y 1).val = _; rw [i1]; omega
  have e2 : ((((cfg1.win 3).blk t).view.emb y) 2).val = (y 2).val := by
    show win1_3.index t 2 * 1024 + 1 * (y 2).val = _; rw [i2]; omega
  have hn : ((t.val / 32) * 4 + t.val / 8 % 4) * 8 + 7 < cfg1.N := lt_of_lt_of_eq (show ((t.val / 32) * 4 + t.val / 8 % 4) * 8 + 7 < 128 by omega) hN1.symm
  have hrow := out_row V c hQ hK hW hsc ⟨t.val / 32, by omega⟩ ⟨t.val / 8 % 4, by omega⟩ ⟨(y 1).val, hy1⟩ ⟨(y 2).val, hy2⟩
    ⟨t.val / 8 % 4 * 1024 + (y 1).val, by omega⟩ rfl hn
  rw [outAt_congr V c (show ((t.val / 32) * 4 + t.val / 8 % 4) * 8 + 7 = t.val from by omega) hn t.isLt] at hrow
  have hy : y = ix3 (0 : Fin 1) (⟨(y 1).val, hy1⟩ : Fin 1024) (⟨(y 2).val, hy2⟩ : Fin 1024) := by
    funext a
    match a with
    | ⟨0, _⟩ => exact Fin.ext (by show (y 0).val = 0; omega)
    | ⟨1, _⟩ => rfl
    | ⟨2, _⟩ => rfl
  refine (congrArg (outAt V c t.val t.isLt : Vec Ideal S1x1024x1024 .f32) hy).trans (hrow.trans ?_)
  show attnQKV _ _ _ _ _ _ = attnQKV _ _ _ ((((cfg1.win 3).blk t).view.emb y) 0) ((((cfg1.win 3).blk t).view.emb y) 1) ((((cfg1.win 3).blk t).view.emb y) 2)
  exact congr (congr (congrArg (attnQKV (Qa V c) (Ka V c) (Wa V c)) (Fin.ext e0.symm)) (Fin.ext e1.symm)) (Fin.ext e2.symm)

/-- THE OUTPUT ARRAY after the run: causal attention of the projected arrays. -/
theorem attn_arr (h3 : ∀ t, dat.after 3 t = outAt V c t.val t.isLt)
    (hQ : ∀ i, IsReal (Qa V c i)) (hK : ∀ i, IsReal (Ka V c i)) (hW : ∀ i, IsReal (Wa V c i)) (hsc : IsReal scale) :
    dat.arrAt 3 cfg1.N = attnArr V c :=
  dat.arrAt_eq_of_cover 3 (attnArr V c) (fun t hf => flushed3_eq V c dat h3 hQ hK hW hsc t hf) fun i => by
    have h0 : (i 0).val < 4 := (i 0).isLt
    have h1 : (i 1).val < 4096 := (i 1).isLt
    have h2 : (i 2).val < 1024 := (i 2).isLt
    have htN : ((i 0).val * 4 + (i 1).val / 1024) * 8 + 7 < cfg1.N := lt_of_lt_of_eq (show ((i 0).val * 4 + (i 1).val / 1024) * 8 + 7 < 128 by omega) hN1.symm
    refine ⟨⟨((i 0).val * 4 + (i 1).val / 1024) * 8 + 7, htN⟩, (flush1_3 _).mpr (by show (((i 0).val * 4 + (i 1).val / 1024) * 8 + 7) % 8 = 7; omega), ?_⟩
    rw [mem_blk3]
    obtain ⟨-, -, -, ⟨i0, i1, i2⟩, -⟩ := idx1 ⟨((i 0).val * 4 + (i 1).val / 1024) * 8 + 7, htN⟩
    intro a
    match a with
    | ⟨0, _⟩ =>
      show win1_3.index _ 0 * 1 ≤ (i 0).val ∧ (i 0).val < win1_3.index _ 0 * 1 + 1
      rw [i0]; show (((i 0).val * 4 + (i 1).val / 1024) * 8 + 7) / 32 * 1 ≤ _ ∧ _ < (((i 0).val * 4 + (i 1).val / 1024) * 8 + 7) / 32 * 1 + 1; omega
    | ⟨1, _⟩ =>
      show win1_3.index _ 1 * 1024 ≤ (i 1).val ∧ (i 1).val < win1_3.index _ 1 * 1024 + 1024
      rw [i1]; show (((i 0).val * 4 + (i 1).val / 1024) * 8 + 7) / 8 % 4 * 1024 ≤ _ ∧ _ < (((i 0).val * 4 + (i 1).val / 1024) * 8 + 7) / 8 % 4 * 1024 + 1024; omega
    | ⟨2, _⟩ =>
      show win1_3.index _ 2 * 1024 ≤ (i 2).val ∧ (i 2).val < win1_3.index _ 2 * 1024 + 1024
      rw [i2]; omega

end Cert.KernelIdeal.HandV

end
-- ==== Proof.GSpec.lean ====
/-
  Causal attention of the three projections is the specification: with Q = x·Wq, K = x·Wk, W = x·Wv as arrays, the
  masked scaled scores, the row maximum, the weights and their sum are those of the specification term by term.
-/
import proofs.«168439_j45234595561646_2_alg».proof.Proof.OutRow

noncomputable section

namespace Cert.KernelIdeal.HandV

open Idealize.ShloMosaic Idealize.ShloMosaic.ValueIdx
open Cert.Attn
open Cert.Attn.Online (IsReal)

/-- A projection as an array. -/
def projA (x : SX.Idx → EReal) (w : SW.Idx → EReal) : SX.Idx → EReal := fun i => proj x w (i 0) (i 1) (i 2)

theorem projA_ix3 (x : SX.Idx → EReal) (w : SW.Idx → EReal) (b : Fin 4) (s : Fin 4096) (e : Fin 1024) :
    projA x w (ix3 b s e) = proj x w b s e := rfl

theorem mQK_proj (x : SX.Idx → EReal) (wq wk : SW.Idx → EReal) (b : Fin 4) (q : Fin 4096) :
    mQK (projA x wq) (projA x wk) b q = masked x wq wk b q := by
  funext k
  unfold mQK masked score
  simp only [projA_ix3]

theorem attnQKV_proj (x : SX.Idx → EReal) (wq wk wv : SW.Idx → EReal) (b : Fin 4) (q : Fin 4096) (e : Fin 1024) :
    attnQKV (projA x wq) (projA x wk) (projA x wv) b q e = attn x wq wk wv b q e := by
  unfold attn attnQKV
  rw [mQK_proj]
  simp only [projA_ix3]
  rfl

/-- THE SPECIFICATION from the projections. -/
theorem attn_proj_eq_G (x : SX.Idx → EReal) (wq wk wv : SW.Idx → EReal) :
    (fun i : SX.Idx => attnQKV (projA x wq) (projA x wk) (projA x wv) (i 0) (i 1) (i 2)) = G x wq wk wv :=
  funext fun i => attnQKV_proj x wq wk wv (i 0) (i 1) (i 2)

/-- A projection of real arrays holds reals. -/
theorem projA_real (x : SX.Idx → EReal) (w : SW.Idx → EReal) (hx : ∀ i, IsReal (x i)) (hw : ∀ i, IsReal (w i)) (i : SX.Idx) :
    IsReal (projA x w i) := by
  unfold projA proj
  exact Online.isReal_sum Finset.univ _ fun d _ => Online.IsReal.mul (hx _) (hw _)

end Cert.KernelIdeal.HandV

end
-- ==== Proof.ProjValue.lean ====
/-
  Region 0 from blocks to arrays, over the extended reals.

  The projection kernel runs over 16 row blocks of 1024 rows.  At a point its output block is the product of the
  activations' row block with a whole weight matrix: entry (r, e) of the block is the sum over d of x(r, d) * w(d, e),
  the change of float format being the identity on extended reals.  Row r of block t is row 1024 * t + r of the
  array, so the sixteen blocks written back tile the [16384, 1024] result and the array ends holding, at (ρ, e),
  the sum over d of main_v1(ρ, d) * W(d, e): the row ρ is covered by the point ρ / 1024.
-/
import proofs.«168439_j45234595561646_2_alg».proof.Proof.Flash
import Idealize.ShloMosaic.Lib.Pipeline.Value
import Idealize.ShloMosaic.Lib.ValueIdx
import Idealize.ShloMosaic.PureOps.Ideal.Laws

noncomputable section

namespace Cert.KernelIdeal.HandV

open Idealize.ShloMosaic Idealize.ShloMosaic.TcCoe Idealize.ShloMosaic.ValueIdx
open Idealize.SL Idealize.SL.Sem
open Cert.KernelIdeal Cert.KernelIdeal.Gen Cert.KernelIdeal.Hand

theorem proj_hz : (![0, 0] : Fin 2 → Nat) = fun _ => 0 := funext fun a => by fin_cases a <;> rfl

/-! ## The body's product at an index -/

/-- The matmul's left operand is read at the output's row and the contraction position. -/
theorem proj_lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem proj_lhs_col (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right operand is read at the contraction position and the output's column. -/
theorem proj_rhs_row (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem proj_rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of two 1024 x 1024 blocks into the zero accumulator, entry by entry. -/
theorem proj_matmul_at (x w : FVec Ideal S1024x1024 .bf16) (p q : Fin 1024) :
    (FloatOps.matmul dot_S1024x1024_S1024x1024_S1024x1024_1_0_0_1_n_n none x w (constant (F := Ideal) S1024x1024 .f32 0x00000000#32)) (ix2 p q)
      = ∑ d : Fin 1024, x (ix2 p d) * w (ix2 d q) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact proj_lhs_row _ _
    | ⟨1, _⟩ => exact (proj_lhs_col _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (proj_rhs_row _ _).trans hk
    | ⟨1, _⟩ => exact proj_rhs_col _ _)
  rw [el, er]

/-- The three payloads: the row block times the weight matrix, entry by entry. -/
theorem proj_pay2_at (x w : Vec Ideal S1024x1024 .bf16) (p q : Fin 1024) :
    k0_pay2 x w (ix2 p q) = ∑ d : Fin 1024, x (ix2 p d) * w (ix2 d q) := by
  unfold k0_pay2 k0_pay1
  rw [shapeCast_self, shapeCast_self]
  exact proj_matmul_at x w p q
theorem proj_pay3_at (x w : Vec Ideal S1024x1024 .bf16) (p q : Fin 1024) :
    k0_pay3 x w (ix2 p q) = ∑ d : Fin 1024, x (ix2 p d) * w (ix2 d q) := by
  unfold k0_pay3 k0_pay1
  rw [shapeCast_self, shapeCast_self]
  exact proj_matmul_at x w p q
theorem proj_pay4_at (x w : Vec Ideal S1024x1024 .bf16) (p q : Fin 1024) :
    k0_pay4 x w (ix2 p q) = ∑ d : Fin 1024, x (ix2 p d) * w (ix2 d q) := by
  unfold k0_pay4 k0_pay1
  rw [shapeCast_self, shapeCast_self]
  exact proj_matmul_at x w p q

/-! ## The blocks as rows of the arrays -/

/-- The printed index maps over the grid: the activations' window and the three result windows sit at row block
    `t`, the weight windows are the whole matrices. -/
theorem proj_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

variable (V : Entry Ideal) (c : Dev nD)

/-- Row `p` of the activations' block at point `t` is row `1024 t + p` of the array. -/
theorem proj_x_blk (t : Fin cfg0.N) (p d : Fin 1024) (h : t.val * 1024 + p.val < 16384) :
    (iblk0 V c 0 t : S1024x1024.Idx → EReal) (ix2 p d) = (V c main_v1 : S16384x1024.Idx → EReal) (ix2 (⟨t.val * 1024 + p.val, h⟩ : Fin 16384) d) := by
  obtain ⟨e0, e1, -⟩ := proj_idx_facts t
  unfold iblk0
  rw [View.read_apply]
  show (V c main_v1 : S16384x1024.Idx → EReal) _ = _
  refine congrArg _ (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 1024 + 1 * d.val = d.val; rw [e1]; omega

/-- A weight window's block at any point is the whole matrix. -/
theorem proj_w1_blk (t : Fin cfg0.N) (d q : Fin 1024) :
    (iblk0 V c 1 t : S1024x1024.Idx → EReal) (ix2 d q) = (V c main_v2 : S1024x1024.Idx → EReal) (ix2 d q) := by
  obtain ⟨-, -, e0, e1, -⟩ := proj_idx_facts t
  unfold iblk0
  rw [View.read_apply]
  show (V c main_v2 : S1024x1024.Idx → EReal) _ = _
  refine congrArg _ (funext fun a => Fin.ext ?_)
  match a with
  | ⟨0, _⟩ => show win0_1.index t (0 : Fin 2) * 1024 + 1 * d.val = d.val; rw [e0]; omega
  | ⟨1, _⟩ => show win0_1.index t (1 : Fin 2) * 1024 + 1 * q.val = q.val; rw [e1]; omega
theorem proj_w2_blk (t : Fin cfg0.N) (d q : Fin 1024) :
    (iblk0 V c 2 t : S1024x1024.Idx → EReal) (ix2 d q) = (V c main_v3 : S1024x1024.Idx → EReal) (ix2 d q) := by
  obtain ⟨-, -, -, -, e0, e1, -⟩ := proj_idx_facts t
  unfold iblk0
  rw [View.read_apply]
  show (V c main_v3 : S1024x1024.Idx → EReal) _ = _
  refine congrArg _ (funext fun a => Fin.ext ?_)
  match a with
  | ⟨0, _⟩ => show win0_2.index t (0 : Fin 2) * 1024 + 1 * d.val = d.val; rw [e0]; omega
  | ⟨1, _⟩ => show win0_2.index t (1 : Fin 2) * 1024 + 1 * q.val = q.val; rw [e1]; omega
theorem proj_w3_blk (t : Fin cfg0.N) (d q : Fin 1024) :
    (iblk0 V c 3 t : S1024x1024.Idx → EReal) (ix2 d q) = (V c main_v4 : S1024x1024.Idx → EReal) (ix2 d q) := by
  obtain ⟨-, -, -, -, -, -, e0, e1, -⟩ := proj_idx_facts t
  unfold iblk0
  rw [View.read_apply]
  show (V c main_v4 : S1024x1024.Idx → EReal) _ = _
  refine congrArg _ (funext fun a => Fin.ext ?_)
  match a with
  | ⟨0, _⟩ => show win0_3.index t (0 : Fin 2) * 1024 + 1 * d.val = d.val; rw [e0]; omega
  | ⟨1, _⟩ => show win0_3.index t (1 : Fin 2) * 1024 + 1 * q.val = q.val; rw [e1]; omega

/-! ## What a point writes back, and the arrays after the region -/

/-- The product of the activations with a weight matrix as one array: entry (ρ, e) is the sum over d of x(ρ, d) * w(d, e). -/
def projArr (X : S16384x1024.Idx → EReal) (W : S1024x1024.Idx → EReal) : S16384x1024.Idx → EReal :=
  fun i => ∑ d : Fin 1024, X (ix2 (i 0 : Fin 16384) d) * W (ix2 d (i 1 : Fin 1024))

theorem projArr_apply (X : S16384x1024.Idx → EReal) (W : S1024x1024.Idx → EReal) (i : S16384x1024.Idx) :
    projArr X W i = ∑ d : Fin 1024, X (ix2 (i 0 : Fin 16384) d) * W (ix2 d (i 1 : Fin 1024)) := rfl

variable (dat : Pipeline.Dat τ (Elt Ideal) Unit ℕ (UR sig nD τ) ℕ cfg0 c)

/-- Point `t` writes back block `t` of the product with the first weight matrix. -/
theorem proj_flushed4_eq (h4 : ∀ t, dat.after 4 t = out0_4 (iblk0 V c 0 t) (iblk0 V c 1 t)) (t : Fin cfg0.N) :
    dat.flushed 4 t = ((cfg0.win 4).blk t).view.read (Elt Ideal) (projArr (V c main_v1) (V c main_v2)) := by
  have hN : cfg0.N = 16 := N_0
  have ht : t.val < 16 := hN ▸ t.isLt
  obtain ⟨-, -, -, -, -, -, -, -, e0, e1, -⟩ := proj_idx_facts t
  show (cfg0.win 4).cut (grid0.coords t) (dat.after 4 t) = _
  rw [h4]
  unfold out0_4
  rw [View.canon_unit_zero proj_hz]
  simp only [View.ld_unit_zero (S := S1024x1024) proj_hz]
  funext j
  have hj0 : (j 0).val < 1024 := (j 0).isLt
  have hj1 : (j 1).val < 1024 := (j 1).isLt
  rw [View.read_apply]
  show k0_pay2 (iblk0 V c 0 t) (iblk0 V c 1 t) ((cfg0.win 4).xinj (grid0.coords t) j) = projArr (V c main_v1) (V c main_v2) (((cfg0.win 4).blk t).view.emb j)
  have ej : (cfg0.win 4).xinj (grid0.coords t) j = ix2 (⟨(j 0).val, hj0⟩ : Fin 1024) (⟨(j 1).val, hj1⟩ : Fin 1024) :=
    funext fun a => by match a with | ⟨0, _⟩ => rfl | ⟨1, _⟩ => rfl
  have ei : ((cfg0.win 4).blk t).view.emb j = ix2 (⟨t.val * 1024 + (j 0).val, by omega⟩ : Fin 16384) (⟨(j 1).val, hj1⟩ : Fin 1024) :=
    funext fun a => Fin.ext (by
      match a with
      | ⟨0, _⟩ => show win0_4.index t (0 : Fin 2) * 1024 + 1 * (j 0).val = t.val * 1024 + (j 0).val; rw [e0]; omega
      | ⟨1, _⟩ => show win0_4.index t (1 : Fin 2) * 1024 + 1 * (j 1).val = (j 1).val; rw [e1]; omega)
  refine (congrArg (k0_pay2 (iblk0 V c 0 t) (iblk0 V c 1 t)) ej).trans (Eq.trans ?_ (congrArg (projArr (V c main_v1) (V c main_v2)) ei).symm)
  refine (proj_pay2_at _ _ _ _).trans ?_
  unfold projArr
  refine Finset.sum_congr rfl fun d _ => ?_
  rw [proj_x_blk V c t _ d (by show t.val * 1024 + (j 0).val < 16384; omega), proj_w1_blk]

/-- An index of the result array is in point `t`'s block iff each coordinate is in the block's range on its axis. -/
theorem proj_mem_blk4 (t : Fin cfg0.N) (i : S16384x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v5_0).slice (win0_4.rect t)).set ↔ _
  rw [View.set_slice_whole, Rect.mem_set_unit]
  exact Iff.rfl

/-- Row ρ of the result lies in the block of point ρ / 1024. -/
theorem proj_cover4 (i : S16384x1024.Idx) : ∃ t : Fin cfg0.N, (cfg0.win 4).flush t = true ∧ i ∈ ((cfg0.win 4).blk t).view.set := by
  have hN : cfg0.N = 16 := N_0
  have hi0 : (i 0).val < 16384 := (i 0).isLt
  have hi1 : (i 1).val < 1024 := (i 1).isLt
  obtain ⟨t, ht⟩ : ∃ t : Fin cfg0.N, t.val = (i 0).val / 1024 := ⟨⟨(i 0).val / 1024, by rw [hN]; omega⟩, rfl⟩
  obtain ⟨-, -, -, -, -, -, -, -, e0, e1, -⟩ := proj_idx_facts t
  refine ⟨t, flush0_4 t, ?_⟩
  rw [proj_mem_blk4]
  intro a
  match a with
  | ⟨0, _⟩ => show win0_4.index t (0 : Fin 2) * 1024 ≤ (i 0).val ∧ (i 0).val < win0_4.index t (0 : Fin 2) * 1024 + 1024; rw [e0, ht]; omega
  | ⟨1, _⟩ => show win0_4.index t (1 : Fin 2) * 1024 ≤ (i 1).val ∧ (i 1).val < win0_4.index t (1 : Fin 2) * 1024 + 1024; rw [e1]; omega

/-- After region 0 the first result array is the activations times the first weight matrix. -/
theorem proj_arr4 (hA : ∀ w, dat.A w = V c (Pipeline.arrRef spec0 w)) (h4 : ∀ t, dat.after 4 t = out0_4 (iblk0 V c 0 t) (iblk0 V c 1 t)) :
    dat.arrAt 4 cfg0.N = projArr (V c main_v1) (V c main_v2) :=
  dat.arrAt_eq_of_cover 4 (projArr (V c main_v1) (V c main_v2)) (fun t _ => proj_flushed4_eq V c dat h4 t) proj_cover4

/-- Point `t` writes back block `t` of the product with the second weight matrix. -/
theorem proj_flushed5_eq (h5 : ∀ t, dat.after 5 t = out0_5 (iblk0 V c 0 t) (iblk0 V c 2 t)) (t : Fin cfg0.N) :
    dat.flushed 5 t = ((cfg0.win 5).blk t).view.read (Elt Ideal) (projArr (V c main_v1) (V c main_v3)) := by
  have hN : cfg0.N = 16 := N_0
  have ht : t.val < 16 := hN ▸ t.isLt
  obtain ⟨-, -, -, -, -, -, -, -, -, -, e0, e1, -⟩ := proj_idx_facts t
  show (cfg0.win 5).cut (grid0.coords t) (dat.after 5 t) = _
  rw [h5]
  unfold out0_5
  rw [View.canon_unit_zero proj_hz]
  simp only [View.ld_unit_zero (S := S1024x1024) proj_hz]
  funext j
  have hj0 : (j 0).val < 1024 := (j 0).isLt
  have hj1 : (j 1).val < 1024 := (j 1).isLt
  rw [View.read_apply]
  show k0_pay3 (iblk0 V c 0 t) (iblk0 V c 2 t) ((cfg0.win 5).xinj (grid0.coords t) j) = projArr (V c main_v1) (V c main_v3) (((cfg0.win 5).blk t).view.emb j)
  have ej : (cfg0.win 5).xinj (grid0.coords t) j = ix2 (⟨(j 0).val, hj0⟩ : Fin 1024) (⟨(j 1).val, hj1⟩ : Fin 1024) :=
    funext fun a => by match a with | ⟨0, _⟩ => rfl | ⟨1, _⟩ => rfl
  have ei : ((cfg0.win 5).blk t).view.emb j = ix2 (⟨t.val * 1024 + (j 0).val, by omega⟩ : Fin 16384) (⟨(j 1).val, hj1⟩ : Fin 1024) :=
    funext fun a => Fin.ext (by
      match a with
      | ⟨0, _⟩ => show win0_5.index t (0 : Fin 2) * 1024 + 1 * (j 0).val = t.val * 1024 + (j 0).val; rw [e0]; omega
      | ⟨1, _⟩ => show win0_5.index t (1 : Fin 2) * 1024 + 1 * (j 1).val = (j 1).val; rw [e1]; omega)
  refine (congrArg (k0_pay3 (iblk0 V c 0 t) (iblk0 V c 2 t)) ej).trans (Eq.trans ?_ (congrArg (projArr (V c main_v1) (V c main_v3)) ei).symm)
  refine (proj_pay3_at _ _ _ _).trans ?_
  unfold projArr
  refine Finset.sum_congr rfl fun d _ => ?_
  rw [proj_x_blk V c t _ d (by show t.val * 1024 + (j 0).val < 16384; omega), proj_w2_blk]

/-- An index of the result array is in point `t`'s block iff each coordinate is in the block's range on its axis. -/
theorem proj_mem_blk5 (t : Fin cfg0.N) (i : S16384x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v5_1).slice (win0_5.rect t)).set ↔ _
  rw [View.set_slice_whole, Rect.mem_set_unit]
  exact Iff.rfl

/-- Row ρ of the result lies in the block of point ρ / 1024. -/
theorem proj_cover5 (i : S16384x1024.Idx) : ∃ t : Fin cfg0.N, (cfg0.win 5).flush t = true ∧ i ∈ ((cfg0.win 5).blk t).view.set := by
  have hN : cfg0.N = 16 := N_0
  have hi0 : (i 0).val < 16384 := (i 0).isLt
  have hi1 : (i 1).val < 1024 := (i 1).isLt
  obtain ⟨t, ht⟩ : ∃ t : Fin cfg0.N, t.val = (i 0).val / 1024 := ⟨⟨(i 0).val / 1024, by rw [hN]; omega⟩, rfl⟩
  obtain ⟨-, -, -, -, -, -, -, -, -, -, e0, e1, -⟩ := proj_idx_facts t
  refine ⟨t, flush0_5 t, ?_⟩
  rw [proj_mem_blk5]
  intro a
  match a with
  | ⟨0, _⟩ => show win0_5.index t (0 : Fin 2) * 1024 ≤ (i 0).val ∧ (i 0).val < win0_5.index t (0 : Fin 2) * 1024 + 1024; rw [e0, ht]; omega
  | ⟨1, _⟩ => show win0_5.index t (1 : Fin 2) * 1024 ≤ (i 1).val ∧ (i 1).val < win0_5.index t (1 : Fin 2) * 1024 + 1024; rw [e1]; omega

/-- After region 0 the second result array is the activations times the second weight matrix. -/
theorem proj_arr5 (hA : ∀ w, dat.A w = V c (Pipeline.arrRef spec0 w)) (h5 : ∀ t, dat.after 5 t = out0_5 (iblk0 V c 0 t) (iblk0 V c 2 t)) :
    dat.arrAt 5 cfg0.N = projArr (V c main_v1) (V c main_v3) :=
  dat.arrAt_eq_of_cover 5 (projArr (V c main_v1) (V c main_v3)) (fun t _ => proj_flushed5_eq V c dat h5 t) proj_cover5

/-- Point `t` writes back block `t` of the product with the third weight matrix. -/
theorem proj_flushed6_eq (h6 : ∀ t, dat.after 6 t = out0_6 (iblk0 V c 0 t) (iblk0 V c 3 t)) (t : Fin cfg0.N) :
    dat.flushed 6 t = ((cfg0.win 6).blk t).view.read (Elt Ideal) (projArr (V c main_v1) (V c main_v4)) := by
  have hN : cfg0.N = 16 := N_0
  have ht : t.val < 16 := hN ▸ t.isLt
  obtain ⟨-, -, -, -, -, -, -, -, -, -, -, -, e0, e1⟩ := proj_idx_facts t
  show (cfg0.win 6).cut (grid0.coords t) (dat.after 6 t) = _
  rw [h6]
  unfold out0_6
  rw [View.canon_unit_zero proj_hz]
  simp only [View.ld_unit_zero (S := S1024x1024) proj_hz]
  funext j
  have hj0 : (j 0).val < 1024 := (j 0).isLt
  have hj1 : (j 1).val < 1024 := (j 1).isLt
  rw [View.read_apply]
  show k0_pay4 (iblk0 V c 0 t) (iblk0 V c 3 t) ((cfg0.win 6).xinj (grid0.coords t) j) = projArr (V c main_v1) (V c main_v4) (((cfg0.win 6).blk t).view.emb j)
  have ej : (cfg0.win 6).xinj (grid0.coords t) j = ix2 (⟨(j 0).val, hj0⟩ : Fin 1024) (⟨(j 1).val, hj1⟩ : Fin 1024) :=
    funext fun a => by match a with | ⟨0, _⟩ => rfl | ⟨1, _⟩ => rfl
  have ei : ((cfg0.win 6).blk t).view.emb j = ix2 (⟨t.val * 1024 + (j 0).val, by omega⟩ : Fin 16384) (⟨(j 1).val, hj1⟩ : Fin 1024) :=
    funext fun a => Fin.ext (by
      match a with
      | ⟨0, _⟩ => show win0_6.index t (0 : Fin 2) * 1024 + 1 * (j 0).val = t.val * 1024 + (j 0).val; rw [e0]; omega
      | ⟨1, _⟩ => show win0_6.index t (1 : Fin 2) * 1024 + 1 * (j 1).val = (j 1).val; rw [e1]; omega)
  refine (congrArg (k0_pay4 (iblk0 V c 0 t) (iblk0 V c 3 t)) ej).trans (Eq.trans ?_ (congrArg (projArr (V c main_v1) (V c main_v4)) ei).symm)
  refine (proj_pay4_at _ _ _ _).trans ?_
  unfold projArr
  refine Finset.sum_congr rfl fun d _ => ?_
  rw [proj_x_blk V c t _ d (by show t.val * 1024 + (j 0).val < 16384; omega), proj_w3_blk]

/-- An index of the result array is in point `t`'s block iff each coordinate is in the block's range on its axis. -/
theorem proj_mem_blk6 (t : Fin cfg0.N) (i : S16384x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v5_2).slice (win0_6.rect t)).set ↔ _
  rw [View.set_slice_whole, Rect.mem_set_unit]
  exact Iff.rfl

/-- Row ρ of the result lies in the block of point ρ / 1024. -/
theorem proj_cover6 (i : S16384x1024.Idx) : ∃ t : Fin cfg0.N, (cfg0.win 6).flush t = true ∧ i ∈ ((cfg0.win 6).blk t).view.set := by
  have hN : cfg0.N = 16 := N_0
  have hi0 : (i 0).val < 16384 := (i 0).isLt
  have hi1 : (i 1).val < 1024 := (i 1).isLt
  obtain ⟨t, ht⟩ : ∃ t : Fin cfg0.N, t.val = (i 0).val / 1024 := ⟨⟨(i 0).val / 1024, by rw [hN]; omega⟩, rfl⟩
  obtain ⟨-, -, -, -, -, -, -, -, -, -, -, -, e0, e1⟩ := proj_idx_facts t
  refine ⟨t, flush0_6 t, ?_⟩
  rw [proj_mem_blk6]
  intro a
  match a with
  | ⟨0, _⟩ => show win0_6.index t (0 : Fin 2) * 1024 ≤ (i 0).val ∧ (i 0).val < win0_6.index t (0 : Fin 2) * 1024 + 1024; rw [e0, ht]; omega
  | ⟨1, _⟩ => show win0_6.index t (1 : Fin 2) * 1024 ≤ (i 1).val ∧ (i 1).val < win0_6.index t (1 : Fin 2) * 1024 + 1024; rw [e1]; omega

/-- After region 0 the third result array is the activations times the third weight matrix. -/
theorem proj_arr6 (hA : ∀ w, dat.A w = V c (Pipeline.arrRef spec0 w)) (h6 : ∀ t, dat.after 6 t = out0_6 (iblk0 V c 0 t) (iblk0 V c 3 t)) :
    dat.arrAt 6 cfg0.N = projArr (V c main_v1) (V c main_v4) :=
  dat.arrAt_eq_of_cover 6 (projArr (V c main_v1) (V c main_v4)) (fun t _ => proj_flushed6_eq V c dat h6 t) proj_cover6

end Cert.KernelIdeal.HandV

end
-- ==== Proof.HostValue.lean ====
/-
  The host operations around the two kernels, over the extended reals.

  Before the projection kernel the activations [4, 4096, 1024] are flattened to [16384, 1024] — row ρ of the flat
  array is row ρ % 4096 of batch entry ρ / 4096 — and the four arrays change float format, which is the identity on
  extended reals.  Between the kernels the three [16384, 1024] projections are folded back to [4, 4096, 1024]: row s of
  batch entry b is flat row 4096 b + s.
-/
import proofs.«168439_j45234595561646_2_alg».proof.Proof.Gen.KernelIdeal.Launch
import Idealize.ShloMosaic.Lib.StableHlo.Run
import Idealize.ShloMosaic.Lib.Pipeline.Value
import Idealize.ShloMosaic.Lib.ValueIdx

noncomputable section

namespace Cert.KernelIdeal.HandV

open Idealize.ShloMosaic Idealize.ShloMosaic.TcCoe Idealize.ShloMosaic.ValueIdx
open Idealize.SL Idealize.SL.Sem
open Cert.KernelIdeal Cert.KernelIdeal.Gen

/-- A [4, 4096, 1024] array read as [16384, 1024]: flat row ρ is row ρ % 4096 of batch entry ρ / 4096. -/
def hostFlat (X : S4x4096x1024.Idx → EReal) : S16384x1024.Idx → EReal :=
  fun i => X (ix3 (⟨(i 0).val / 4096, Nat.div_lt_of_lt_mul (i 0).isLt⟩ : Fin 4) (⟨(i 0).val % 4096, Nat.mod_lt _ (by decide)⟩ : Fin 4096) (i 1 : Fin 1024))

/-- A [16384, 1024] array read as [4, 4096, 1024]: row s of batch entry b is flat row 4096 b + s. -/
def hostFold (Y : S16384x1024.Idx → EReal) : S4x4096x1024.Idx → EReal :=
  fun i => Y (ix2 (⟨(i 0).val * 4096 + (i 1).val, by have h0 : (i 0).val < 4 := (i 0).isLt; have h1 : (i 1).val < 4096 := (i 1).isLt; omega⟩ : Fin 16384) (i 2 : Fin 1024))

theorem hostFlat_apply (X : S4x4096x1024.Idx → EReal) (i : S16384x1024.Idx) :
    hostFlat X i = X (ix3 (⟨(i 0).val / 4096, Nat.div_lt_of_lt_mul (i 0).isLt⟩ : Fin 4) (⟨(i 0).val % 4096, Nat.mod_lt _ (by decide)⟩ : Fin 4096) (i 1 : Fin 1024)) := rfl
theorem hostFold_apply (Y : S16384x1024.Idx → EReal) (b : Fin 4) (s : Fin 4096) (e : Fin 1024) (h : b.val * 4096 + s.val < 16384) :
    hostFold Y (ix3 b s e) = Y (ix2 (⟨b.val * 4096 + s.val, h⟩ : Fin 16384) e) := rfl

variable (W : Valuation τ sig (Elt Ideal))

/-- The activations the projection kernel reads are the argument flattened. -/
theorem host_v1 : StableHlo.after (hostOps0 (F := Ideal)) W (Proc.devRef .tc main_v1) = hostFlat (W (Proc.devRef .tc main_arg0)) := by
  after_results
  refine funext fun (i : S16384x1024.Idx) => ?_
  show shapeCast S16384x1024 (W (Proc.devRef .tc main_arg0)) shapeCasts_S4x4096x1024_S16384x1024 i = _
  refine (shapeCast_apply _ _ i (ix3 (⟨(i 0).val / 4096, Nat.div_lt_of_lt_mul (i 0).isLt⟩ : Fin 4) (⟨(i 0).val % 4096, Nat.mod_lt _ (by decide)⟩ : Fin 4096) (i 1 : Fin 1024)) ?_).trans rfl
  show (S4x4096x1024.rowMajor (ix3 (⟨(i 0).val / 4096, Nat.div_lt_of_lt_mul (i 0).isLt⟩ : Fin 4) (⟨(i 0).val % 4096, Nat.mod_lt _ (by decide)⟩ : Fin 4096) (i 1 : Fin 1024))).val = (S16384x1024.rowMajor i).val
  rw [Shape.rowMajor_val_three, Shape.rowMajor_val_two]
  show ((i 0).val / 4096 * 4096 + (i 0).val % 4096) * 1024 + (i 1).val = (i 0).val * 1024 + (i 1).val
  omega

/-- The weight matrices the projection kernel reads are the arguments. -/
theorem host_v2 : StableHlo.after (hostOps0 (F := Ideal)) W (Proc.devRef .tc main_v2) = W (Proc.devRef .tc main_arg1) := by
  after_results
  rfl
theorem host_v3 : StableHlo.after (hostOps0 (F := Ideal)) W (Proc.devRef .tc main_v3) = W (Proc.devRef .tc main_arg2) := by
  after_results
  rfl
theorem host_v4 : StableHlo.after (hostOps0 (F := Ideal)) W (Proc.devRef .tc main_v4) = W (Proc.devRef .tc main_arg3) := by
  after_results
  rfl

/-- The attention kernel's three arrays are the projections folded back to [4, 4096, 1024]. -/
theorem host_v6 : StableHlo.after (hostOps1 (F := Ideal)) W (Proc.devRef .tc main_v6) = hostFold (W (Proc.devRef .tc main_v5_0)) := by
  after_results
  refine funext fun (i : S4x4096x1024.Idx) => ?_
  show shapeCast S4x4096x1024 (W (Proc.devRef .tc main_v5_0)) shapeCasts_S16384x1024_S4x4096x1024 i = _
  have h0 : (i 0).val < 4 := (i 0).isLt
  have h1 : (i 1).val < 4096 := (i 1).isLt
  refine (shapeCast_apply _ _ i (ix2 (⟨(i 0).val * 4096 + (i 1).val, by omega⟩ : Fin 16384) (i 2 : Fin 1024)) ?_).trans rfl
  show (S16384x1024.rowMajor (ix2 (⟨(i 0).val * 4096 + (i 1).val, by omega⟩ : Fin 16384) (i 2 : Fin 1024))).val = (S4x4096x1024.rowMajor i).val
  rw [Shape.rowMajor_val_three, Shape.rowMajor_val_two]
  rfl
theorem host_v7 : StableHlo.after (hostOps1 (F := Ideal)) W (Proc.devRef .tc main_v7) = hostFold (W (Proc.devRef .tc main_v5_1)) := by
  after_results
  refine funext fun (i : S4x4096x1024.Idx) => ?_
  show shapeCast S4x4096x1024 (W (Proc.devRef .tc main_v5_1)) shapeCasts_S16384x1024_S4x4096x1024 i = _
  have h0 : (i 0).val < 4 := (i 0).isLt
  have h1 : (i 1).val < 4096 := (i 1).isLt
  refine (shapeCast_apply _ _ i (ix2 (⟨(i 0).val * 4096 + (i 1).val, by omega⟩ : Fin 16384) (i 2 : Fin 1024)) ?_).trans rfl
  show (S16384x1024.rowMajor (ix2 (⟨(i 0).val * 4096 + (i 1).val, by omega⟩ : Fin 16384) (i 2 : Fin 1024))).val = (S4x4096x1024.rowMajor i).val
  rw [Shape.rowMajor_val_three, Shape.rowMajor_val_two]
  rfl
theorem host_v8 : StableHlo.after (hostOps1 (F := Ideal)) W (Proc.devRef .tc main_v8) = hostFold (W (Proc.devRef .tc main_v5_2)) := by
  after_results
  refine funext fun (i : S4x4096x1024.Idx) => ?_
  show shapeCast S4x4096x1024 (W (Proc.devRef .tc main_v5_2)) shapeCasts_S16384x1024_S4x4096x1024 i = _
  have h0 : (i 0).val < 4 := (i 0).isLt
  have h1 : (i 1).val < 4096 := (i 1).isLt
  refine (shapeCast_apply _ _ i (ix2 (⟨(i 0).val * 4096 + (i 1).val, by omega⟩ : Fin 16384) (i 2 : Fin 1024)) ?_).trans rfl
  show (S16384x1024.rowMajor (ix2 (⟨(i 0).val * 4096 + (i 1).val, by omega⟩ : Fin 16384) (i 2 : Fin 1024))).val = (S4x4096x1024.rowMajor i).val
  rw [Shape.rowMajor_val_three, Shape.rowMajor_val_two]
  rfl

end Cert.KernelIdeal.HandV

end
-- ==== Proof.RefScale.lean ====
/-
  The float constants of the reference program as extended reals. The score scale it computes, 1 / sqrt(1024), is the
  f32 word of 1/32 (1024 = 32², and 1/32 is a power of two); the word the mask fills with, and the row maximum starts
  from, is minus infinity.
-/
import Idealize.ShloMosaic.PureOps.Ideal

noncomputable section

namespace Cert.Attn.Ref

open Idealize.ShloMosaic

/-- The word of 1.0 denotes 1. -/
theorem ofBits_one : Ideal.ofBits .f32 0x3F800000#32 = 1 := by
  simp [Ideal.ofBits, Ideal.ieee, -EReal.coe_mul]; norm_num

/-- The word of 1024.0 denotes the real 1024. -/
theorem ofBits_1024 : Ideal.ofBits .f32 0x44800000#32 = ((1024 : ℝ) : EReal) := by
  simp [Ideal.ofBits, Ideal.ieee, -EReal.coe_mul]; norm_num

/-- The word 0x3D000000 denotes the real 1/32. -/
theorem ofBits_inv32 : Ideal.ofBits .f32 0x3D000000#32 = ((1 / 32 : ℝ) : EReal) := by
  simp [Ideal.ofBits, Ideal.ieee, -EReal.coe_mul]; norm_num

/-- The word 0xFF800000 denotes minus infinity. -/
theorem ofBits_neg_inf : Ideal.ofBits .f32 0xFF800000#32 = ⊥ := by
  simp [Ideal.ofBits, Ideal.ieee]

/-- The square root of 1024 is 32. -/
theorem sqrt_1024 : Ideal.sqrt ((1024 : ℝ) : EReal) = ((32 : ℝ) : EReal) := by
  show (if (1024 : ℝ) < 0 then (⊥ : EReal) else (Real.sqrt 1024 : EReal)) = _
  rw [if_neg (by norm_num)]
  have h : Real.sqrt 1024 = 32 := by
    rw [show (1024 : ℝ) = 32 ^ 2 by norm_num]; exact Real.sqrt_sq (by norm_num)
  rw [h]

/-- 1 / sqrt(1024), computed on the extended reals, is the real 1/32: the word Spec.lean's `scale` spells. -/
theorem scale_eq :
    Ideal.div (Ideal.ofBits .f32 0x3F800000#32) (Ideal.sqrt (Ideal.ofBits .f32 0x44800000#32))
      = Ideal.ofBits .f32 0x3D000000#32 := by
  rw [ofBits_one, ofBits_1024, sqrt_1024, ofBits_inv32, Ideal.div_coe (by norm_num : (32 : ℝ) ≠ 0), one_mul]

end Cert.Attn.Ref

end
-- ==== Proof.KernelValue.lean ====
/-
  The idealized kernel's result as one function of its four arguments.

  The attention kernel's output array is causal attention of the three arrays it reads; those are the three products
  the projection kernel leaves, folded back to [4, 4096, 1024]; and the projection kernel's operands are the flattened
  activations and the three weight matrices.  Composed: the program's result is the specification `G` of the arguments,
  provided the arguments hold reals (then so do the projections, which is what the online softmax needs).
-/
import proofs.«168439_j45234595561646_2_alg».proof.Proof.Run
import proofs.«168439_j45234595561646_2_alg».proof.Proof.Frame1
import proofs.«168439_j45234595561646_2_alg».proof.Proof.Attn1
import proofs.«168439_j45234595561646_2_alg».proof.Proof.GSpec
import proofs.«168439_j45234595561646_2_alg».proof.Proof.ProjValue
import proofs.«168439_j45234595561646_2_alg».proof.Proof.HostValue
import proofs.«168439_j45234595561646_2_alg».proof.Proof.RefScale

noncomputable section

namespace Cert.KernelIdeal.HandV

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand Cert.Attn
open Cert.Attn.Online (IsReal)

/-- The attention region's proof data with the facts the program's run takes. -/
def R1I : Reg1 Ideal where
  dat := dat1
  hA := A_eq1
  hq := fun _ _ _ => rfl
  howed := fun _ _ _ => rfl
  hrec := fun _ _ => rfl
  hbody := body_obligation1
  hin := hin1
  hout := hout1

variable (m : (ℓ : Loc nD τ sig) → Buf (Elt Ideal) ℓ) (ρ : Dev nD → PrngReg)

/-- The four arguments as launched, on core `c`. -/
abbrev aX (c : Dev nD) : SX.Idx → EReal := m ((c.tc : Thread nD τ).loc main_arg0)
abbrev aWq (c : Dev nD) : SW.Idx → EReal := m ((c.tc : Thread nD τ).loc main_arg1)
abbrev aWk (c : Dev nD) : SW.Idx → EReal := m ((c.tc : Thread nD τ).loc main_arg2)
abbrev aWv (c : Dev nD) : SW.Idx → EReal := m ((c.tc : Thread nD τ).loc main_arg3)

/-- A product of the flattened activations with a weight matrix, folded back, is the projection of the specification. -/
theorem fold_proj (X : SX.Idx → EReal) (Wt : SW.Idx → EReal) :
    hostFold (projArr (hostFlat X) Wt) = projA X Wt := by
  funext i
  obtain ⟨b, s, e, rfl⟩ : ∃ (b : Fin 4) (s : Fin 4096) (e : Fin 1024), i = ix3 b s e := ⟨i 0, i 1, i 2, eq_ix3 i⟩
  have hb : b.val < 4 := b.isLt
  have hs : s.val < 4096 := s.isLt
  rw [hostFold_apply _ b s e (by omega), projArr_apply, projA_ix3]
  unfold proj
  refine Finset.sum_congr rfl fun d _ => ?_
  refine congrArg (· * Wt (ix2 d e)) ?_
  rw [hostFlat_apply]
  refine congrArg X ?_
  funext a
  match a with
  | ⟨0, _⟩ => exact Fin.ext (by show (b.val * 4096 + s.val) / 4096 = b.val; omega)
  | ⟨1, _⟩ => exact Fin.ext (by show (b.val * 4096 + s.val) % 4096 = s.val; omega)
  | ⟨2, _⟩ => rfl

/-- The query array the attention kernel reads is the projection by the first weight matrix. -/
theorem Qa_entry (c : Dev nD) : Qa (V3 m ρ) c = projA (aX m c) (aWq m c) := by
  have h6 : (V3 m ρ c main_v6 : S4x4096x1024.Idx → EReal) = hostFold (W2 m ρ c (Proc.devRef .tc main_v5_0)) := host_v6 (W2 m ρ c)
  have h5 : (W2 m ρ c (Proc.devRef .tc main_v5_0) : S16384x1024.Idx → EReal) = projArr (V1 m ρ c main_v1) (V1 m ρ c main_v2) :=
    (W2_arr m ρ c 4).trans (proj_arr4 (V1 m ρ) c (dat0 (V1 m ρ) c) (A_eq0 (V1 m ρ) c) (after0_4 (V1 m ρ) c))
  have h1 : (V1 m ρ c main_v1 : S16384x1024.Idx → EReal) = hostFlat (aX m c) := host_v1 (W0 m ρ c)
  have h2 : (V1 m ρ c main_v2 : S1024x1024.Idx → EReal) = aWq m c := host_v2 (W0 m ρ c)
  show (V3 m ρ c main_v6 : S4x4096x1024.Idx → EReal) = _
  rw [h6, h5, h1, h2]
  exact fold_proj _ _

theorem Ka_entry (c : Dev nD) : Ka (V3 m ρ) c = projA (aX m c) (aWk m c) := by
  have h6 : (V3 m ρ c main_v7 : S4x4096x1024.Idx → EReal) = hostFold (W2 m ρ c (Proc.devRef .tc main_v5_1)) := host_v7 (W2 m ρ c)
  have h5 : (W2 m ρ c (Proc.devRef .tc main_v5_1) : S16384x1024.Idx → EReal) = projArr (V1 m ρ c main_v1) (V1 m ρ c main_v3) :=
    (W2_arr m ρ c 5).trans (proj_arr5 (V1 m ρ) c (dat0 (V1 m ρ) c) (A_eq0 (V1 m ρ) c) (after0_5 (V1 m ρ) c))
  have h1 : (V1 m ρ c main_v1 : S16384x1024.Idx → EReal) = hostFlat (aX m c) := host_v1 (W0 m ρ c)
  have h2 : (V1 m ρ c main_v3 : S1024x1024.Idx → EReal) = aWk m c := host_v3 (W0 m ρ c)
  show (V3 m ρ c main_v7 : S4x4096x1024.Idx → EReal) = _
  rw [h6, h5, h1, h2]
  exact fold_proj _ _

theorem Wa_entry (c : Dev nD) : Wa (V3 m ρ) c = projA (aX m c) (aWv m c) := by
  have h6 : (V3 m ρ c main_v8 : S4x4096x1024.Idx → EReal) = hostFold (W2 m ρ c (Proc.devRef .tc main_v5_2)) := host_v8 (W2 m ρ c)
  have h5 : (W2 m ρ c (Proc.devRef .tc main_v5_2) : S16384x1024.Idx → EReal) = projArr (V1 m ρ c main_v1) (V1 m ρ c main_v4) :=
    (W2_arr m ρ c 6).trans (proj_arr6 (V1 m ρ) c (dat0 (V1 m ρ) c) (A_eq0 (V1 m ρ) c) (after0_6 (V1 m ρ) c))
  have h1 : (V1 m ρ c main_v1 : S16384x1024.Idx → EReal) = hostFlat (aX m c) := host_v1 (W0 m ρ c)
  have h2 : (V1 m ρ c main_v4 : S1024x1024.Idx → EReal) = aWv m c := host_v4 (W0 m ρ c)
  show (V3 m ρ c main_v8 : S4x4096x1024.Idx → EReal) = _
  rw [h6, h5, h1, h2]
  exact fold_proj _ _

/-- The scale word denotes a real. -/
theorem scale_real : IsReal scale := ⟨1 / 32, Cert.Attn.Ref.ofBits_inv32⟩

/-- THE RESULT ARRAY after the run, for arguments holding reals. -/
theorem v9_eq_G (c : Dev nD) (hx : ∀ i, IsReal (aX m c i)) (hq : ∀ i, IsReal (aWq m c i)) (hk : ∀ i, IsReal (aWk m c i))
    (hv : ∀ i, IsReal (aWv m c i)) :
    W4 R1I m ρ c (Proc.devRef .tc main_v9) = G (aX m c) (aWq m c) (aWk m c) (aWv m c) := by
  refine (W4_main_v9 R1I m ρ c).trans ?_
  have hQ : ∀ i, IsReal (Qa (V3 m ρ) c i) := fun i => by rw [Qa_entry]; exact projA_real _ _ hx hq i
  have hK : ∀ i, IsReal (Ka (V3 m ρ) c i) := fun i => by rw [Ka_entry]; exact projA_real _ _ hx hk i
  have hW : ∀ i, IsReal (Wa (V3 m ρ) c i) := fun i => by rw [Wa_entry]; exact projA_real _ _ hx hv i
  refine (attn_arr (V3 m ρ) c (R1I.dat (V3 m ρ) c) (after1_3 (V3 m ρ) c) hQ hK hW scale_real).trans ?_
  unfold attnArr
  rw [Qa_entry, Ka_entry, Wa_entry]
  exact attn_proj_eq_G _ _ _ _

end Cert.KernelIdeal.HandV

end
-- ==== Proof.Finite.lean ====
/-
  From the precondition to real entries.

  The precondition says that, of each of the four argument arrays, every entry's absolute value is below plus
  infinity.  Over the extended reals the absolute value of x is the larger of x and -x, which is plus infinity at both
  infinities; so every entry is a real number.
-/
import proofs.«168439_j45234595561646_2_alg».proof.Defs
import proofs.«168439_j45234595561646_2_alg».proof.Proof.Gen.Pre_finite_inputs
import Idealize.ShloMosaic.Lib.ReduceAll
import Idealize.ShloMosaic.Lib.ValueIdx
import Idealize.ShloMosaic.PureOps.Ideal.Laws

noncomputable section

namespace Cert.KernelIdeal.HandV

open Idealize.ShloMosaic Idealize.ShloMosaic.TcCoe Idealize.ShloMosaic.ValueIdx
open Idealize.SL Idealize.SL.Sem
open Cert.KernelIdeal

instance fin_subsingleton : Subsingleton Cert.Pre_finite_inputs.S_.Idx := ⟨fun a b => funext fun d => d.elim0⟩

/-- The f32 word 0x7F800000 is plus infinity. -/
theorem fin_inf : Ideal.ofBits .f32 0x7F800000#32 = (⊤ : EReal) := by
  simp [Ideal.ofBits, Ideal.ieee]

/-- An extended real whose absolute value is below plus infinity is a real. -/
theorem fin_elem (x : EReal) (h : Ideal.cmp .olt (max x (-x)) (Ideal.ofBits .f32 0x7F800000#32) = 1#1) : ∃ r : ℝ, x = (r : EReal) := by
  rw [fin_inf] at h
  induction x using EReal.rec with
  | bot => exact absurd h (by simp [Ideal.cmp])
  | top => exact absurd h (by simp [Ideal.cmp])
  | coe r => exact ⟨r, rfl⟩

/-- Under the precondition every entry of the four argument arrays is a real number. -/
theorem fin_args (m : (ℓ : Loc nD τ sig) → Buf (Elt Ideal) ℓ) (h : Cert.Pre_KernelIdeal m) (c : Dev nD) :
    (∀ i : S4x4096x1024.Idx, ∃ r : ℝ, (m ((c.tc : Thread nD τ).loc main_arg0) : S4x4096x1024.Idx → EReal) i = (r : EReal))
    ∧ (∀ i : S1024x1024.Idx, ∃ r : ℝ, (m ((c.tc : Thread nD τ).loc main_arg1) : S1024x1024.Idx → EReal) i = (r : EReal))
    ∧ (∀ i : S1024x1024.Idx, ∃ r : ℝ, (m ((c.tc : Thread nD τ).loc main_arg2) : S1024x1024.Idx → EReal) i = (r : EReal))
    ∧ (∀ i : S1024x1024.Idx, ∃ r : ℝ, (m ((c.tc : Thread nD τ).loc main_arg3) : S1024x1024.Idx → EReal) i = (r : EReal)) := by
  have h0 := congrFun (h c) ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => fin_elem _ (Host.reduce_andi_all _ _ _ _ ix0 e0 i), fun i => fin_elem _ (Host.reduce_andi_all _ _ _ _ ix0 e1 i),
    fun i => fin_elem _ (Host.reduce_andi_all _ _ _ _ ix0 e2 i), fun i => fin_elem _ (Host.reduce_andi_all _ _ _ _ ix0 e3 i)⟩

end Cert.KernelIdeal.HandV

end
-- ==== Proof.KernelRun.lean ====
/-
  The idealized kernel's run, stated with the specification: under the precondition (every argument entry finite, hence
  a real) every weakly fair execution terminates with the result array at `G` of the arguments and the arguments
  unchanged.
-/
import proofs.«168439_j45234595561646_2_alg».proof.Defs
import proofs.«168439_j45234595561646_2_alg».proof.Proof.KernelValue
import proofs.«168439_j45234595561646_2_alg».proof.Proof.Finite

noncomputable section

namespace Cert.KernelIdeal.HandV

open Idealize.ShloMosaic Idealize.ShloMosaic.TcCoe
open Idealize.SL Idealize.SL.Sem
open Cert.KernelIdeal Cert.KernelIdeal.Gen Cert.KernelIdeal.Hand Cert.Attn

theorem run_G (m : (ℓ : Loc nD τ sig) → Buf (Elt Ideal) ℓ) (ρ : Dev nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev nD,
        r.2.mem ((c.tc : Thread nD τ).loc main_v9)
          = G (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run Cert.KernelIdeal.defs _ _).mono (fun r h c => by
    obtain ⟨hx, hq, hk, hv⟩ := fin_args m hpre c
    exact ⟨(h c _ (mem_uc main_v9 (by decide))).trans (v9_eq_G m ρ c hx hq hk hv),
      (h c _ (mem_uc main_arg0 (by decide))).trans (W4_main_arg0 R1I m ρ c),
      (h c _ (mem_uc main_arg1 (by decide))).trans (W4_main_arg1 R1I m ρ c),
      (h c _ (mem_uc main_arg2 (by decide))).trans (W4_main_arg2 R1I m ρ c),
      (h c _ (mem_uc main_arg3 (by decide))).trans (W4_main_arg3 R1I m ρ c)⟩)
    (run_all R1I m ρ)

end Cert.KernelIdeal.HandV

end
-- ==== Proof.RefMask.lean ====
/-
  The causal mask's integer comparison. The reference compares, as signed 32-bit words, "row number + 0" against the
  column number; for numbers below 4096 the comparison holds exactly when column ≤ row, and selecting by its outcome is
  an if-then-else on that inequality.
-/
import Idealize.ShloMosaic.Lib.ValueIdx

namespace Cert.Attn.Ref

open Idealize.ShloMosaic

/-- A number below 4096, as a 32-bit word read as a signed integer, is itself. -/
theorem toInt_word (n : Nat) (h : n < 4096) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- "q + 0 ≥ k" on signed 32-bit words is "k ≤ q" for numbers below 4096. -/
theorem sge_word (q k : Nat) (hq : q < 4096) (hk : k < 4096) :
    IntOp.cmpi .sge (IntOp.addi (BitVec.ofNat 32 q) 0#32) (BitVec.ofNat 32 k) = if k ≤ q then 1#1 else 0#1 := by
  unfold IntOp.cmpi IntOp.addi
  rw [BitVec.add_zero]
  show BitVec.ofBool ((BitVec.ofNat 32 k).sle (BitVec.ofNat 32 q)) = _
  rw [BitVec.sle_eq_decide, toInt_word q hq, toInt_word k hk]
  by_cases h : k ≤ q
  · rw [if_pos h, decide_eq_true (by exact_mod_cast h)]; rfl
  · rw [if_neg h, decide_eq_false (by exact_mod_cast h)]; rfl

/-- Selecting by a one-bit word that spells a decidable proposition is the if-then-else on the proposition. -/
theorem select_ite {α : Type} (p : Prop) [Decidable p] (a b : α) :
    Scalar.select (if p then 1#1 else 0#1) a b = if p then a else b := by
  by_cases h : p
  · rw [if_pos h, if_pos h]; exact ValueIdx.select_one a b
  · rw [if_neg h, if_neg h]; exact ValueIdx.select_zero a b

end Cert.Attn.Ref
-- ==== Proof.RefValue.lean ====
/-
  The reference program computes the attention function of Spec.lean.

  Read one operation at a time, at an index built from its coordinates: the three projections are the sums `proj`;
  the scores are their row-by-row products times the scale 1/sqrt(1024) = 1/32; the lower-triangular mask keeps the
  score where the key's number is at most the query's and puts minus infinity elsewhere; the softmax's row maximum is
  the fold of `max` from minus infinity over the row (the further maximum against minus infinity changes nothing); the
  weights are the exponentials of the differences, their sum (from zero) the denominator; and the last product with
  the value projection is `attn`. So the program's result array is `G` of its four arguments.
-/
import proofs.«168439_j45234595561646_2_alg».proof.Proof.Gen.ReferenceIdeal.Read
import proofs.«168439_j45234595561646_2_alg».proof.Proof.Spec
import proofs.«168439_j45234595561646_2_alg».proof.Proof.RefScale
import proofs.«168439_j45234595561646_2_alg».proof.Proof.RefMask

noncomputable section

namespace Cert.Attn.Ref

open Idealize.ShloMosaic Idealize.ShloMosaic.ValueIdx
open Cert.ReferenceIdeal Cert.ReferenceIdeal.Gen Cert.ReferenceIdeal.Read

/-! ## The index functions of the read lemmas, at indices built from coordinates -/

theorem lidx_proj (b : Fin 4) (s : Fin 4096) (e d : Fin 1024) : lidx_main_v0 (ix3 b s e) d = ix3 b s d :=
  funext fun a => Fin.ext (by match a with | ⟨0, _⟩ => rfl | ⟨1, _⟩ => rfl | ⟨2, _⟩ => rfl)

theorem ridx_proj (b : Fin 4) (s : Fin 4096) (e d : Fin 1024) : ridx_main_v0 (ix3 b s e) d = ix2 d e :=
  funext fun a => Fin.ext (by match a with | ⟨0, _⟩ => rfl | ⟨1, _⟩ => rfl)

theorem lidx_qk (b : Fin 4) (q k : Fin 4096) (e : Fin 1024) : lidx_main_v5 (ix3 b q k) e = ix3 b q e :=
  funext fun a => Fin.ext (by match a with | ⟨0, _⟩ => rfl | ⟨1, _⟩ => rfl | ⟨2, _⟩ => rfl)

theorem ridx_qk (b : Fin 4) (q k : Fin 4096) (e : Fin 1024) : ridx_main_v5 (ix3 b q k) e = ix3 b k e :=
  funext fun a => Fin.ext (by match a with | ⟨0, _⟩ => rfl | ⟨1, _⟩ => rfl | ⟨2, _⟩ => rfl)

theorem idx_mask (b : Fin 4) (q k : Fin 4096) : idx_main_call1_v1 (ix3 b q k) = ix2 q k :=
  funext fun a => Fin.ext (by match a with | ⟨0, _⟩ => rfl | ⟨1, _⟩ => rfl)

theorem idx_rowMax (b : Fin 4) (q k : Fin 4096) : idx_main_v14 (idx_main_v15 (ix3 b q k)) = ix2 b q :=
  funext fun a => Fin.ext (by match a with | ⟨0, _⟩ => rfl | ⟨1, _⟩ => rfl)

theorem idx_sum (b : Fin 4) (q k : Fin 4096) : idx_main_v18 (ix2 b q) k = ix3 b q k :=
  funext fun a => Fin.ext (by match a with | ⟨0, _⟩ => rfl | ⟨1, _⟩ => rfl | ⟨2, _⟩ => rfl)

theorem idx_denom (b : Fin 4) (q k : Fin 4096) : idx_main_v19 (idx_main_v20 (ix3 b q k)) = ix2 b q :=
  funext fun a => Fin.ext (by match a with | ⟨0, _⟩ => rfl | ⟨1, _⟩ => rfl)

theorem lidx_out (b : Fin 4) (q : Fin 4096) (e : Fin 1024) (k : Fin 4096) : lidx_main_v22 (ix3 b q e) k = ix3 b q k :=
  funext fun a => Fin.ext (by match a with | ⟨0, _⟩ => rfl | ⟨1, _⟩ => rfl | ⟨2, _⟩ => rfl)

theorem ridx_out (b : Fin 4) (q : Fin 4096) (e : Fin 1024) (k : Fin 4096) : ridx_main_v22 (ix3 b q e) k = ix3 b k e :=
  funext fun a => Fin.ext (by match a with | ⟨0, _⟩ => rfl | ⟨1, _⟩ => rfl | ⟨2, _⟩ => rfl)

/-- The reduced index (b, q) with the key's number put back is (b, q, k). -/
theorem lift_row (h : S4x4096x4096.Reduces [2] S4x4096) (b : Fin 4) (q : Fin 4096) (k : Fin (S4x4096x4096.size 2)) :
    h.lift (ix2 b q) k = ix3 b q (⟨k.val, k.isLt⟩ : Fin 4096) :=
  funext fun a => Fin.ext (by match a with | ⟨0, _⟩ => rfl | ⟨1, _⟩ => rfl | ⟨2, _⟩ => rfl)

variable (x : FVec Ideal S4x4096x1024 .f32) (wq wk wv : FVec Ideal S1024x1024 .f32)

/-! ## The stages -/

/-- A projection `x · w` at (b, s, e). -/
theorem proj_at (w : FVec Ideal S1024x1024 .f32) (b : Fin 4) (s : Fin 4096) (e : Fin 1024) :
    val_main_v0 (F := Ideal) x w (ix3 b s e) = proj x w b s e := by
  rw [val_main_v0_apply]
  show _ = ∑ d : Fin 1024, x (ix3 b s d) * w (ix2 d e)
  refine Finset.sum_congr rfl fun d _ => ?_
  rw [lidx_proj, ridx_proj]

/-- The key and value projections are the same operation on another weight matrix. -/
theorem proj_k_at (b : Fin 4) (s : Fin 4096) (e : Fin 1024) :
    val_main_v1 (F := Ideal) x wk (ix3 b s e) = proj x wk b s e := proj_at x wk b s e

theorem proj_v_at (b : Fin 4) (s : Fin 4096) (e : Fin 1024) :
    val_main_v2 (F := Ideal) x wv (ix3 b s e) = proj x wv b s e := proj_at x wv b s e

/-- The scale the program computes, 1 / sqrt(1024), is Spec.lean's `scale`. -/
theorem scale_at (i : S_.Idx) : val_main_v4 (F := Ideal) i = scale := by
  rw [val_main_v4_apply, val_main_cst_0_apply, val_main_v3_apply, val_main_cst_apply]
  exact scale_eq

/-- The unscaled score: the product of query row q and key row k. -/
theorem qk_at (b : Fin 4) (q k : Fin 4096) :
    val_main_v5 (F := Ideal) x wq wk (ix3 b q k) = ∑ e : Fin 1024, proj x wq b q e * proj x wk b k e := by
  rw [val_main_v5_apply]
  refine Finset.sum_congr rfl fun e _ => ?_
  rw [lidx_qk, ridx_qk, proj_at, proj_k_at]

theorem score_at (b : Fin 4) (q k : Fin 4096) :
    val_main_v7 (F := Ideal) x wq wk (ix3 b q k) = score x wq wk b q k := by
  rw [val_main_v7_apply, qk_at, val_main_v6_apply, scale_at]
  rfl

/-- The lower-triangular mask at (q, k) spells "k ≤ q". -/
theorem tril_at (q k : Fin 4096) :
    val_main_v9 (F := Ideal) (ix2 q k) = if k.val ≤ q.val then 1#1 else 0#1 := by
  rw [val_main_v9_apply, val_main_call0_v4_apply, val_main_call0_v2_apply, val_main_call0_v0_apply,
    val_main_call0_v1_apply, val_main_call0_c_apply, val_main_call0_v3_apply, val_main_v8_apply, val_main_c_apply,
    val_main_call0_v5_apply, val_main_call0_c_0_apply]
  show Scalar.select (IntOp.cmpi .sge (IntOp.addi (BitVec.ofNat 32 q.val) 0#32) (BitVec.ofNat 32 k.val)) 1#1 0#1 = _
  rw [sge_word q.val k.val q.isLt k.isLt, select_ite]

/-- The masked score: the score where k ≤ q, minus infinity elsewhere. -/
theorem masked_at (b : Fin 4) (q k : Fin 4096) :
    val_main_v10 (F := Ideal) x wq wk (ix3 b q k) = masked x wq wk b q k := by
  rw [val_main_v10_apply, val_main_call1_v1_apply, idx_mask, tril_at, score_at, val_main_call1_v2_apply,
    val_main_call1_v0_apply, val_main_cst_1_apply, select_ite]
  show (if k.val ≤ q.val then score x wq wk b q k else Ideal.ofBits .f32 0xFF800000#32)
    = if k.val ≤ q.val then score x wq wk b q k else ⊥
  rw [ofBits_neg_inf]

/-- Over any array of scores: the reduction with a maximum body from minus infinity over the last axis is, at
    (b, q), the fold of `max` from minus infinity over that row. -/
theorem reduce_max_row (y : FVec Ideal S4x4096x4096 .f32) (b : Fin 4) (q : Fin 4096) :
    Host.reduce FloatOps.maximumf y (val_main_cst_2 (F := Ideal)) reducesTo_S4x4096x4096_S4x4096_d2 h_S_ (ix2 b q)
      = (Finset.univ : Finset (Fin 4096)).fold max ⊥ (fun k : Fin 4096 => y (ix3 b q k)) := by
  have h : S4x4096x4096.Reduces [2] S4x4096 := by decide
  refine (Host.reduce_eq_fold_single FloatOps.maximumf y (val_main_cst_2 (F := Ideal))
    reducesTo_S4x4096x4096_S4x4096_d2 h h_S_ (ix2 b q)).trans ?_
  have hf : (y ∘ h.lift (ix2 b q)) = fun k : Fin 4096 => y (ix3 b q k) :=
    funext fun k => congrArg y (lift_row h b q k)
  rw [hf]
  show (Finset.univ : Finset (Fin 4096)).fold max (Ideal.ofBits .f32 0xFF800000#32) _ = _
  rw [ofBits_neg_inf]

/-- The softmax's reduction over the masked scores is the row's maximum. -/
theorem rowMax_reduce (b : Fin 4) (q : Fin 4096) :
    val_main_v11 (F := Ideal) x wq wk (ix2 b q) = rowMax x wq wk b q :=
  (reduce_max_row (val_main_v10 (F := Ideal) x wq wk) b q).trans
    (congrArg (fun f => (Finset.univ : Finset (Fin 4096)).fold max ⊥ f) (funext fun k => masked_at x wq wk b q k))

/-- The further maximum against minus infinity changes nothing. -/
theorem rowMax_at (b : Fin 4) (q : Fin 4096) :
    val_main_v13 (F := Ideal) x wq wk (ix2 b q) = rowMax x wq wk b q := by
  rw [val_main_v13_apply, rowMax_reduce, val_main_v12_apply, val_main_cst_3_apply]
  show max (Ideal.ofBits .f32 0xFF800000#32) (rowMax x wq wk b q) = _
  rw [ofBits_neg_inf]
  exact max_eq_right bot_le

theorem rowMax_bcast (b : Fin 4) (q k : Fin 4096) :
    val_main_v15 (F := Ideal) x wq wk (ix3 b q k) = rowMax x wq wk b q := by
  rw [val_main_v15_apply, val_main_v14_apply, idx_rowMax, rowMax_at]

/-- The unnormalised weight. -/
theorem wexp_at (b : Fin 4) (q k : Fin 4096) :
    val_main_v17 (F := Ideal) x wq wk (ix3 b q k) = wexp x wq wk b q k := by
  rw [val_main_v17_apply, val_main_v16_apply, masked_at, rowMax_bcast]
  rfl

/-- The sum of a row's weights, from zero. -/
theorem denom_sum (b : Fin 4) (q : Fin 4096) :
    val_main_v18 (F := Ideal) x wq wk (ix2 b q) = denom x wq wk b q := by
  rw [val_main_v18_apply, val_main_cst_4_apply]
  show Ideal.ofBits .f32 0x00000000#32 + _ = ∑ k : Fin 4096, wexp x wq wk b q k
  rw [Ideal.ofBits_zero_f32, zero_add]
  refine Finset.sum_congr rfl fun k _ => ?_
  rw [idx_sum, wexp_at]

theorem denom_bcast (b : Fin 4) (q k : Fin 4096) :
    val_main_v20 (F := Ideal) x wq wk (ix3 b q k) = denom x wq wk b q := by
  rw [val_main_v20_apply, val_main_v19_apply, idx_denom, denom_sum]

/-- The normalised weight. -/
theorem weight_at (b : Fin 4) (q k : Fin 4096) :
    val_main_v21 (F := Ideal) x wq wk (ix3 b q k) = Ideal.div (wexp x wq wk b q k) (denom x wq wk b q) := by
  rw [val_main_v21_apply, wexp_at, denom_bcast]
  rfl

/-- The result at (b, q, e): the weighted sum of the value rows. -/
theorem attn_at (b : Fin 4) (q : Fin 4096) (e : Fin 1024) :
    val_main_v22 (F := Ideal) x wq wk wv (ix3 b q e) = attn x wq wk wv b q e := by
  rw [val_main_v22_apply]
  show _ = ∑ k : Fin 4096, Ideal.div (wexp x wq wk b q k) (denom x wq wk b q) * proj x wv b k e
  refine Finset.sum_congr rfl fun k _ => ?_
  rw [lidx_out, ridx_out, weight_at, proj_v_at]

/-- The reference's result array, as a function of its four arguments, is the attention function. -/
theorem result_eq : val_main_v22 (F := Ideal) x wq wk wv = Cert.Attn.G x wq wk wv := by
  funext i
  obtain ⟨b, q, e, rfl⟩ : ∃ (b : Fin 4) (q : Fin 4096) (e : Fin 1024), i = ix3 b q e := ⟨i 0, i 1, i 2, eq_ix3 i⟩
  exact attn_at x wq wk wv b q e

end Cert.Attn.Ref

end
-- ==== Proof.RefRun.lean ====
/-
  The reference's run, stated with the attention function: every weakly fair execution of the reference program
  terminates with its result array at `G` of the four argument arrays and with the arguments unchanged. The run itself is
  the generated one; what is added is that the term it ends at is `G` (RefValue.lean).
-/
import proofs.«168439_j45234595561646_2_alg».proof.Defs
import proofs.«168439_j45234595561646_2_alg».proof.Proof.Gen.Pre_finite_inputs
import proofs.«168439_j45234595561646_2_alg».proof.Proof.RefValue

noncomputable section

open Idealize.ShloMosaic Idealize.ShloMosaic.TcCoe Idealize.SL.Sem

namespace Cert.Attn.Ref

open Cert.ReferenceIdeal

/-- From any memory with zero counters the reference runs to the end, its result the attention function of the
    arguments' launch contents, the arguments unchanged. -/
theorem run_G (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev nD,
        r.2.mem ((c.tc : Thread nD τ).loc main_v22)
          = Cert.Attn.G (m' ((c.tc : Thread nD τ).loc main_arg0)) (m' ((c.tc : Thread nD τ).loc main_arg1))
              (m' ((c.tc : Thread nD τ).loc main_arg2)) (m' ((c.tc : Thread nD τ).loc main_arg3))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)) :=
  (θ_run Cert.ReferenceIdeal.defs _ _).mono
    (fun _ h c => ⟨(h c).1.trans ((Cert.ReferenceIdeal.Read.val_main_v22_eq m' c).trans (result_eq _ _ _ _)), (h c).2⟩)
    (Cert.ReferenceIdeal.Value.run (F := Ideal) m' ρ')

/-- The reference runs to the end and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.Attn.Ref

end
-- ==== Proof.lean ====
/-
  Causal self-attention computed by two kernels — a fused projection x·Wq, x·Wk, x·Wv and a blockwise online-softmax
  attention with a running maximum, denominator and numerator carried along the key blocks — against the plain
  reference softmax(Q·Kᵀ/32 + causal mask)·V, over the extended reals.

  Both programs end at one function `G` of the four arguments (Proof/Spec.lean).  For the reference this is read off its
  operations one by one (Proof/RefValue.lean).  For the kernel: the projection kernel's three results are the products
  (Proof/ProjValue.lean); the attention kernel's three scratch entries of a query row follow the online-softmax
  recurrence over the key blocks that meet the causal triangle (Proof/RowState.lean), whose quotient is the softmax-weighted
  sum over all keys when the scores are reals or minus infinity (Proof/LibOnlineSoftmax.lean: the rescaling by
  exp(old maximum − new maximum) is the identity exp(a−b)·exp(c−a) = exp(c−b) on reals, a masked key contributes zero to
  both sums, and the denominator is a positive real) — this is where the precondition is used: finite arguments make
  the projections real.  The kernel's fill constant for masked scores is named minus infinity, which is the one rewrite
  between the printed kernel and its idealization.  The three frames: each program runs to the end, faults nowhere and
  leaves its arguments unchanged (the kernels' by the two regions' body obligations, the scratch buffers' contents
  carried through the attention region's invariant).
-/
import proofs.«168439_j45234595561646_2_alg».proof.Defs
import proofs.«168439_j45234595561646_2_alg».proof.Proof.Gen.Kernel
import proofs.«168439_j45234595561646_2_alg».proof.Proof.Gen.KernelIdeal
import proofs.«168439_j45234595561646_2_alg».proof.Proof.Gen.ReferenceIdeal
import proofs.«168439_j45234595561646_2_alg».proof.Proof.Gen.Pre_finite_inputs
import proofs.«168439_j45234595561646_2_alg».proof.Proof.KFrameClaim
import proofs.«168439_j45234595561646_2_alg».proof.Proof.KernelRun
import proofs.«168439_j45234595561646_2_alg».proof.Proof.RefRun

noncomputable section

namespace Cert.Proof

open Idealize.ShloMosaic Idealize.SL.Sem

/-- The idealized kernel runs to the end and leaves its arguments unchanged (the word-level kernel's frame is
    `frame_p`, from the same modules at the word-level instance). -/
theorem frame_pi : Cert.frame_KernelIdeal := fun m ρ _ => Cert.KernelIdeal.Hand.frame Cert.KernelIdeal.HandV.R1I m ρ

/-- And the reference. -/
theorem frame_ri : Cert.frame_ReferenceIdeal := Cert.Attn.Ref.frame_ri

/-- The one rewrite of the idealization: the finite fill constant for masked scores is named minus infinity. -/
theorem preserves : Cert.preserves_Kernel_KernelIdeal :=
  IdealRules.named_const.statement Cert.KernelIdeal.κ "neg_big" .f32 0xF149F2CA#32 ⊥ rfl

/-- From memories agreeing on the arguments both idealized programs end with the result array at `G` of the arguments. -/
theorem algebraic : Cert.algebraic_KernelIdeal_ReferenceIdeal := by
  intro m ρ m' ρ' hpre hagree
  refine ⟨_, Cert.KernelIdeal.HandV.run_G m ρ hpre, ?_⟩
  refine (θ_run Cert.ReferenceIdeal.defs _ _).mono (fun _ h c => ?_) (Cert.Attn.Ref.run_G m' ρ')
  obtain ⟨h0, h1, h2, h3⟩ := hagree c
  obtain ⟨r0, r1, r2, r3, r4⟩ := h c
  exact ⟨by rw [r0, h0, h1, h2, h3], r1, r2, r3, r4⟩

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
